-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x50x50 : Shape := ⟨4, ![1, 256, 50, 50]⟩
abbrev S128x4 : Shape := ⟨2, ![128, 4]⟩
abbrev S4096x12544 : Shape := ⟨2, ![4096, 12544]⟩
abbrev S4096 : Shape := ⟨1, ![4096]⟩
abbrev S4096x4096 : Shape := ⟨2, ![4096, 4096]⟩
abbrev S21x4096 : Shape := ⟨2, ![21, 4096]⟩
abbrev S21 : Shape := ⟨1, ![21]⟩
abbrev S84x4096 : Shape := ⟨2, ![84, 4096]⟩
abbrev S84 : Shape := ⟨1, ![84]⟩
abbrev S_ : Shape := ⟨0, ![]⟩

class Facts : Prop where
  bcast_S_S1x256x50x50 : S_.BroadcastsInDim S1x256x50x50 (![] : Fin 0 → Fin S1x256x50x50.rank)
  reducesTo_S1x256x50x50_S_d0_1_2_3 : S1x256x50x50.ReducesTo [0, 1, 2, 3] S_
  h_S_ : 0 < S_.numel
  bcast_S_S128x4 : S_.BroadcastsInDim S128x4 (![] : Fin 0 → Fin S128x4.rank)
  reducesTo_S128x4_S_d0_1 : S128x4.ReducesTo [0, 1] S_
  bcast_S_S4096x12544 : S_.BroadcastsInDim S4096x12544 (![] : Fin 0 → Fin S4096x12544.rank)
  reducesTo_S4096x12544_S_d0_1 : S4096x12544.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S21x4096 : S_.BroadcastsInDim S21x4096 (![] : Fin 0 → Fin S21x4096.rank)
  reducesTo_S21x4096_S_d0_1 : S21x4096.ReducesTo [0, 1] S_
  bcast_S_S21 : S_.BroadcastsInDim S21 (![] : Fin 0 → Fin S21.rank)
  reducesTo_S21_S_d0 : S21.ReducesTo [0] S_
  bcast_S_S84x4096 : S_.BroadcastsInDim S84x4096 (![] : Fin 0 → Fin S84x4096.rank)
  reducesTo_S84x4096_S_d0_1 : S84x4096.ReducesTo [0, 1] S_
  bcast_S_S84 : S_.BroadcastsInDim S84 (![] : Fin 0 → Fin S84.rank)
  reducesTo_S84_S_d0 : S84.ReducesTo [0] S_

variable [Facts]

def fn_part2 {F : FTy → Type} [FloatOps F] (main_arg7 : FVec F S21 .f32) (main_arg8 : FVec F S84x4096 .f32) (main_arg9 : FVec F S84 .f32) (main_v33 : IVec S_ 1) : IVec S_ 1 :=
  let main_v34 : FVec F S21 .f32 := Host.absf main_arg7
  let main_cst_12 : FVec F S_ .f32 := constant S_ .f32 0x7F800000#32
  let main_v35 : FVec F S21 .f32 := broadcastInDim S21 ![] bcast_S_S21 main_cst_12
  let main_v36 : IVec S21 1 := cmpf .olt main_v34 main_v35
  let main_c_13 : IVec S_ 1 := constantI S_ 1 1#1
  let main_v37 : IVec S_ 1 := (fun x v => Host.reduce IntOp.andi x v reducesTo_S21_S_d0 h_S_) main_v36 main_c_13
  let main_v38 : IVec S_ 1 := andi main_v33 main_v37
  let main_v39 : FVec F S84x4096 .f32 := Host.absf main_arg8
  let main_cst_14 : FVec F S_ .f32 := constant S_ .f32 0x7F800000#32
  let main_v40 : FVec F S84x4096 .f32 := broadcastInDim S84x4096 ![] bcast_S_S84x4096 main_cst_14
  let main_v41 : IVec S84x4096 1 := cmpf .olt main_v39 main_v40
  let main_c_15 : IVec S_ 1 := constantI S_ 1 1#1
  let main_v42 : IVec S_ 1 := (fun x v => Host.reduce IntOp.andi x v reducesTo_S84x4096_S_d0_1 h_S_) main_v41 main_c_15
  let main_v43 : IVec S_ 1 := andi main_v38 main_v42
  let main_v44 : FVec F S84 .f32 := Host.absf main_arg9
  let main_cst_16 : FVec F S_ .f32 := constant S_ .f32 0x7F800000#32
  let main_v45 : FVec F S84 .f32 := broadcastInDim S84 ![] bcast_S_S84 main_cst_16
  let main_v46 : IVec S84 1 := cmpf .olt main_v44 main_v45
  let main_c_17 : IVec S_ 1 := constantI S_ 1 1#1
  let main_v47 : IVec S_ 1 := (fun x v => Host.reduce IntOp.andi x v reducesTo_S84_S_d0 h_S_) main_v46 main_c_17
  let main_v48 : IVec S_ 1 := andi main_v43 main_v47
  main_v48

def fn_part1 {F : FTy → Type} [FloatOps F] (main_arg4 : FVec F S4096x4096 .f32) (main_arg5 : FVec F S4096 .f32) (main_arg6 : FVec F S21x4096 .f32) (main_arg7 : FVec F S21 .f32) (main_arg8 : FVec F S84x4096 .f32) (main_arg9 : FVec F S84 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S21x4096 .f32 := Host.absf main_arg6
  let main_cst_10 : FVec F S_ .f32 := constant S_ .f32 0x7F800000#32
  let main_v30 : FVec F S21x4096 .f32 := broadcastInDim S21x4096 ![] bcast_S_S21x4096 main_cst_10
  let main_v31 : IVec S21x4096 1 := cmpf .olt main_v29 main_v30
  let main_c_11 : IVec S_ 1 := constantI S_ 1 1#1
  let main_v32 : IVec S_ 1 := (fun x v => Host.reduce IntOp.andi x v reducesTo_S21x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x256x50x50 .f32) (main_arg1 : FVec F S128x4 .f32) (main_arg2 : FVec F S4096x12544 .f32) (main_arg3 : FVec F S4096 .f32) (main_arg4 : FVec F S4096x4096 .f32) (main_arg5 : FVec F S4096 .f32) (main_arg6 : FVec F S21x4096 .f32) (main_arg7 : FVec F S21 .f32) (main_arg8 : FVec F S84x4096 .f32) (main_arg9 : FVec F S84 .f32) : IVec S_ 1 :=
  let main_v0 : FVec F S1x256x50x50 .f32 := Host.absf main_arg0
  let main_cst : FVec F S_ .f32 := constant S_ .f32 0x7F800000#32
  let main_v1 : FVec F S1x256x50x50 .f32 := broadcastInDim S1x256x50x50 ![] bcast_S_S1x256x50x50 main_cst
  let main_v2 : IVec S1x256x50x50 1 := cmpf .olt main_v0 main_v1
  let main_c : IVec S_ 1 := constantI S_ 1 1#1
  let main_v3 : IVec S_ 1 := (fun x v => Host.reduce IntOp.andi x v reducesTo_S1x256x50x50_S_d0_1_2_3 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4096x12544 .f32 := Host.absf main_arg2
  let main_cst_2 : FVec F S_ .f32 := constant S_ .f32 0x7F800000#32
  let main_v10 : FVec F S4096x12544 .f32 := broadcastInDim S4096x12544 ![] bcast_S_S4096x12544 main_cst_2
  let main_v11 : IVec S4096x12544 1 := cmpf .olt main_v9 main_v10
  let main_c_3 : IVec S_ 1 := constantI S_ 1 1#1
  let main_v12 : IVec S_ 1 := (fun x v => Host.reduce IntOp.andi x v reducesTo_S4096x12544_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S1x256x50x50 : Shape := ⟨4, ![1, 256, 50, 50]⟩
abbrev S128x4 : Shape := ⟨2, ![128, 4]⟩
abbrev S4096x12544 : Shape := ⟨2, ![4096, 12544]⟩
abbrev S4096 : Shape := ⟨1, ![4096]⟩
abbrev S4096x4096 : Shape := ⟨2, ![4096, 4096]⟩
abbrev S21x4096 : Shape := ⟨2, ![21, 4096]⟩
abbrev S21 : Shape := ⟨1, ![21]⟩
abbrev S84x4096 : Shape := ⟨2, ![84, 4096]⟩
abbrev S84 : Shape := ⟨1, ![84]⟩
abbrev S256x50x50 : Shape := ⟨3, ![256, 50, 50]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S9 : Shape := ⟨1, ![9]⟩
abbrev S128x7x1 : Shape := ⟨3, ![128, 7, 1]⟩
abbrev S1x1x9 : Shape := ⟨3, ![1, 1, 9]⟩
abbrev S128x7x9 : Shape := ⟨3, ![128, 7, 9]⟩
abbrev S128x7x9x1 : Shape := ⟨4, ![128, 7, 9, 1]⟩
abbrev S256x128x7x9x50 : Shape := ⟨5, ![256, 128, 7, 9, 50]⟩
abbrev S1x128x7x9x1 : Shape := ⟨5, ![1, 128, 7, 9, 1]⟩
abbrev S256x128x7x50 : Shape := ⟨4, ![256, 128, 7, 50]⟩
abbrev S128x256x7x50 : Shape := ⟨4, ![128, 256, 7, 50]⟩
abbrev S128x1x1x63 : Shape := ⟨4, ![128, 1, 1, 63]⟩
abbrev S128x63x1 : Shape := ⟨3, ![128, 63, 1]⟩
abbrev S1 : Shape := ⟨1, ![1]⟩
abbrev S1x1x1 : Shape := ⟨3, ![1, 1, 1]⟩
abbrev S128x63 : Shape := ⟨2, ![128, 63]⟩
abbrev S128x256x7x63 : Shape := ⟨4, ![128, 256, 7, 63]⟩
abbrev S128x256x7x7x9 : Shape := ⟨5, ![128, 256, 7, 7, 9]⟩
abbrev S128x1x1x7x9 : Shape := ⟨5, ![128, 1, 1, 7, 9]⟩
abbrev S128x256x7x7 : Shape := ⟨4, ![128, 256, 7, 7]⟩
abbrev S128x12544 : Shape := ⟨2, ![128, 12544]⟩
abbrev S1x4096 : Shape := ⟨2, ![1, 4096]⟩
abbrev S128x4096 : Shape := ⟨2, ![128, 4096]⟩
abbrev S256x12544 : Shape := ⟨2, ![256, 12544]⟩
abbrev S1x256 : Shape := ⟨2, ![1, 256]⟩
abbrev S128x256 : Shape := ⟨2, ![128, 256]⟩
abbrev S512x4096 : Shape := ⟨2, ![512, 4096]⟩
abbrev S1x512 : Shape := ⟨2, ![1, 512]⟩
abbrev S128x512 : Shape := ⟨2, ![128, 512]⟩
abbrev S105x4096 : Shape := ⟨2, ![105, 4096]⟩
abbrev S105 : Shape := ⟨1, ![105]⟩
abbrev S1x105 : Shape := ⟨2, ![1, 105]⟩
abbrev S128x105 : Shape := ⟨2, ![128, 105]⟩
abbrev S128x21 : Shape := ⟨2, ![128, 21]⟩
abbrev S128x84 : Shape := ⟨2, ![128, 84]⟩
abbrev S128x21x4 : Shape := ⟨3, ![128, 21, 4]⟩

abbrev nBuf : Space → Nat
  | .hbm => 250
  | .vmem => 18
  | .smem => 0
  | _ => 0

abbrev hbmTy0_0 (i : Nat) : BufTy := match i % 128 with
  | 0 => ⟨S1x256x50x50, .f32⟩
  | 1 => ⟨S128x4, .f32⟩
  | 2 => ⟨S4096x12544, .f32⟩
  | 3 => ⟨S4096, .f32⟩
  | 4 => ⟨S4096x4096, .f32⟩
  | 5 => ⟨S4096, .f32⟩
  | 6 => ⟨S21x4096, .f32⟩
  | 7 => ⟨S21, .f32⟩
  | 8 => ⟨S84x4096, .f32⟩
  | 9 => ⟨S84, .f32⟩
  | 10 => ⟨S256x50x50, .f32⟩
  | 11 => ⟨S_, .f32⟩
  | 12 => ⟨S128x4, .f32⟩
  | 13 => ⟨S128x4, .f32⟩
  | 14 => ⟨S128x4, .i32⟩
  | 15 => ⟨S128x1, .i32⟩
  | 16 => ⟨S128, .i32⟩
  | 17 => ⟨S128x1, .i32⟩
  | 18 => ⟨S128, .i32⟩
  | 19 => ⟨S128x1, .i32⟩
  | 20 => ⟨S128, .i32⟩
  | 21 => ⟨S128x1, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S7, .i32⟩
  | 38 => ⟨S128x1, .i32⟩
  | 39 => ⟨S1x7, .i32⟩
  | 40 => ⟨S128x1, .i32⟩
  | 41 => ⟨S128x7, .i32⟩
  | 42 => ⟨S128x7, .i32⟩
  | 43 => ⟨S128x7, .i32⟩
  | 44 => ⟨S_, .i32⟩
  | 45 => ⟨S_, .i32⟩
  | 46 => ⟨S128x7, .i32⟩
  | 47 => ⟨S128x7, .i32⟩
  | 48 => ⟨S128x7, .i32⟩
  | 49 => ⟨S_, .i32⟩
  | 50 => ⟨S128x7, .i32⟩
  | 51 => ⟨S128x7, .i1⟩
  | 52 => ⟨S128x7, .i32⟩
  | 53 => ⟨S128x7, .i32⟩
  | 54 => ⟨S_, .i32⟩
  | 55 => ⟨S128x7, .i32⟩
  | 56 => ⟨S128x7, .i1⟩
  | 57 => ⟨S128x7, .i1⟩
  | 58 => ⟨S_, .i32⟩
  | 59 => ⟨S128x7, .i32⟩
  | 60 => ⟨S128x7, .i32⟩
  | 61 => ⟨S128x7, .i32⟩
  | 62 => ⟨S128x7, .i32⟩
  | 63 => ⟨S128x7, .i32⟩
  | 64 => ⟨S128x1, .i32⟩
  | 65 => ⟨S1x7, .i32⟩
  | 66 => ⟨S_, .i32⟩
  | 67 => ⟨S1x7, .i32⟩
  | 68 => ⟨S1x7, .i32⟩
  | 69 => ⟨S1x7, .i32⟩
  | 70 => ⟨S128x1, .i32⟩
  | 71 => ⟨S128x7, .i32⟩
  | 72 => ⟨S128x7, .i32⟩
  | 73 => ⟨S128x7, .i32⟩
  | 74 => ⟨S_, .i32⟩
  | 75 => ⟨S_, .i32⟩
  | 76 => ⟨S128x7, .i32⟩
  | 77 => ⟨S128x7, .i32⟩
  | 78 => ⟨S128x7, .i32⟩
  | 79 => ⟨S_, .i32⟩
  | 80 => ⟨S128x7, .i32⟩
  | 81 => ⟨S128x7, .i1⟩
  | 82 => ⟨S128x7, .i32⟩
  | 83 => ⟨S128x7, .i32⟩
  | 84 => ⟨S_, .i32⟩
  | 85 => ⟨S128x7, .i32⟩
  | 86 => ⟨S128x7, .i1⟩
  | 87 => ⟨S128x7, .i1⟩
  | 88 => ⟨S_, .i32⟩
  | 89 => ⟨S128x7, .i32⟩
  | 90 => ⟨S128x7, .i32⟩
  | 91 => ⟨S128x7, .i32⟩
  | 92 => ⟨S128x7, .i32⟩
  | 93 => ⟨S128x7, .i32⟩
  | 94 => ⟨S9, .i32⟩
  | 95 => ⟨S128x7x1, .i32⟩
  | 96 => ⟨S1x1x9, .i32⟩
  | 97 => ⟨S128x7x9, .i32⟩
  | 98 => ⟨S128x7x9, .i32⟩
  | 99 => ⟨S128x7x9, .i32⟩
  | 100 => ⟨S128x7x1, .i32⟩
  | 101 => ⟨S128x7x9, .i32⟩
  | 102 => ⟨S128x7x9, .i1⟩
  | 103 => ⟨S7, .i32⟩
  | 104 => ⟨S128x1, .i32⟩
  | 105 => ⟨S1x7, .i32⟩
  | 106 => ⟨S128x1, .i32⟩
  | 107 => ⟨S128x7, .i32⟩
  | 108 => ⟨S128x7, .i32⟩
  | 109 => ⟨S128x7, .i32⟩
  | 110 => ⟨S_, .i32⟩
  | 111 => ⟨S_, .i32⟩
  | 112 => ⟨S128x7, .i32⟩
  | 113 => ⟨S128x7, .i32⟩
  | 114 => ⟨S128x7, .i32⟩
  | 115 => ⟨S_, .i32⟩
  | 116 => ⟨S128x7, .i32⟩
  | 117 => ⟨S128x7, .i1⟩
  | 118 => ⟨S128x7, .i32⟩
  | 119 => ⟨S128x7, .i32⟩
  | 120 => ⟨S_, .i32⟩
  | 121 => ⟨S128x7, .i32⟩
  | 122 => ⟨S128x7, .i1⟩
  | 123 => ⟨S128x7, .i1⟩
  | 124 => ⟨S_, .i32⟩
  | 125 => ⟨S128x7, .i32⟩
  | 126 => ⟨S128x7, .i32⟩
  | 127 => ⟨S128x7, .i32⟩
  | _ => ⟨S1x256x50x50, .f32⟩

abbrev hbmTy0_1 (i : Nat) : BufTy := match i % 128 with
  | 0 => ⟨S128x7, .i32⟩
  | 1 => ⟨S128x7, .i32⟩
  | 2 => ⟨S128x1, .i32⟩
  | 3 => ⟨S1x7, .i32⟩
  | 4 => ⟨S_, .i32⟩
  | 5 => ⟨S1x7, .i32⟩
  | 6 => ⟨S1x7, .i32⟩
  | 7 => ⟨S1x7, .i32⟩
  | 8 => ⟨S128x1, .i32⟩
  | 9 => ⟨S128x7, .i32⟩
  | 10 => ⟨S128x7, .i32⟩
  | 11 => ⟨S128x7, .i32⟩
  | 12 => ⟨S_, .i32⟩
  | 13 => ⟨S_, .i32⟩
  | 14 => ⟨S128x7, .i32⟩
  | 15 => ⟨S128x7, .i32⟩
  | 16 => ⟨S128x7, .i32⟩
  | 17 => ⟨S_, .i32⟩
  | 18 => ⟨S128x7, .i32⟩
  | 19 => ⟨S128x7, .i1⟩
  | 20 => ⟨S128x7, .i32⟩
  | 21 => ⟨S128x7, .i32⟩
  | 22 => ⟨S_, .i32⟩
  | 23 => ⟨S128x7, .i32⟩
  | 24 => ⟨S128x7, .i1⟩
  | 25 => ⟨S128x7, .i1⟩
  | 26 => ⟨S_, .i32⟩
  | 27 => ⟨S128x7, .i32⟩
  | 28 => ⟨S128x7, .i32⟩
  | 29 => ⟨S128x7, .i32⟩
  | 30 => ⟨S128x7, .i32⟩
  | 31 => ⟨S128x7, .i32⟩
  | 32 => ⟨S9, .i32⟩
  | 33 => ⟨S128x7x1, .i32⟩
  | 34 => ⟨S1x1x9, .i32⟩
  | 35 => ⟨S128x7x9, .i32⟩
  | 36 => ⟨S128x7x9, .i32⟩
  | 37 => ⟨S128x7x9, .i32⟩
  | 38 => ⟨S128x7x1, .i32⟩
  | 39 => ⟨S128x7x9, .i32⟩
  | 40 => ⟨S128x7x9, .i1⟩
  | 41 => ⟨S_, .i32⟩
  | 42 => ⟨S_, .i32⟩
  | 43 => ⟨S_, .i32⟩
  | 44 => ⟨S128x7x9, .i32⟩
  | 45 => ⟨S128x7x9, .i32⟩
  | 46 => ⟨S_, .i32⟩
  | 47 => ⟨S128x7x9, .i32⟩
  | 48 => ⟨S128x7x9, .i32⟩
  | 49 => ⟨S_, .i32⟩
  | 50 => ⟨S_, .i32⟩
  | 51 => ⟨S_, .i32⟩
  | 52 => ⟨S128x7x9, .i32⟩
  | 53 => ⟨S128x7x9, .i32⟩
  | 54 => ⟨S_, .i32⟩
  | 55 => ⟨S128x7x9, .i32⟩
  | 56 => ⟨S128x7x9, .i32⟩
  | 57 => ⟨S_, .i32⟩
  | 58 => ⟨S128x7x9, .i32⟩
  | 59 => ⟨S128x7x9, .i1⟩
  | 60 => ⟨S_, .i32⟩
  | 61 => ⟨S128x7x9, .i32⟩
  | 62 => ⟨S128x7x9, .i32⟩
  | 63 => ⟨S128x7x9, .i32⟩
  | 64 => ⟨S128x7x9x1, .i32⟩
  | 65 => ⟨S256x128x7x9x50, .f32⟩
  | 66 => ⟨S1x128x7x9x1, .i1⟩
  | 67 => ⟨S_, .f32⟩
  | 68 => ⟨S256x128x7x9x50, .i1⟩
  | 69 => ⟨S256x128x7x9x50, .f32⟩
  | 70 => ⟨S256x128x7x9x50, .f32⟩
  | 71 => ⟨S_, .f32⟩
  | 72 => ⟨S256x128x7x50, .f32⟩
  | 73 => ⟨S128x256x7x50, .f32⟩
  | 74 => ⟨S128x1x1x63, .i32⟩
  | 75 => ⟨S_, .i32⟩
  | 76 => ⟨S128x1x1x63, .i32⟩
  | 77 => ⟨S128x1x1x63, .i1⟩
  | 78 => ⟨S_, .i32⟩
  | 79 => ⟨S128x1x1x63, .i32⟩
  | 80 => ⟨S128x1x1x63, .i32⟩
  | 81 => ⟨S128x1x1x63, .i32⟩
  | 82 => ⟨S128x63x1, .i32⟩
  | 83 => ⟨S1, .i32⟩
  | 84 => ⟨S_, .i32⟩
  | 85 => ⟨S128x63x1, .i32⟩
  | 86 => ⟨S128x63x1, .i1⟩
  | 87 => ⟨S1x1x1, .i32⟩
  | 88 => ⟨S128x63x1, .i32⟩
  | 89 => ⟨S128x63x1, .i1⟩
  | 90 => ⟨S128x63x1, .i1⟩
  | 91 => ⟨S_, .i1⟩
  | 92 => ⟨S128x63, .i1⟩
  | 93 => ⟨S128x256x7x63, .f32⟩
  | 94 => ⟨S128x256x7x63, .i1⟩
  | 95 => ⟨S_, .f32⟩
  | 96 => ⟨S128x256x7x63, .f32⟩
  | 97 => ⟨S128x256x7x63, .f32⟩
  | 98 => ⟨S128x256x7x7x9, .f32⟩
  | 99 => ⟨S128x1x1x7x9, .i1⟩
  | 100 => ⟨S_, .f32⟩
  | 101 => ⟨S128x256x7x7x9, .i1⟩
  | 102 => ⟨S128x256x7x7x9, .f32⟩
  | 103 => ⟨S128x256x7x7x9, .f32⟩
  | 104 => ⟨S_, .f32⟩
  | 105 => ⟨S128x256x7x7, .f32⟩
  | 106 => ⟨S128x12544, .f32⟩
  | 107 => ⟨S128x12544, .bf16⟩
  | 108 => ⟨S4096x12544, .bf16⟩
  | 109 => ⟨S1x4096, .f32⟩
  | 110 => ⟨S128x4096, .bf16⟩
  | 111 => ⟨S4096x4096, .bf16⟩
  | 112 => ⟨S1x4096, .f32⟩
  | 113 => ⟨S128x4096, .bf16⟩
  | 114 => ⟨S105x4096, .f32⟩
  | 115 => ⟨S105, .f32⟩
  | 116 => ⟨S1x105, .f32⟩
  | 117 => ⟨S105x4096, .bf16⟩
  | 118 => ⟨S128x105, .f32⟩
  | 119 => ⟨S128x21, .f32⟩
  | 120 => ⟨S128x84, .f32⟩
  | 121 => ⟨S128x21x4, .f32⟩
  | _ => ⟨S1x256x50x50, .f32⟩

abbrev hbmTy (i : Nat) : BufTy := match i / 128 with
  | 0 => hbmTy0_0 i
  | 1 => hbmTy0_1 i
  | _ => ⟨S1x256x50x50, .f32⟩

abbrev bufTy : (tb : Table) → Fin (tcTables nBuf tb) → BufTy
  | .hbm, ⟨i, _⟩ => hbmTy i
  | .local _ .vmem, ⟨0, _⟩ => ⟨S128x12544, .bf16⟩
  | .local _ .vmem, ⟨1, _⟩ => ⟨S256x12544, .bf16⟩
  | .local _ .vmem, ⟨2, _⟩ => ⟨S256x12544, .bf16⟩
  | .local _ .vmem, ⟨3, _⟩ => ⟨S1x256, .f32⟩
  | .local _ .vmem, ⟨4, _⟩ => ⟨S1x256, .f32⟩
  | .local _ .vmem, ⟨5, _⟩ => ⟨S128x256, .bf16⟩
  | .local _ .vmem, ⟨6, _⟩ => ⟨S128x256, .bf16⟩
  | .local _ .vmem, ⟨7, _⟩ => ⟨S128x4096, .bf16⟩
  | .local _ .vmem, ⟨8, _⟩ => ⟨S512x4096, .bf16⟩
  | .local _ .vmem, ⟨9, _⟩ => ⟨S512x4096, .bf16⟩
  | .local _ .vmem, ⟨10, _⟩ => ⟨S1x512, .f32⟩
  | .local _ .vmem, ⟨11, _⟩ => ⟨S1x512, .f32⟩
  | .local _ .vmem, ⟨12, _⟩ => ⟨S128x512, .bf16⟩
  | .local _ .vmem, ⟨13, _⟩ => ⟨S128x512, .bf16⟩
  | .local _ .vmem, ⟨14, _⟩ => ⟨S128x4096, .bf16⟩
  | .local _ .vmem, ⟨15, _⟩ => ⟨S105x4096, .bf16⟩
  | .local _ .vmem, ⟨16, _⟩ => ⟨S1x105, .f32⟩
  | .local _ .vmem, ⟨17, _⟩ => ⟨S128x105, .f32⟩
  | _, _ => ⟨S1x256x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_5 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_c : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_0 : Ref sig .tc := ⟨.hbm, 88, rfl⟩
abbrev main_call1_v12 : Ref sig .tc := ⟨.hbm, 89, rfl⟩
abbrev main_call1_v13 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_6 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_c : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_0 : Ref sig .tc := ⟨.hbm, 124, rfl⟩
abbrev main_call2_v12 : Ref sig .tc := ⟨.hbm, 125, rfl⟩
abbrev main_call2_v13 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_7 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_c_8 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_c : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_0 : Ref sig .tc := ⟨.hbm, 154, rfl⟩
abbrev main_call3_v12 : Ref sig .tc := ⟨.hbm, 155, rfl⟩
abbrev main_call3_v13 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_c_9 : Ref sig .tc := ⟨.hbm, 169, rfl⟩
abbrev main_c_10 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v84 : Ref sig .tc := ⟨.hbm, 176, rfl⟩
abbrev main_c_11 : Ref sig .tc := ⟨.hbm, 177, rfl⟩
abbrev main_c_12 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v85 : Ref sig .tc := ⟨.hbm, 184, rfl⟩
abbrev main_c_13 : Ref sig .tc := ⟨.hbm, 185, rfl⟩
abbrev main_v86 : Ref sig .tc := ⟨.hbm, 186, rfl⟩
abbrev main_v87 : Ref sig .tc := ⟨.hbm, 187, rfl⟩
abbrev main_c_14 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_cst_15 : Ref sig .tc := ⟨.hbm, 195, rfl⟩
abbrev main_call6_v0 : Ref sig .tc := ⟨.hbm, 196, rfl⟩
abbrev main_call6_v1 : Ref sig .tc := ⟨.hbm, 197, rfl⟩
abbrev main_v94 : Ref sig .tc := ⟨.hbm, 198, rfl⟩
abbrev main_cst_16 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_call7_c : Ref sig .tc := ⟨.hbm, 203, rfl⟩
abbrev main_call7_v0 : Ref sig .tc := ⟨.hbm, 204, rfl⟩
abbrev main_call7_v1 : Ref sig .tc := ⟨.hbm, 205, rfl⟩
abbrev main_call7_c_0 : Ref sig .tc := ⟨.hbm, 206, rfl⟩
abbrev main_call7_v2 : Ref sig .tc := ⟨.hbm, 207, rfl⟩
abbrev main_call7_v3 : Ref sig .tc := ⟨.hbm, 208, rfl⟩
abbrev main_call7_v4 : Ref sig .tc := ⟨.hbm, 209, rfl⟩
abbrev main_call7_v5 : Ref sig .tc := ⟨.hbm, 210, rfl⟩
abbrev main_call7_c_1 : Ref sig .tc := ⟨.hbm, 211, rfl⟩
abbrev main_call7_c_2 : Ref sig .tc := ⟨.hbm, 212, rfl⟩
abbrev main_call7_v6 : Ref sig .tc := ⟨.hbm, 213, rfl⟩
abbrev main_call7_v7 : Ref sig .tc := ⟨.hbm, 214, rfl⟩
abbrev main_call7_v8 : Ref sig .tc := ⟨.hbm, 215, rfl⟩
abbrev main_call7_v9 : Ref sig .tc := ⟨.hbm, 216, rfl⟩
abbrev main_call7_v10 : Ref sig .tc := ⟨.hbm, 217, rfl⟩
abbrev main_call7_v11 : Ref sig .tc := ⟨.hbm, 218, rfl⟩
abbrev main_call7_c_3 : Ref sig .tc := ⟨.hbm, 219, rfl⟩
abbrev main_call7_v12 : Ref sig .tc := ⟨.hbm, 220, rfl⟩
abbrev main_call7_v13 : Ref sig .tc := ⟨.hbm, 221, rfl⟩
abbrev main_call7_v14 : Ref sig .tc := ⟨.hbm, 222, rfl⟩
abbrev main_call7_cst : Ref sig .tc := ⟨.hbm, 223, rfl⟩
abbrev main_call7_v15 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_cst_17 : Ref sig .tc := ⟨.hbm, 228, rfl⟩
abbrev main_call8_v0 : Ref sig .tc := ⟨.hbm, 229, rfl⟩
abbrev main_call8_v1 : Ref sig .tc := ⟨.hbm, 230, rfl⟩
abbrev main_v101 : Ref sig .tc := ⟨.hbm, 231, rfl⟩
abbrev main_cst_18 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_v107 : Ref sig .tc := ⟨.hbm, 238, rfl⟩
abbrev main_v108 : Ref sig .tc := ⟨.hbm, 239, rfl⟩
abbrev main_v109 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_v115 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x12544 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x12544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S128x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S105x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x105 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S128x105 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  shapeCasts_S1x256x50x50_S256x50x50 : S1x256x50x50.ShapeCasts S256x50x50
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S128_S128x1_0 : S128.BroadcastsInDim S128x1 (![0] : Fin 1 → Fin S128x1.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S1x7 : S_.BroadcastsInDim S1x7 (![] : Fin 0 → Fin S1x7.rank)
  bcast_S128x7_S128x7x1_0_1 : S128x7.BroadcastsInDim S128x7x1 (![0, 1] : Fin 2 → Fin S128x7x1.rank)
  bcast_S9_S1x1x9_2 : S9.BroadcastsInDim S1x1x9 (![2] : Fin 1 → Fin S1x1x9.rank)
  bcast_S128x7x1_S128x7x9_0_1_2 : S128x7x1.BroadcastsInDim S128x7x9 (![0, 1, 2] : Fin 3 → Fin S128x7x9.rank)
  bcast_S1x1x9_S128x7x9_0_1_2 : S1x1x9.BroadcastsInDim S128x7x9 (![0, 1, 2] : Fin 3 → Fin S128x7x9.rank)
  bcast_S_S128x7x9 : S_.BroadcastsInDim S128x7x9 (![] : Fin 0 → Fin S128x7x9.rank)
  bcast_S128x7x9_S128x7x9x1_0_1_2 : S128x7x9.BroadcastsInDim S128x7x9x1 (![0, 1, 2] : Fin 3 → Fin S128x7x9x1.rank)
  bcast_S128x7x9_S1x128x7x9x1_1_2_3 : S128x7x9.BroadcastsInDim S1x128x7x9x1 (![1, 2, 3] : Fin 3 → Fin S1x128x7x9x1.rank)
  bcast_S1x128x7x9x1_S256x128x7x9x50_0_1_2_3_4 : S1x128x7x9x1.BroadcastsInDim S256x128x7x9x50 (![0, 1, 2, 3, 4] : Fin 5 → Fin S256x128x7x9x50.rank)
  bcast_S_S256x128x7x9x50 : S_.BroadcastsInDim S256x128x7x9x50 (![] : Fin 0 → Fin S256x128x7x9x50.rank)
  reducesTo_S256x128x7x9x50_S256x128x7x50_d3 : S256x128x7x9x50.ReducesTo [3] S256x128x7x50
  h_S_ : 0 < S_.numel
  transposes_S256x128x7x50_S128x256x7x50_1_0_2_3 : S256x128x7x50.Transposes [1, 0, 2, 3] S128x256x7x50
  shapeCasts_S128x7x9_S128x1x1x63 : S128x7x9.ShapeCasts S128x1x1x63
  bcast_S_S128x1x1x63 : S_.BroadcastsInDim S128x1x1x63 (![] : Fin 0 → Fin S128x1x1x63.rank)
  shapeCasts_S128x1x1x63_S128x63x1 : S128x1x1x63.ShapeCasts S128x63x1
  bcast_S_S128x63x1 : S_.BroadcastsInDim S128x63x1 (![] : Fin 0 → Fin S128x63x1.rank)
  bcast_S1_S1x1x1_2 : S1.BroadcastsInDim S1x1x1 (![2] : Fin 1 → Fin S1x1x1.rank)
  bcast_S1x1x1_S128x63x1_0_1_2 : S1x1x1.BroadcastsInDim S128x63x1 (![0, 1, 2] : Fin 3 → Fin S128x63x1.rank)
  reducesTo_S128x63x1_S128x63_d2 : S128x63x1.ReducesTo [2] S128x63
  bcast_S128x63_S128x256x7x63_0_3 : S128x63.BroadcastsInDim S128x256x7x63 (![0, 3] : Fin 2 → Fin S128x256x7x63.rank)
  bcast_S_S128x256x7x63 : S_.BroadcastsInDim S128x256x7x63 (![] : Fin 0 → Fin S128x256x7x63.rank)
  shapeCasts_S128x256x7x63_S128x256x7x7x9 : S128x256x7x63.ShapeCasts S128x256x7x7x9
  bcast_S128x7x9_S128x1x1x7x9_0_3_4 : S128x7x9.BroadcastsInDim S128x1x1x7x9 (![0, 3, 4] : Fin 3 → Fin S128x1x1x7x9.rank)
  bcast_S128x1x1x7x9_S128x256x7x7x9_0_1_2_3_4 : S128x1x1x7x9.BroadcastsInDim S128x256x7x7x9 (![0, 1, 2, 3, 4] : Fin 5 → Fin S128x256x7x7x9.rank)
  bcast_S_S128x256x7x7x9 : S_.BroadcastsInDim S128x256x7x7x9 (![] : Fin 0 → Fin S128x256x7x7x9.rank)
  reducesTo_S128x256x7x7x9_S128x256x7x7_d4 : S128x256x7x7x9.ReducesTo [4] S128x256x7x7
  shapeCasts_S128x256x7x7_S128x12544 : S128x256x7x7.ShapeCasts S128x12544
  bitsLt_bf16_f32 : FTy.bits .bf16 < FTy.bits .f32
  shapeCasts_S4096_S1x4096 : S4096.ShapeCasts S1x4096
  inb_S128x12544_S128x12544_0_0 : ∀ a, (![0, 0] : Fin 2 → Nat) a + S128x12544.size a ≤ S128x12544.size a
  h_S128x12544 : 0 < S128x12544.numel
  shapeCasts_S128x12544_S128x12544 : S128x12544.ShapeCasts S128x12544
  inb_S256x12544_S256x12544_0_0 : ∀ a, (![0, 0] : Fin 2 → Nat) a + S256x12544.size a ≤ S256x12544.size a
  h_S256x12544 : 0 < S256x12544.numel
  shapeCasts_S256x12544_S256x12544 : S256x12544.ShapeCasts S256x12544
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  packedbf16_S128x256_S128x256_0_0 : (Rect.unit (s := S128x256) ![0, 0] S128x256.size inb_S128x256_S128x256_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  packedbf16_S128x512_S128x512_0_0 : (Rect.unit (s := S128x512) ![0, 0] S128x512.size inb_S128x512_S128x512_0_0).PackedRows (EltTy.packing .bf16)
  concatenates_S21x4096_S84x4096_S105x4096_d0 : Shape.Concatenates [S21x4096, S84x4096] S105x4096 0
  concatenates_S21_S84_S105_d0 : Shape.Concatenates [S21, S84] S105 0
  shapeCasts_S105_S1x105 : S105.ShapeCasts S1x105
  inb_S105x4096_S105x4096_0_0 : ∀ a, (![0, 0] : Fin 2 → Nat) a + S105x4096.size a ≤ S105x4096.size a
  h_S105x4096 : 0 < S105x4096.numel
  shapeCasts_S105x4096_S105x4096 : S105x4096.ShapeCasts S105x4096
  inb_S1x105_S1x105_0_0 : ∀ a, (![0, 0] : Fin 2 → Nat) a + S1x105.size a ≤ S1x105.size a
  h_S1x105 : 0 < S1x105.numel
  shapeCasts_S1x105_S1x105 : S1x105.ShapeCasts S1x105
  broadcasts_S1x105_S128x105 : S1x105.Broadcasts S128x105
  inb_S128x105_S128x105_0_0 : ∀ a, (![0, 0] : Fin 2 → Nat) a + S128x105.size a ≤ S128x105.size a
  h_S128x105 : 0 < S128x105.numel
  slices_S128x105_S128x21_0_0 : S128x105.Slices ![0, 0] S128x21
  slices_S128x105_S128x84_0_21 : S128x105.Slices ![0, 21] S128x84
  shapeCasts_S128x84_S128x21x4 : S128x84.ShapeCasts S128x21x4
  gather_S256x50x50_S128x7x9x1_S256x128x7x9x50_04_1_n_n_1_3_256150_wf : GatherDims.WF S256x50x50 S128x7x9x1 S256x128x7x9x50 [0, 4] [1] [] [1] [] 3 ![256, 1, 50]
  gather_S128x256x7x50_S128x63x1_S128x256x7x63_12_3_0_0_3_2_125671_wf : GatherDims.WF S128x256x7x50 S128x63x1 S128x256x7x63 [1, 2] [3] [0] [3] [0] 2 ![1, 256, 7, 1]
  dot_S128x12544_S256x12544_S128x256_1_1_0_0_n_n_wf : DotDims.WF S128x12544 S256x12544 S128x256 [1] [1] [0] [0] [] []
  dot_S128x4096_S512x4096_S128x512_1_1_0_0_n_n_wf : DotDims.WF S128x4096 S512x4096 S128x512 [1] [1] [0] [0] [] []
  dot_S128x4096_S105x4096_S128x105_1_1_0_0_n_n_wf : DotDims.WF S128x4096 S105x4096 S128x105 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x12544.size a ≤ S128x12544.size a
  hwx0_0 : ∀ i : grid0.Coords, EltTy.bits .bf16 = 32 ∨ (Rect.block (s := S128x12544) S128x12544.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x12544.size a ≤ S4096x12544.size a
  hwx0_1 : ∀ i : grid0.Coords, EltTy.bits .bf16 = 32 ∨ (Rect.block (s := S4096x12544) S256x12544.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x4096.size a
  hwx0_3 : ∀ i : grid0.Coords, EltTy.bits .bf16 = 32 ∨ (Rect.block (s := S128x4096) S128x256.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S128x4096.size a
  hwx1_0 : ∀ i : grid1.Coords, EltTy.bits .bf16 = 32 ∨ (Rect.block (s := S128x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x4096.size a
  hwx1_3 : ∀ i : grid1.Coords, EltTy.bits .bf16 = 32 ∨ (Rect.block (s := S128x4096) S128x512.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x4096.size a ≤ S128x4096.size a
  hwx2_0 : ∀ i : grid2.Coords, EltTy.bits .bf16 = 32 ∨ (Rect.block (s := S128x4096) S128x4096.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S105x4096.size a ≤ S105x4096.size a
  hwx2_1 : ∀ i : grid2.Coords, EltTy.bits .bf16 = 32 ∨ (Rect.block (s := S105x4096) S105x4096.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x105.size a ≤ S1x105.size a
  hwx2_2 : ∀ i : grid2.Coords, EltTy.bits .f32 = 32 ∨ (Rect.block (s := S1x105) S1x105.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S128x105.size a ≤ S128x105.size a
  hwx2_3 : ∀ i : grid2.Coords, EltTy.bits .f32 = 32 ∨ (Rect.block (s := S128x105) S128x105.size (cc2_transform_3 i) (hinb2_3 i)).WholeWords (EltTy.packing .f32)

variable [Facts₀]

def gather_S256x50x50_S128x7x9x1_S256x128x7x9x50_04_1_n_n_1_3_256150 : GatherDims S256x50x50 S128x7x9x1 S256x128x7x9x50 where
  offsetDims := [0, 4]
  collapsedSliceDims := [1]
  operandBatchingDims := []
  startIndicesBatchingDims := []
  startIndexMap := [1]
  indexVectorDim := 3
  sliceSizes := ![256, 1, 50]
  wf := gather_S256x50x50_S128x7x9x1_S256x128x7x9x50_04_1_n_n_1_3_256150_wf
def gather_S128x256x7x50_S128x63x1_S128x256x7x63_12_3_0_0_3_2_125671 : GatherDims S128x256x7x50 S128x63x1 S128x256x7x63 where
  offsetDims := [1, 2]
  collapsedSliceDims := [3]
  operandBatchingDims := [0]
  startIndicesBatchingDims := [0]
  startIndexMap := [3]
  indexVectorDim := 2
  sliceSizes := ![1, 256, 7, 1]
  wf := gather_S128x256x7x50_S128x63x1_S128x256x7x63_12_3_0_0_3_2_125671_wf
def dot_S128x12544_S256x12544_S128x256_1_1_0_0_n_n : DotDims S128x12544 S256x12544 S128x256 where
  lhsContracting := [1]
  rhsContracting := [1]
  lhsNonContracting := [0]
  rhsNonContracting := [0]
  lhsBatch := []
  rhsBatch := []
  wf := dot_S128x12544_S256x12544_S128x256_1_1_0_0_n_n_wf
def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x4096_S105x4096_S128x105_1_1_0_0_n_n : DotDims S128x4096 S105x4096 S128x105 where
  lhsContracting := [1]
  rhsContracting := [1]
  lhsNonContracting := [0]
  rhsNonContracting := [0]
  lhsBatch := []
  rhsBatch := []
  wf := dot_S128x4096_S105x4096_S128x105_1_1_0_0_n_n_wf

abbrev win0_0 : Pipeline.Window sig grid0 :=
  Pipeline.Window.ofSpec (Memref.whole main_v104) S128x12544.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v105) S256x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v106) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v107) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v107) S128x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v108) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v109) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v110) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v110) S128x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v114) S105x4096.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v113) S1x105.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v115) S128x105.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x256x50x50 : Shape := ⟨4, ![1, 256, 50, 50]⟩
abbrev S128x4 : Shape := ⟨2, ![128, 4]⟩
abbrev S4096x12544 : Shape := ⟨2, ![4096, 12544]⟩
abbrev S4096 : Shape := ⟨1, ![4096]⟩
abbrev S4096x4096 : Shape := ⟨2, ![4096, 4096]⟩
abbrev S21x4096 : Shape := ⟨2, ![21, 4096]⟩
abbrev S21 : Shape := ⟨1, ![21]⟩
abbrev S84x4096 : Shape := ⟨2, ![84, 4096]⟩
abbrev S84 : Shape := ⟨1, ![84]⟩
abbrev S256x50x50 : Shape := ⟨3, ![256, 50, 50]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S9 : Shape := ⟨1, ![9]⟩
abbrev S128x7x1 : Shape := ⟨3, ![128, 7, 1]⟩
abbrev S1x1x9 : Shape := ⟨3, ![1, 1, 9]⟩
abbrev S128x7x9 : Shape := ⟨3, ![128, 7, 9]⟩
abbrev S128x7x9x1 : Shape := ⟨4, ![128, 7, 9, 1]⟩
abbrev S256x128x7x9x50 : Shape := ⟨5, ![256, 128, 7, 9, 50]⟩
abbrev S1x128x7x9x1 : Shape := ⟨5, ![1, 128, 7, 9, 1]⟩
abbrev S256x128x7x50 : Shape := ⟨4, ![256, 128, 7, 50]⟩
abbrev S128x256x7x50 : Shape := ⟨4, ![128, 256, 7, 50]⟩
abbrev S128x1x1x63 : Shape := ⟨4, ![128, 1, 1, 63]⟩
abbrev S128x63x1 : Shape := ⟨3, ![128, 63, 1]⟩
abbrev S1 : Shape := ⟨1, ![1]⟩
abbrev S1x1x1 : Shape := ⟨3, ![1, 1, 1]⟩
abbrev S128x63 : Shape := ⟨2, ![128, 63]⟩
abbrev S128x256x7x63 : Shape := ⟨4, ![128, 256, 7, 63]⟩
abbrev S128x256x7x7x9 : Shape := ⟨5, ![128, 256, 7, 7, 9]⟩
abbrev S128x1x1x7x9 : Shape := ⟨5, ![128, 1, 1, 7, 9]⟩
abbrev S128x256x7x7 : Shape := ⟨4, ![128, 256, 7, 7]⟩
abbrev S128x12544 : Shape := ⟨2, ![128, 12544]⟩
abbrev S12544x4096 : Shape := ⟨2, ![12544, 4096]⟩
abbrev S128x4096 : Shape := ⟨2, ![128, 4096]⟩
abbrev S1x4096 : Shape := ⟨2, ![1, 4096]⟩
abbrev S4096x21 : Shape := ⟨2, ![4096, 21]⟩
abbrev S128x21 : Shape := ⟨2, ![128, 21]⟩
abbrev S1x21 : Shape := ⟨2, ![1, 21]⟩
abbrev S4096x84 : Shape := ⟨2, ![4096, 84]⟩
abbrev S128x84 : Shape := ⟨2, ![128, 84]⟩
abbrev S1x84 : Shape := ⟨2, ![1, 84]⟩
abbrev S128x21x4 : Shape := ⟨3, ![128, 21, 4]⟩

abbrev nBuf : Space → Nat
  | .hbm => 262
  | .vmem => 0
  | .smem => 0
  | _ => 0

abbrev hbmTy0_0 (i : Nat) : BufTy := match i % 128 with
  | 0 => ⟨S1x256x50x50, .f32⟩
  | 1 => ⟨S128x4, .f32⟩
  | 2 => ⟨S4096x12544, .f32⟩
  | 3 => ⟨S4096, .f32⟩
  | 4 => ⟨S4096x4096, .f32⟩
  | 5 => ⟨S4096, .f32⟩
  | 6 => ⟨S21x4096, .f32⟩
  | 7 => ⟨S21, .f32⟩
  | 8 => ⟨S84x4096, .f32⟩
  | 9 => ⟨S84, .f32⟩
  | 10 => ⟨S256x50x50, .f32⟩
  | 11 => ⟨S_, .f32⟩
  | 12 => ⟨S128x4, .f32⟩
  | 13 => ⟨S128x4, .f32⟩
  | 14 => ⟨S128x4, .i32⟩
  | 15 => ⟨S128x1, .i32⟩
  | 16 => ⟨S128, .i32⟩
  | 17 => ⟨S128x1, .i32⟩
  | 18 => ⟨S128, .i32⟩
  | 19 => ⟨S128x1, .i32⟩
  | 20 => ⟨S128, .i32⟩
  | 21 => ⟨S128x1, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S7, .i32⟩
  | 38 => ⟨S128x1, .i32⟩
  | 39 => ⟨S1x7, .i32⟩
  | 40 => ⟨S128x1, .i32⟩
  | 41 => ⟨S128x7, .i32⟩
  | 42 => ⟨S128x7, .i32⟩
  | 43 => ⟨S128x7, .i32⟩
  | 44 => ⟨S_, .i32⟩
  | 45 => ⟨S_, .i32⟩
  | 46 => ⟨S128x7, .i32⟩
  | 47 => ⟨S128x7, .i32⟩
  | 48 => ⟨S128x7, .i32⟩
  | 49 => ⟨S_, .i32⟩
  | 50 => ⟨S128x7, .i32⟩
  | 51 => ⟨S128x7, .i1⟩
  | 52 => ⟨S128x7, .i32⟩
  | 53 => ⟨S128x7, .i32⟩
  | 54 => ⟨S_, .i32⟩
  | 55 => ⟨S128x7, .i32⟩
  | 56 => ⟨S128x7, .i1⟩
  | 57 => ⟨S128x7, .i1⟩
  | 58 => ⟨S_, .i32⟩
  | 59 => ⟨S128x7, .i32⟩
  | 60 => ⟨S128x7, .i32⟩
  | 61 => ⟨S128x7, .i32⟩
  | 62 => ⟨S128x7, .i32⟩
  | 63 => ⟨S128x7, .i32⟩
  | 64 => ⟨S128x1, .i32⟩
  | 65 => ⟨S1x7, .i32⟩
  | 66 => ⟨S_, .i32⟩
  | 67 => ⟨S1x7, .i32⟩
  | 68 => ⟨S1x7, .i32⟩
  | 69 => ⟨S1x7, .i32⟩
  | 70 => ⟨S128x1, .i32⟩
  | 71 => ⟨S128x7, .i32⟩
  | 72 => ⟨S128x7, .i32⟩
  | 73 => ⟨S128x7, .i32⟩
  | 74 => ⟨S_, .i32⟩
  | 75 => ⟨S_, .i32⟩
  | 76 => ⟨S128x7, .i32⟩
  | 77 => ⟨S128x7, .i32⟩
  | 78 => ⟨S128x7, .i32⟩
  | 79 => ⟨S_, .i32⟩
  | 80 => ⟨S128x7, .i32⟩
  | 81 => ⟨S128x7, .i1⟩
  | 82 => ⟨S128x7, .i32⟩
  | 83 => ⟨S128x7, .i32⟩
  | 84 => ⟨S_, .i32⟩
  | 85 => ⟨S128x7, .i32⟩
  | 86 => ⟨S128x7, .i1⟩
  | 87 => ⟨S128x7, .i1⟩
  | 88 => ⟨S_, .i32⟩
  | 89 => ⟨S128x7, .i32⟩
  | 90 => ⟨S128x7, .i32⟩
  | 91 => ⟨S128x7, .i32⟩
  | 92 => ⟨S128x7, .i32⟩
  | 93 => ⟨S128x7, .i32⟩
  | 94 => ⟨S9, .i32⟩
  | 95 => ⟨S128x7x1, .i32⟩
  | 96 => ⟨S1x1x9, .i32⟩
  | 97 => ⟨S128x7x9, .i32⟩
  | 98 => ⟨S128x7x9, .i32⟩
  | 99 => ⟨S128x7x9, .i32⟩
  | 100 => ⟨S128x7x1, .i32⟩
  | 101 => ⟨S128x7x9, .i32⟩
  | 102 => ⟨S128x7x9, .i1⟩
  | 103 => ⟨S7, .i32⟩
  | 104 => ⟨S128x1, .i32⟩
  | 105 => ⟨S1x7, .i32⟩
  | 106 => ⟨S128x1, .i32⟩
  | 107 => ⟨S128x7, .i32⟩
  | 108 => ⟨S128x7, .i32⟩
  | 109 => ⟨S128x7, .i32⟩
  | 110 => ⟨S_, .i32⟩
  | 111 => ⟨S_, .i32⟩
  | 112 => ⟨S128x7, .i32⟩
  | 113 => ⟨S128x7, .i32⟩
  | 114 => ⟨S128x7, .i32⟩
  | 115 => ⟨S_, .i32⟩
  | 116 => ⟨S128x7, .i32⟩
  | 117 => ⟨S128x7, .i1⟩
  | 118 => ⟨S128x7, .i32⟩
  | 119 => ⟨S128x7, .i32⟩
  | 120 => ⟨S_, .i32⟩
  | 121 => ⟨S128x7, .i32⟩
  | 122 => ⟨S128x7, .i1⟩
  | 123 => ⟨S128x7, .i1⟩
  | 124 => ⟨S_, .i32⟩
  | 125 => ⟨S128x7, .i32⟩
  | 126 => ⟨S128x7, .i32⟩
  | 127 => ⟨S128x7, .i32⟩
  | _ => ⟨S1x256x50x50, .f32⟩

abbrev hbmTy0_1 (i : Nat) : BufTy := match i % 128 with
  | 0 => ⟨S128x7, .i32⟩
  | 1 => ⟨S128x7, .i32⟩
  | 2 => ⟨S128x1, .i32⟩
  | 3 => ⟨S1x7, .i32⟩
  | 4 => ⟨S_, .i32⟩
  | 5 => ⟨S1x7, .i32⟩
  | 6 => ⟨S1x7, .i32⟩
  | 7 => ⟨S1x7, .i32⟩
  | 8 => ⟨S128x1, .i32⟩
  | 9 => ⟨S128x7, .i32⟩
  | 10 => ⟨S128x7, .i32⟩
  | 11 => ⟨S128x7, .i32⟩
  | 12 => ⟨S_, .i32⟩
  | 13 => ⟨S_, .i32⟩
  | 14 => ⟨S128x7, .i32⟩
  | 15 => ⟨S128x7, .i32⟩
  | 16 => ⟨S128x7, .i32⟩
  | 17 => ⟨S_, .i32⟩
  | 18 => ⟨S128x7, .i32⟩
  | 19 => ⟨S128x7, .i1⟩
  | 20 => ⟨S128x7, .i32⟩
  | 21 => ⟨S128x7, .i32⟩
  | 22 => ⟨S_, .i32⟩
  | 23 => ⟨S128x7, .i32⟩
  | 24 => ⟨S128x7, .i1⟩
  | 25 => ⟨S128x7, .i1⟩
  | 26 => ⟨S_, .i32⟩
  | 27 => ⟨S128x7, .i32⟩
  | 28 => ⟨S128x7, .i32⟩
  | 29 => ⟨S128x7, .i32⟩
  | 30 => ⟨S128x7, .i32⟩
  | 31 => ⟨S128x7, .i32⟩
  | 32 => ⟨S9, .i32⟩
  | 33 => ⟨S128x7x1, .i32⟩
  | 34 => ⟨S1x1x9, .i32⟩
  | 35 => ⟨S128x7x9, .i32⟩
  | 36 => ⟨S128x7x9, .i32⟩
  | 37 => ⟨S128x7x9, .i32⟩
  | 38 => ⟨S128x7x1, .i32⟩
  | 39 => ⟨S128x7x9, .i32⟩
  | 40 => ⟨S128x7x9, .i1⟩
  | 41 => ⟨S_, .i32⟩
  | 42 => ⟨S_, .i32⟩
  | 43 => ⟨S_, .i32⟩
  | 44 => ⟨S128x7x9, .i32⟩
  | 45 => ⟨S128x7x9, .i32⟩
  | 46 => ⟨S_, .i32⟩
  | 47 => ⟨S128x7x9, .i32⟩
  | 48 => ⟨S128x7x9, .i32⟩
  | 49 => ⟨S_, .i32⟩
  | 50 => ⟨S_, .i32⟩
  | 51 => ⟨S_, .i32⟩
  | 52 => ⟨S128x7x9, .i32⟩
  | 53 => ⟨S128x7x9, .i32⟩
  | 54 => ⟨S_, .i32⟩
  | 55 => ⟨S128x7x9, .i32⟩
  | 56 => ⟨S128x7x9, .i32⟩
  | 57 => ⟨S_, .i32⟩
  | 58 => ⟨S128x7x9, .i32⟩
  | 59 => ⟨S128x7x9, .i1⟩
  | 60 => ⟨S_, .i32⟩
  | 61 => ⟨S128x7x9, .i32⟩
  | 62 => ⟨S128x7x9, .i32⟩
  | 63 => ⟨S128x7x9, .i32⟩
  | 64 => ⟨S128x7x9x1, .i32⟩
  | 65 => ⟨S256x128x7x9x50, .f32⟩
  | 66 => ⟨S1x128x7x9x1, .i1⟩
  | 67 => ⟨S_, .f32⟩
  | 68 => ⟨S256x128x7x9x50, .i1⟩
  | 69 => ⟨S256x128x7x9x50, .f32⟩
  | 70 => ⟨S256x128x7x9x50, .f32⟩
  | 71 => ⟨S_, .f32⟩
  | 72 => ⟨S256x128x7x50, .f32⟩
  | 73 => ⟨S128x256x7x50, .f32⟩
  | 74 => ⟨S128x1x1x63, .i32⟩
  | 75 => ⟨S_, .i32⟩
  | 76 => ⟨S128x1x1x63, .i32⟩
  | 77 => ⟨S128x1x1x63, .i1⟩
  | 78 => ⟨S_, .i32⟩
  | 79 => ⟨S128x1x1x63, .i32⟩
  | 80 => ⟨S128x1x1x63, .i32⟩
  | 81 => ⟨S128x1x1x63, .i32⟩
  | 82 => ⟨S128x63x1, .i32⟩
  | 83 => ⟨S1, .i32⟩
  | 84 => ⟨S_, .i32⟩
  | 85 => ⟨S128x63x1, .i32⟩
  | 86 => ⟨S128x63x1, .i1⟩
  | 87 => ⟨S1x1x1, .i32⟩
  | 88 => ⟨S128x63x1, .i32⟩
  | 89 => ⟨S128x63x1, .i1⟩
  | 90 => ⟨S128x63x1, .i1⟩
  | 91 => ⟨S_, .i1⟩
  | 92 => ⟨S128x63, .i1⟩
  | 93 => ⟨S128x256x7x63, .f32⟩
  | 94 => ⟨S128x256x7x63, .i1⟩
  | 95 => ⟨S_, .f32⟩
  | 96 => ⟨S128x256x7x63, .f32⟩
  | 97 => ⟨S128x256x7x63, .f32⟩
  | 98 => ⟨S128x256x7x7x9, .f32⟩
  | 99 => ⟨S128x1x1x7x9, .i1⟩
  | 100 => ⟨S_, .f32⟩
  | 101 => ⟨S128x256x7x7x9, .i1⟩
  | 102 => ⟨S128x256x7x7x9, .f32⟩
  | 103 => ⟨S128x256x7x7x9, .f32⟩
  | 104 => ⟨S_, .f32⟩
  | 105 => ⟨S128x256x7x7, .f32⟩
  | 106 => ⟨S128x12544, .f32⟩
  | 107 => ⟨S12544x4096, .f32⟩
  | 108 => ⟨S128x4096, .f32⟩
  | 109 => ⟨S1x4096, .f32⟩
  | 110 => ⟨S128x4096, .f32⟩
  | 111 => ⟨S128x4096, .f32⟩
  | 112 => ⟨S_, .f32⟩
  | 113 => ⟨S128x4096, .f32⟩
  | 114 => ⟨S128x4096, .f32⟩
  | 115 => ⟨S4096x4096, .f32⟩
  | 116 => ⟨S128x4096, .f32⟩
  | 117 => ⟨S1x4096, .f32⟩
  | 118 => ⟨S128x4096, .f32⟩
  | 119 => ⟨S128x4096, .f32⟩
  | 120 => ⟨S_, .f32⟩
  | 121 => ⟨S128x4096, .f32⟩
  | 122 => ⟨S128x4096, .f32⟩
  | 123 => ⟨S4096x21, .f32⟩
  | 124 => ⟨S128x21, .f32⟩
  | 125 => ⟨S1x21, .f32⟩
  | 126 => ⟨S128x21, .f32⟩
  | 127 => ⟨S128x21, .f32⟩
  | _ => ⟨S1x256x50x50, .f32⟩

abbrev hbmTy0_2 (i : Nat) : BufTy := match i % 128 with
  | 0 => ⟨S4096x84, .f32⟩
  | 1 => ⟨S128x84, .f32⟩
  | 2 => ⟨S1x84, .f32⟩
  | 3 => ⟨S128x84, .f32⟩
  | 4 => ⟨S128x84, .f32⟩
  | 5 => ⟨S128x21x4, .f32⟩
  | _ => ⟨S1x256x50x50, .f32⟩

abbrev hbmTy (i : Nat) : BufTy := match i / 128 with
  | 0 => hbmTy0_0 i
  | 1 => hbmTy0_1 i
  | 2 => hbmTy0_2 i
  | _ => ⟨S1x256x50x50, .f32⟩

abbrev bufTy : (tb : Table) → Fin (tcTables nBuf tb) → BufTy
  | .hbm, ⟨i, _⟩ => hbmTy i
  | _, _ => ⟨S1x256x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_5 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_c : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_0 : Ref sig .tc := ⟨.hbm, 88, rfl⟩
abbrev main_call1_v12 : Ref sig .tc := ⟨.hbm, 89, rfl⟩
abbrev main_call1_v13 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_6 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_c : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_0 : Ref sig .tc := ⟨.hbm, 124, rfl⟩
abbrev main_call2_v12 : Ref sig .tc := ⟨.hbm, 125, rfl⟩
abbrev main_call2_v13 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_7 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_c_8 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_c : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_0 : Ref sig .tc := ⟨.hbm, 154, rfl⟩
abbrev main_call3_v12 : Ref sig .tc := ⟨.hbm, 155, rfl⟩
abbrev main_call3_v13 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_c_9 : Ref sig .tc := ⟨.hbm, 169, rfl⟩
abbrev main_c_10 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v84 : Ref sig .tc := ⟨.hbm, 176, rfl⟩
abbrev main_c_11 : Ref sig .tc := ⟨.hbm, 177, rfl⟩
abbrev main_c_12 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v85 : Ref sig .tc := ⟨.hbm, 184, rfl⟩
abbrev main_c_13 : Ref sig .tc := ⟨.hbm, 185, rfl⟩
abbrev main_v86 : Ref sig .tc := ⟨.hbm, 186, rfl⟩
abbrev main_v87 : Ref sig .tc := ⟨.hbm, 187, rfl⟩
abbrev main_c_14 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_cst_15 : Ref sig .tc := ⟨.hbm, 195, rfl⟩
abbrev main_call6_v0 : Ref sig .tc := ⟨.hbm, 196, rfl⟩
abbrev main_call6_v1 : Ref sig .tc := ⟨.hbm, 197, rfl⟩
abbrev main_v94 : Ref sig .tc := ⟨.hbm, 198, rfl⟩
abbrev main_cst_16 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_call7_c : Ref sig .tc := ⟨.hbm, 203, rfl⟩
abbrev main_call7_v0 : Ref sig .tc := ⟨.hbm, 204, rfl⟩
abbrev main_call7_v1 : Ref sig .tc := ⟨.hbm, 205, rfl⟩
abbrev main_call7_c_0 : Ref sig .tc := ⟨.hbm, 206, rfl⟩
abbrev main_call7_v2 : Ref sig .tc := ⟨.hbm, 207, rfl⟩
abbrev main_call7_v3 : Ref sig .tc := ⟨.hbm, 208, rfl⟩
abbrev main_call7_v4 : Ref sig .tc := ⟨.hbm, 209, rfl⟩
abbrev main_call7_v5 : Ref sig .tc := ⟨.hbm, 210, rfl⟩
abbrev main_call7_c_1 : Ref sig .tc := ⟨.hbm, 211, rfl⟩
abbrev main_call7_c_2 : Ref sig .tc := ⟨.hbm, 212, rfl⟩
abbrev main_call7_v6 : Ref sig .tc := ⟨.hbm, 213, rfl⟩
abbrev main_call7_v7 : Ref sig .tc := ⟨.hbm, 214, rfl⟩
abbrev main_call7_v8 : Ref sig .tc := ⟨.hbm, 215, rfl⟩
abbrev main_call7_v9 : Ref sig .tc := ⟨.hbm, 216, rfl⟩
abbrev main_call7_v10 : Ref sig .tc := ⟨.hbm, 217, rfl⟩
abbrev main_call7_v11 : Ref sig .tc := ⟨.hbm, 218, rfl⟩
abbrev main_call7_c_3 : Ref sig .tc := ⟨.hbm, 219, rfl⟩
abbrev main_call7_v12 : Ref sig .tc := ⟨.hbm, 220, rfl⟩
abbrev main_call7_v13 : Ref sig .tc := ⟨.hbm, 221, rfl⟩
abbrev main_call7_v14 : Ref sig .tc := ⟨.hbm, 222, rfl⟩
abbrev main_call7_cst : Ref sig .tc := ⟨.hbm, 223, rfl⟩
abbrev main_call7_v15 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_cst_17 : Ref sig .tc := ⟨.hbm, 228, rfl⟩
abbrev main_call8_v0 : Ref sig .tc := ⟨.hbm, 229, rfl⟩
abbrev main_call8_v1 : Ref sig .tc := ⟨.hbm, 230, rfl⟩
abbrev main_v101 : Ref sig .tc := ⟨.hbm, 231, rfl⟩
abbrev main_cst_18 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_v107 : Ref sig .tc := ⟨.hbm, 238, rfl⟩
abbrev main_v108 : Ref sig .tc := ⟨.hbm, 239, rfl⟩
abbrev main_call9_cst : Ref sig .tc := ⟨.hbm, 240, rfl⟩
abbrev main_call9_v0 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_call10_cst : Ref sig .tc := ⟨.hbm, 248, rfl⟩
abbrev main_call10_v0 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩

abbrev nD : Nat := 1
abbrev τ : Topo := Topo.v7x

variable {F : FTy → Type} [FloatOps F]

class Facts₀ : Prop where
  shapeCasts_S1x256x50x50_S256x50x50 : S1x256x50x50.ShapeCasts S256x50x50
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S128_S128x1_0 : S128.BroadcastsInDim S128x1 (![0] : Fin 1 → Fin S128x1.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S1x7 : S_.BroadcastsInDim S1x7 (![] : Fin 0 → Fin S1x7.rank)
  bcast_S128x7_S128x7x1_0_1 : S128x7.BroadcastsInDim S128x7x1 (![0, 1] : Fin 2 → Fin S128x7x1.rank)
  bcast_S9_S1x1x9_2 : S9.BroadcastsInDim S1x1x9 (![2] : Fin 1 → Fin S1x1x9.rank)
  bcast_S128x7x1_S128x7x9_0_1_2 : S128x7x1.BroadcastsInDim S128x7x9 (![0, 1, 2] : Fin 3 → Fin S128x7x9.rank)
  bcast_S1x1x9_S128x7x9_0_1_2 : S1x1x9.BroadcastsInDim S128x7x9 (![0, 1, 2] : Fin 3 → Fin S128x7x9.rank)
  bcast_S_S128x7x9 : S_.BroadcastsInDim S128x7x9 (![] : Fin 0 → Fin S128x7x9.rank)
  bcast_S128x7x9_S128x7x9x1_0_1_2 : S128x7x9.BroadcastsInDim S128x7x9x1 (![0, 1, 2] : Fin 3 → Fin S128x7x9x1.rank)
  bcast_S128x7x9_S1x128x7x9x1_1_2_3 : S128x7x9.BroadcastsInDim S1x128x7x9x1 (![1, 2, 3] : Fin 3 → Fin S1x128x7x9x1.rank)
  bcast_S1x128x7x9x1_S256x128x7x9x50_0_1_2_3_4 : S1x128x7x9x1.BroadcastsInDim S256x128x7x9x50 (![0, 1, 2, 3, 4] : Fin 5 → Fin S256x128x7x9x50.rank)
  bcast_S_S256x128x7x9x50 : S_.BroadcastsInDim S256x128x7x9x50 (![] : Fin 0 → Fin S256x128x7x9x50.rank)
  reducesTo_S256x128x7x9x50_S256x128x7x50_d3 : S256x128x7x9x50.ReducesTo [3] S256x128x7x50
  h_S_ : 0 < S_.numel
  transposes_S256x128x7x50_S128x256x7x50_1_0_2_3 : S256x128x7x50.Transposes [1, 0, 2, 3] S128x256x7x50
  shapeCasts_S128x7x9_S128x1x1x63 : S128x7x9.ShapeCasts S128x1x1x63
  bcast_S_S128x1x1x63 : S_.BroadcastsInDim S128x1x1x63 (![] : Fin 0 → Fin S128x1x1x63.rank)
  shapeCasts_S128x1x1x63_S128x63x1 : S128x1x1x63.ShapeCasts S128x63x1
  bcast_S_S128x63x1 : S_.BroadcastsInDim S128x63x1 (![] : Fin 0 → Fin S128x63x1.rank)
  bcast_S1_S1x1x1_2 : S1.BroadcastsInDim S1x1x1 (![2] : Fin 1 → Fin S1x1x1.rank)
  bcast_S1x1x1_S128x63x1_0_1_2 : S1x1x1.BroadcastsInDim S128x63x1 (![0, 1, 2] : Fin 3 → Fin S128x63x1.rank)
  reducesTo_S128x63x1_S128x63_d2 : S128x63x1.ReducesTo [2] S128x63
  bcast_S128x63_S128x256x7x63_0_3 : S128x63.BroadcastsInDim S128x256x7x63 (![0, 3] : Fin 2 → Fin S128x256x7x63.rank)
  bcast_S_S128x256x7x63 : S_.BroadcastsInDim S128x256x7x63 (![] : Fin 0 → Fin S128x256x7x63.rank)
  shapeCasts_S128x256x7x63_S128x256x7x7x9 : S128x256x7x63.ShapeCasts S128x256x7x7x9
  bcast_S128x7x9_S128x1x1x7x9_0_3_4 : S128x7x9.BroadcastsInDim S128x1x1x7x9 (![0, 3, 4] : Fin 3 → Fin S128x1x1x7x9.rank)
  bcast_S128x1x1x7x9_S128x256x7x7x9_0_1_2_3_4 : S128x1x1x7x9.BroadcastsInDim S128x256x7x7x9 (![0, 1, 2, 3, 4] : Fin 5 → Fin S128x256x7x7x9.rank)
  bcast_S_S128x256x7x7x9 : S_.BroadcastsInDim S128x256x7x7x9 (![] : Fin 0 → Fin S128x256x7x7x9.rank)
  reducesTo_S128x256x7x7x9_S128x256x7x7_d4 : S128x256x7x7x9.ReducesTo [4] S128x256x7x7
  shapeCasts_S128x256x7x7_S128x12544 : S128x256x7x7.ShapeCasts S128x12544
  transposes_S4096x12544_S12544x4096_1_0 : S4096x12544.Transposes [1, 0] S12544x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  bcast_S_S128x4096 : S_.BroadcastsInDim S128x4096 (![] : Fin 0 → Fin S128x4096.rank)
  transposes_S4096x4096_S4096x4096_1_0 : S4096x4096.Transposes [1, 0] S4096x4096
  transposes_S21x4096_S4096x21_1_0 : S21x4096.Transposes [1, 0] S4096x21
  bcast_S21_S1x21_1 : S21.BroadcastsInDim S1x21 (![1] : Fin 1 → Fin S1x21.rank)
  bcast_S1x21_S128x21_0_1 : S1x21.BroadcastsInDim S128x21 (![0, 1] : Fin 2 → Fin S128x21.rank)
  transposes_S84x4096_S4096x84_1_0 : S84x4096.Transposes [1, 0] S4096x84
  bcast_S84_S1x84_1 : S84.BroadcastsInDim S1x84 (![1] : Fin 1 → Fin S1x84.rank)
  bcast_S1x84_S128x84_0_1 : S1x84.BroadcastsInDim S128x84 (![0, 1] : Fin 2 → Fin S128x84.rank)
  shapeCasts_S128x84_S128x21x4 : S128x84.ShapeCasts S128x21x4
  gather_S256x50x50_S128x7x9x1_S256x128x7x9x50_04_1_n_n_1_3_256150_wf : GatherDims.WF S256x50x50 S128x7x9x1 S256x128x7x9x50 [0, 4] [1] [] [1] [] 3 ![256, 1, 50]
  gather_S128x256x7x50_S128x63x1_S128x256x7x63_12_3_0_0_3_2_125671_wf : GatherDims.WF S128x256x7x50 S128x63x1 S128x256x7x63 [1, 2] [3] [0] [3] [0] 2 ![1, 256, 7, 1]
  dot_S128x12544_S12544x4096_S128x4096_1_0_0_1_n_n_wf : DotDims.WF S128x12544 S12544x4096 S128x4096 [1] [0] [0] [1] [] []
  dot_S128x4096_S4096x4096_S128x4096_1_0_0_1_n_n_wf : DotDims.WF S128x4096 S4096x4096 S128x4096 [1] [0] [0] [1] [] []
  dot_S128x4096_S4096x21_S128x21_1_0_0_1_n_n_wf : DotDims.WF S128x4096 S4096x21 S128x21 [1] [0] [0] [1] [] []
  dot_S128x4096_S4096x84_S128x84_1_0_0_1_n_n_wf : DotDims.WF S128x4096 S4096x84 S128x84 [1] [0] [0] [1] [] []

variable [Facts₀]

def gather_S256x50x50_S128x7x9x1_S256x128x7x9x50_04_1_n_n_1_3_256150 : GatherDims S256x50x50 S128x7x9x1 S256x128x7x9x50 where
  offsetDims := [0, 4]
  collapsedSliceDims := [1]
  operandBatchingDims := []
  startIndicesBatchingDims := []
  startIndexMap := [1]
  indexVectorDim := 3
  sliceSizes := ![256, 1, 50]
  wf := gather_S256x50x50_S128x7x9x1_S256x128x7x9x50_04_1_n_n_1_3_256150_wf
def gather_S128x256x7x50_S128x63x1_S128x256x7x63_12_3_0_0_3_2_125671 : GatherDims S128x256x7x50 S128x63x1 S128x256x7x63 where
  offsetDims := [1, 2]
  collapsedSliceDims := [3]
  operandBatchingDims := [0]
  startIndicesBatchingDims := [0]
  startIndexMap := [3]
  indexVectorDim := 2
  sliceSizes := ![1, 256, 7, 1]
  wf := gather_S128x256x7x50_S128x63x1_S128x256x7x63_12_3_0_0_3_2_125671_wf
def dot_S128x12544_S12544x4096_S128x4096_1_0_0_1_n_n : DotDims S128x12544 S12544x4096 S128x4096 where
  lhsContracting := [1]
  rhsContracting := [0]
  lhsNonContracting := [0]
  rhsNonContracting := [1]
  lhsBatch := []
  rhsBatch := []
  wf := dot_S128x12544_S12544x4096_S128x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S128x4096_S4096x21_S128x21_1_0_0_1_n_n : DotDims S128x4096 S4096x21 S128x21 where
  lhsContracting := [1]
  rhsContracting := [0]
  lhsNonContracting := [0]
  rhsNonContracting := [1]
  lhsBatch := []
  rhsBatch := []
  wf := dot_S128x4096_S4096x21_S128x21_1_0_0_1_n_n_wf
def dot_S128x4096_S4096x84_S128x84_1_0_0_1_n_n : DotDims S128x4096 S4096x84 S128x84 where
  lhsContracting := [1]
  rhsContracting := [0]
  lhsNonContracting := [0]
  rhsNonContracting := [1]
  lhsBatch := []
  rhsBatch := []
  wf := dot_S128x4096_S4096x84_S128x84_1_0_0_1_n_n_wf

class Facts : Prop extends Facts₀ where

variable [Facts]
-- ==== Proof.KRun.lean ====
/-
  The idealized kernel program's run with its two results named. The program is nineteen stretches of host
  operations (the pooling stage), then three dense-layer kernels with a short stretch of host operations before each
  and one after the last. Every weakly fair execution terminates without a fault, and in the final state every buffer
  the program does not scope holds the contents obtained by folding, from the launch memory, each stretch's operations
  and each kernel's write-backs in order (the valuation `W25`). Read at the two result buffers this names the
  results; read at the ten argument buffers it gives back the launch contents.
-/
import proofs.«111165_j61984968016074_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel program terminates, nothing faulting, with the class scores and
    the box deltas at the fold `W25` of the whole program over the launch memory, and the ten arguments as launched. -/
theorem run_results : θ_run defs (onTc (τ := τ) (main (F := F))) ⟨m, fun _ => 0, ρ⟩ (fun r => ∀ c : Dev nD,
      r.2.mem ((c.tc : Thread nD τ).loc main_v116) = W25 m ρ c (Proc.devRef .tc main_v116)
      ∧ r.2.mem ((c.tc : Thread nD τ).loc main_v118) = W25 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v116 (by decide)),
       h c _ (mem_uc main_v118 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c)⟩)

end Cert.KernelIdeal.Hand

end
-- ==== Proof.LibDenseLayer.lean ====
/-
  One dense layer at the exact (extended-real) values, read entry by entry.

  `matmul_rows_zero_apply`: the matrix unit's product of an [m, k] matrix with an [n, k] matrix, contracting the SECOND
  axis of both (so the right operand is used row by row: a product with its transpose), accumulated into the zero
  matrix, has at entry (a, b) the value  ∑ c, A (a, c) · B (b, c).  Only `0 + x = x` is used of the arithmetic, so the
  statement holds at the infinities as well.

  `rowBias_apply`: a one-row matrix [1, n] broadcast down m rows has at entry (a, j) the row's entry (0, j).
-/
import Idealize.ShloMosaic.Lib.ValueIdx
import Idealize.ShloMosaic.Lib.Pipeline.Value
import Idealize.ShloMosaic.PureOps.Ideal.Laws

noncomputable section

namespace Cert.Lib.Dense

open Idealize.ShloMosaic Idealize.ShloMosaic.ValueIdx

/-- The product of an [m, k] matrix with the transpose of an [n, k] matrix, accumulated into zero, at entry (a, b):
    the sum over the contracted coordinate `c` of `A (a, c) * B (b, c)`. At the ideal values. `w` is the record's
    well-formedness, which a program states. -/
theorem matmul_rows_zero_apply {m n k : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A one-row matrix broadcast down `m` rows, read at (a, j), is the row at (0, j). -/
theorem rowBias_apply {α : Type} {m n : Nat} (x : (⟨2, ![1, n]⟩ : Shape).Idx → α)
    (h : (⟨2, ![1, n]⟩ : Shape).Broadcasts ⟨2, ![m, n]⟩) (a : Fin m) (j : Fin n) :
    broadcastTo ⟨2, ![m, n]⟩ x h (ix2 a j) = x (ix2 (0 : Fin 1) j) := by
  refine broadcastTo_apply x h (ix2 a j) (ix2 (0 : Fin 1) j) fun ax => ?_
  match ax with
  | ⟨0, _⟩ => simp
  | ⟨1, _⟩ =>
    by_cases h1 : n = 1
    · subst h1; simp
    · simp [h1]

end Cert.Lib.Dense

end
-- ==== Proof.Region0.lean ====
/-
  The first dense-layer kernel, read as ONE function of the arrays it finds. The kernel runs over 16 grid
  points; at point t it takes the whole [128, 12544] activation, rows 256·t … 256·t + 255 of the [4096, 12544] weight and columns
  256·t … 256·t + 255 of the [1, 4096] bias, and writes columns 256·t … 256·t + 255 of the [128, 4096] result. At the exact values the body's
  product with the weight block's transpose into a zero accumulator is a plain sum over the 12544 contracted
  coordinates, the bias row is added along every row, the maximum with zero is taken, and the change of float format is the identity. So entry (p, n) of what point ⌊n / 256⌋ writes is
  `layer1 x w b (p, n)` = max (∑ₖ x (p, k) · w (n, k) + b (0, n)) 0, the write-backs' column blocks tile the result, and the result array ends holding
  `layer1 x w b` whole. Everything is stated at a parameter `V`: the buffers' contents when the kernel is entered.
-/
import proofs.«111165_j61984968016074_1_alg».proof.Proof.Gen.KernelIdeal.Frame
import proofs.«111165_j61984968016074_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense

variable (V : (c : Dev nD) → (b : Ref sig .tc) → Buf (Elt Ideal) ((c : Thread nD τ).loc b))

theorem hz0 : (![0, 0] : Fin 2 → Nat) = fun _ => 0 := funext fun a => by fin_cases a <;> rfl

/-- The layer as a function of whole arrays: entry (p, n) is the maximum with zero of the sum over the 12544 input features of the
    activation's row p times the weight's row n, plus the bias at n. -/
def layer1 (x : Vec Ideal S128x12544 .bf16) (w : Vec Ideal S4096x12544 .bf16) (b : Vec Ideal S1x4096 .f32) : Vec Ideal S128x4096 .bf16 :=
  fun i => max ((∑ k : Fin 12544, x (ix2 (i 0) k) * w (ix2 (i 1) k)) + b (ix2 (0 : Fin 1) (i 1))) (Ideal.ofBits .f32 0x00000000#32)

/-- The body's stored value at entry (p, q) of its block, from the three loaded blocks. -/
theorem pay0_apply (X0 : Vec Ideal S128x12544 .bf16) (X1 : Vec Ideal S256x12544 .bf16) (X2 : Vec Ideal S1x256 .f32) (p : Fin 128) (q : Fin 256) :
    k0_pay1 X0 X1 X2 (ix2 p q) = max ((∑ k : Fin 12544, X0 (ix2 p k) * X1 (ix2 q k)) + X2 (ix2 (0 : Fin 1) q)) (Ideal.ofBits .f32 0x00000000#32) := by
  unfold k0_pay1
  simp only [shapeCast_self]
  refine congrArg₂ max (congrArg₂ (· + ·) ?_ ?_) rfl
  · exact matmul_rows_zero_apply dot_S128x12544_S256x12544_S128x256_1_1_0_0_n_n_wf none X0 X1 p q
  · exact rowBias_apply X2 broadcasts_S1x256_S128x256 p q

/-- Where the four windows' blocks sit at point `t`: the activation is taken whole; the weight's row block, the bias's
    column block and the result's column block are the `t`-th. -/
theorem idx0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem lt0 (t : Fin cfg0.N) (q : Fin 256) : 256 * t.val + q.val < 4096 := by
  have h1 := t.isLt; have h2 : cfg0.N = 16 := N_0; have h3 := q.isLt; omega

/-- The activation's block at any point is the whole activation. -/
theorem iblk0_0_apply (c : Dev nD) (t : Fin cfg0.N) (p : Fin 128) (k : Fin 12544) :
    (iblk0 V c 0 t : Vec Ideal S128x12544 .bf16) (ix2 p k) = (V c main_v104 : Vec Ideal S128x12544 .bf16) (ix2 p k) := by
  obtain ⟨e00, e01, -⟩ := idx0 t
  unfold iblk0
  rw [View.read_apply]
  show V c main_v104 _ = V c main_v104 _
  congr 1
  funext a
  apply Fin.ext
  match a with
  | ⟨0, _⟩ => show win0_0.index t (0 : Fin 2) * 128 + 1 * p.val = p.val; omega
  | ⟨1, _⟩ => show win0_0.index t (1 : Fin 2) * 12544 + 1 * k.val = k.val; omega

/-- The weight's block at point `t` is its rows 256·t … 256·t + 255. -/
theorem iblk0_1_apply (c : Dev nD) (t : Fin cfg0.N) (q : Fin 256) (k : Fin 12544) :
    (iblk0 V c 1 t : Vec Ideal S256x12544 .bf16) (ix2 q k) = (V c main_v105 : Vec Ideal S4096x12544 .bf16) (ix2 ⟨256 * t.val + q.val, lt0 t q⟩ k) := by
  obtain ⟨-, -, e10, e11, -⟩ := idx0 t
  unfold iblk0
  rw [View.read_apply]
  show V c main_v105 _ = V c main_v105 _
  congr 1
  funext a
  apply Fin.ext
  match a with
  | ⟨0, _⟩ => show win0_1.index t (0 : Fin 2) * 256 + 1 * q.val = 256 * t.val + q.val; omega
  | ⟨1, _⟩ => show win0_1.index t (1 : Fin 2) * 12544 + 1 * k.val = k.val; omega

/-- The bias's block at point `t` is its columns 256·t … 256·t + 255. -/
theorem iblk0_2_apply (c : Dev nD) (t : Fin cfg0.N) (q : Fin 256) :
    (iblk0 V c 2 t : Vec Ideal S1x256 .f32) (ix2 (0 : Fin 1) q) = (V c main_v106 : Vec Ideal S1x4096 .f32) (ix2 (0 : Fin 1) ⟨256 * t.val + q.val, lt0 t q⟩) := by
  obtain ⟨-, -, -, -, e20, e21, -⟩ := idx0 t
  unfold iblk0
  rw [View.read_apply]
  show V c main_v106 _ = V c main_v106 _
  congr 1
  funext a
  apply Fin.ext
  match a with
  | ⟨0, _⟩ => show win0_2.index t (0 : Fin 2) * 1 + 1 * 0 = 0; omega
  | ⟨1, _⟩ => show win0_2.index t (1 : Fin 2) * 256 + 1 * q.val = 256 * t.val + q.val; omega

/-- WHAT POINT `t` WRITES BACK is block `t` of `layer1` of the arrays as the kernel finds them. -/
theorem flushed0 (c : Dev nD) (t : Fin cfg0.N) :
    (dat0 V c).flushed 3 t = ((cfg0.win 3).blk t).view.read (Elt Ideal) (layer1 (V c main_v104) (V c main_v105) (V c main_v106)) := by
  show (cfg0.win 3).cut (grid0.coords t) ((dat0 V c).after 3 t) = _
  rw [after0_3]
  unfold out0_3
  rw [View.canon_unit_zero hz0]
  simp only [View.ld_unit_zero (S := S128x12544) hz0, View.ld_unit_zero (S := S256x12544) hz0, View.ld_unit_zero (S := S1x256) hz0]
  obtain ⟨-, -, -, -, -, -, e30, e31⟩ := idx0 t
  funext j
  obtain ⟨p, q, rfl⟩ : ∃ (p : Fin 128) (q : Fin 256), j = ix2 p q := ⟨j 0, j 1, eq_ix2 j⟩
  have he : ((cfg0.win 3).blk t).view.emb (ix2 p q) = (ix2 p ⟨256 * t.val + q.val, lt0 t q⟩ : S128x4096.Idx) := by
    funext a; apply Fin.ext
    match a with
    | ⟨0, _⟩ => show win0_3.index t (0 : Fin 2) * 128 + 1 * p.val = p.val; omega
    | ⟨1, _⟩ => show win0_3.index t (1 : Fin 2) * 256 + 1 * q.val = 256 * t.val + q.val; omega
  show k0_pay1 (iblk0 V c 0 t) (iblk0 V c 1 t) (iblk0 V c 2 t) (ix2 p q)
    = layer1 (V c main_v104) (V c main_v105) (V c main_v106) (((cfg0.win 3).blk t).view.emb (ix2 p q))
  rw [he]
  refine (pay0_apply _ _ _ p q).trans ?_
  unfold layer1
  refine congrArg₂ max (congrArg₂ (· + ·) (Finset.sum_congr rfl fun k _ => ?_) ?_) rfl
  · have h0 := iblk0_0_apply V c t p k
    have h1 := iblk0_1_apply V c t q k
    rw [h0, h1]
    try rfl
  · exact iblk0_2_apply V c t q

/-- An index of the result is in point `t`'s block iff each coordinate is in the block's range on its axis. -/
theorem mem_blk0 (t : Fin cfg0.N) (i : S128x4096.Idx) :
    i ∈ ((cfg0.win 3).blk t).view.set ↔ ∀ a : Fin 2, win0_3.index t a * S128x256.size a ≤ (i a).val ∧ (i a).val < win0_3.index t a * S128x256.size a + S128x256.size a := by
  show i ∈ ((View.whole main_v107).slice (win0_3.rect t)).set ↔ _
  rw [View.set_slice_whole, Rect.mem_set_unit]
  exact Iff.rfl

/-- Every entry (p, n) of the result lies in the block point ⌊n / 256⌋ writes back. -/
theorem cover0 (i : S128x4096.Idx) : ∃ t : Fin cfg0.N, (cfg0.win 3).flush t = true ∧ i ∈ ((cfg0.win 3).blk t).view.set := by
  have hi0 : (i 0).val < 128 := (i 0).isLt
  have hi1 : (i 1).val < 4096 := (i 1).isLt
  have hN : cfg0.N = 16 := N_0
  have ht : (i 1).val / 256 < cfg0.N := by rw [hN]; omega
  obtain ⟨-, -, -, -, -, -, e30, e31⟩ := idx0 ⟨(i 1).val / 256, ht⟩
  refine ⟨⟨(i 1).val / 256, ht⟩, flush0_3 _, ?_⟩
  rw [mem_blk0]
  intro a
  match a with
  | ⟨0, _⟩ =>
    show win0_3.index ⟨(i 1).val / 256, ht⟩ (0 : Fin 2) * 128 ≤ (i 0).val ∧ (i 0).val < win0_3.index ⟨(i 1).val / 256, ht⟩ (0 : Fin 2) * 128 + 128
    rw [e30]; omega
  | ⟨1, _⟩ =>
    show win0_3.index ⟨(i 1).val / 256, ht⟩ (1 : Fin 2) * 256 ≤ (i 1).val ∧ (i 1).val < win0_3.index ⟨(i 1).val / 256, ht⟩ (1 : Fin 2) * 256 + 256
    rw [e31]; show (i 1).val / 256 * 256 ≤ (i 1).val ∧ (i 1).val < (i 1).val / 256 * 256 + 256; omega

/-- THE RESULT ARRAY after the kernel: `layer1` of the activation, the weight and the bias as the kernel found them. -/
theorem final0 (c : Dev nD) : (dat0 V c).arrAt 3 cfg0.N = layer1 (V c main_v104) (V c main_v105) (V c main_v106) :=
  (dat0 V c).arrAt_eq_of_cover 3 (layer1 (V c main_v104) (V c main_v105) (V c main_v106)) (fun t _ => flushed0 V c t) (cover0)

end Cert.KernelIdeal.Hand

end
-- ==== Proof.Region1.lean ====
/-
  The second dense-layer kernel, read as ONE function of the arrays it finds. The kernel runs over 8 grid
  points; at point t it takes the whole [128, 4096] activation, rows 512·t … 512·t + 511 of the [4096, 4096] weight and columns
  512·t … 512·t + 511 of the [1, 4096] bias, and writes columns 512·t … 512·t + 511 of the [128, 4096] result. At the exact values the body's
  product with the weight block's transpose into a zero accumulator is a plain sum over the 4096 contracted
  coordinates, the bias row is added along every row, the maximum with zero is taken, and the change of float format is the identity. So entry (p, n) of what point ⌊n / 512⌋ writes is
  `layer2 x w b (p, n)` = max (∑ₖ x (p, k) · w (n, k) + b (0, n)) 0, the write-backs' column blocks tile the result, and the result array ends holding
  `layer2 x w b` whole. Everything is stated at a parameter `V`: the buffers' contents when the kernel is entered.
-/
import proofs.«111165_j61984968016074_1_alg».proof.Proof.Gen.KernelIdeal.Frame
import proofs.«111165_j61984968016074_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense

variable (V : (c : Dev nD) → (b : Ref sig .tc) → Buf (Elt Ideal) ((c : Thread nD τ).loc b))

theorem hz1 : (![0, 0] : Fin 2 → Nat) = fun _ => 0 := funext fun a => by fin_cases a <;> rfl

/-- The layer as a function of whole arrays: entry (p, n) is the maximum with zero of the sum over the 4096 input features of the
    activation's row p times the weight's row n, plus the bias at n. -/
def layer2 (x : Vec Ideal S128x4096 .bf16) (w : Vec Ideal S4096x4096 .bf16) (b : Vec Ideal S1x4096 .f32) : Vec Ideal S128x4096 .bf16 :=
  fun i => max ((∑ k : Fin 4096, x (ix2 (i 0) k) * w (ix2 (i 1) k)) + b (ix2 (0 : Fin 1) (i 1))) (Ideal.ofBits .f32 0x00000000#32)

/-- The body's stored value at entry (p, q) of its block, from the three loaded blocks. -/
theorem pay1_apply (X0 : Vec Ideal S128x4096 .bf16) (X1 : Vec Ideal S512x4096 .bf16) (X2 : Vec Ideal S1x512 .f32) (p : Fin 128) (q : Fin 512) :
    k1_pay1 X0 X1 X2 (ix2 p q) = max ((∑ k : Fin 4096, X0 (ix2 p k) * X1 (ix2 q k)) + X2 (ix2 (0 : Fin 1) q)) (Ideal.ofBits .f32 0x00000000#32) := by
  unfold k1_pay1
  simp only [shapeCast_self]
  refine congrArg₂ max (congrArg₂ (· + ·) ?_ ?_) rfl
  · exact matmul_rows_zero_apply dot_S128x4096_S512x4096_S128x512_1_1_0_0_n_n_wf none X0 X1 p q
  · exact rowBias_apply X2 broadcasts_S1x512_S128x512 p q

/-- Where the four windows' blocks sit at point `t`: the activation is taken whole; the weight's row block, the bias's
    column block and the result's column block are the `t`-th. -/
theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

theorem lt1 (t : Fin cfg1.N) (q : Fin 512) : 512 * t.val + q.val < 4096 := by
  have h1 := t.isLt; have h2 : cfg1.N = 8 := N_1; have h3 := q.isLt; omega

/-- The activation's block at any point is the whole activation. -/
theorem iblk1_0_apply (c : Dev nD) (t : Fin cfg1.N) (p : Fin 128) (k : Fin 4096) :
    (iblk1 V c 0 t : Vec Ideal S128x4096 .bf16) (ix2 p k) = (V c main_v107 : Vec Ideal S128x4096 .bf16) (ix2 p k) := by
  obtain ⟨e00, e01, -⟩ := idx1 t
  unfold iblk1
  rw [View.read_apply]
  show V c main_v107 _ = V c main_v107 _
  congr 1
  funext a
  apply Fin.ext
  match a with
  | ⟨0, _⟩ => show win1_0.index t (0 : Fin 2) * 128 + 1 * p.val = p.val; omega
  | ⟨1, _⟩ => show win1_0.index t (1 : Fin 2) * 4096 + 1 * k.val = k.val; omega

/-- The weight's block at point `t` is its rows 512·t … 512·t + 511. -/
theorem iblk1_1_apply (c : Dev nD) (t : Fin cfg1.N) (q : Fin 512) (k : Fin 4096) :
    (iblk1 V c 1 t : Vec Ideal S512x4096 .bf16) (ix2 q k) = (V c main_v108 : Vec Ideal S4096x4096 .bf16) (ix2 ⟨512 * t.val + q.val, lt1 t q⟩ k) := by
  obtain ⟨-, -, e10, e11, -⟩ := idx1 t
  unfold iblk1
  rw [View.read_apply]
  show V c main_v108 _ = V c main_v108 _
  congr 1
  funext a
  apply Fin.ext
  match a with
  | ⟨0, _⟩ => show win1_1.index t (0 : Fin 2) * 512 + 1 * q.val = 512 * t.val + q.val; omega
  | ⟨1, _⟩ => show win1_1.index t (1 : Fin 2) * 4096 + 1 * k.val = k.val; omega

/-- The bias's block at point `t` is its columns 512·t … 512·t + 511. -/
theorem iblk1_2_apply (c : Dev nD) (t : Fin cfg1.N) (q : Fin 512) :
    (iblk1 V c 2 t : Vec Ideal S1x512 .f32) (ix2 (0 : Fin 1) q) = (V c main_v109 : Vec Ideal S1x4096 .f32) (ix2 (0 : Fin 1) ⟨512 * t.val + q.val, lt1 t q⟩) := by
  obtain ⟨-, -, -, -, e20, e21, -⟩ := idx1 t
  unfold iblk1
  rw [View.read_apply]
  show V c main_v109 _ = V c main_v109 _
  congr 1
  funext a
  apply Fin.ext
  match a with
  | ⟨0, _⟩ => show win1_2.index t (0 : Fin 2) * 1 + 1 * 0 = 0; omega
  | ⟨1, _⟩ => show win1_2.index t (1 : Fin 2) * 512 + 1 * q.val = 512 * t.val + q.val; omega

/-- WHAT POINT `t` WRITES BACK is block `t` of `layer2` of the arrays as the kernel finds them. -/
theorem flushed1 (c : Dev nD) (t : Fin cfg1.N) :
    (dat1 V c).flushed 3 t = ((cfg1.win 3).blk t).view.read (Elt Ideal) (layer2 (V c main_v107) (V c main_v108) (V c main_v109)) := by
  show (cfg1.win 3).cut (grid1.coords t) ((dat1 V c).after 3 t) = _
  rw [after1_3]
  unfold out1_3
  rw [View.canon_unit_zero hz1]
  simp only [View.ld_unit_zero (S := S128x4096) hz1, View.ld_unit_zero (S := S512x4096) hz1, View.ld_unit_zero (S := S1x512) hz1]
  obtain ⟨-, -, -, -, -, -, e30, e31⟩ := idx1 t
  funext j
  obtain ⟨p, q, rfl⟩ : ∃ (p : Fin 128) (q : Fin 512), j = ix2 p q := ⟨j 0, j 1, eq_ix2 j⟩
  have he : ((cfg1.win 3).blk t).view.emb (ix2 p q) = (ix2 p ⟨512 * t.val + q.val, lt1 t q⟩ : S128x4096.Idx) := by
    funext a; apply Fin.ext
    match a with
    | ⟨0, _⟩ => show win1_3.index t (0 : Fin 2) * 128 + 1 * p.val = p.val; omega
    | ⟨1, _⟩ => show win1_3.index t (1 : Fin 2) * 512 + 1 * q.val = 512 * t.val + q.val; omega
  show k1_pay1 (iblk1 V c 0 t) (iblk1 V c 1 t) (iblk1 V c 2 t) (ix2 p q)
    = layer2 (V c main_v107) (V c main_v108) (V c main_v109) (((cfg1.win 3).blk t).view.emb (ix2 p q))
  rw [he]
  refine (pay1_apply _ _ _ p q).trans ?_
  unfold layer2
  refine congrArg₂ max (congrArg₂ (· + ·) (Finset.sum_congr rfl fun k _ => ?_) ?_) rfl
  · have h0 := iblk1_0_apply V c t p k
    have h1 := iblk1_1_apply V c t q k
    rw [h0, h1]
    try rfl
  · exact iblk1_2_apply V c t q

/-- An index of the result is in point `t`'s block iff each coordinate is in the block's range on its axis. -/
theorem mem_blk1 (t : Fin cfg1.N) (i : S128x4096.Idx) :
    i ∈ ((cfg1.win 3).blk t).view.set ↔ ∀ a : Fin 2, win1_3.index t a * S128x512.size a ≤ (i a).val ∧ (i a).val < win1_3.index t a * S128x512.size a + S128x512.size a := by
  show i ∈ ((View.whole main_v110).slice (win1_3.rect t)).set ↔ _
  rw [View.set_slice_whole, Rect.mem_set_unit]
  exact Iff.rfl

/-- Every entry (p, n) of the result lies in the block point ⌊n / 512⌋ writes back. -/
theorem cover1 (i : S128x4096.Idx) : ∃ t : Fin cfg1.N, (cfg1.win 3).flush t = true ∧ i ∈ ((cfg1.win 3).blk t).view.set := by
  have hi0 : (i 0).val < 128 := (i 0).isLt
  have hi1 : (i 1).val < 4096 := (i 1).isLt
  have hN : cfg1.N = 8 := N_1
  have ht : (i 1).val / 512 < cfg1.N := by rw [hN]; omega
  obtain ⟨-, -, -, -, -, -, e30, e31⟩ := idx1 ⟨(i 1).val / 512, ht⟩
  refine ⟨⟨(i 1).val / 512, ht⟩, flush1_3 _, ?_⟩
  rw [mem_blk1]
  intro a
  match a with
  | ⟨0, _⟩ =>
    show win1_3.index ⟨(i 1).val / 512, ht⟩ (0 : Fin 2) * 128 ≤ (i 0).val ∧ (i 0).val < win1_3.index ⟨(i 1).val / 512, ht⟩ (0 : Fin 2) * 128 + 128
    rw [e30]; omega
  | ⟨1, _⟩ =>
    show win1_3.index ⟨(i 1).val / 512, ht⟩ (1 : Fin 2) * 512 ≤ (i 1).val ∧ (i 1).val < win1_3.index ⟨(i 1).val / 512, ht⟩ (1 : Fin 2) * 512 + 512
    rw [e31]; show (i 1).val / 512 * 512 ≤ (i 1).val ∧ (i 1).val < (i 1).val / 512 * 512 + 512; omega

/-- THE RESULT ARRAY after the kernel: `layer2` of the activation, the weight and the bias as the kernel found them. -/
theorem final1 (c : Dev nD) : (dat1 V c).arrAt 3 cfg1.N = layer2 (V c main_v107) (V c main_v108) (V c main_v109) :=
  (dat1 V c).arrAt_eq_of_cover 3 (layer2 (V c main_v107) (V c main_v108) (V c main_v109)) (fun t _ => flushed1 V c t) (cover1)

end Cert.KernelIdeal.Hand

end
-- ==== Proof.Region2.lean ====
/-
  The third (both output heads at once) dense-layer kernel, read as ONE function of the arrays it finds. The kernel runs over 1 grid
  point; at point t it takes the whole [128, 4096] activation, rows 105·t … 105·t + 104 of the [105, 4096] weight and columns
  105·t … 105·t + 104 of the [1, 105] bias, and writes columns 105·t … 105·t + 104 of the [128, 105] result. At the exact values the body's
  product with the weight block's transpose into a zero accumulator is a plain sum over the 4096 contracted
  coordinates, the bias row is added along every row. So entry (p, n) of what point ⌊n / 105⌋ writes is
  `layer3 x w b (p, n)` = ∑ₖ x (p, k) · w (n, k) + b (0, n), the write-backs' column blocks tile the result, and the result array ends holding
  `layer3 x w b` whole. Everything is stated at a parameter `V`: the buffers' contents when the kernel is entered.
-/
import proofs.«111165_j61984968016074_1_alg».proof.Proof.Gen.KernelIdeal.Frame
import proofs.«111165_j61984968016074_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense

variable (V : (c : Dev nD) → (b : Ref sig .tc) → Buf (Elt Ideal) ((c : Thread nD τ).loc b))

theorem hz2 : (![0, 0] : Fin 2 → Nat) = fun _ => 0 := funext fun a => by fin_cases a <;> rfl

/-- The layer as a function of whole arrays: entry (p, n) is the sum over the 4096 input features of the
    activation's row p times the weight's row n, plus the bias at n. -/
def layer3 (x : Vec Ideal S128x4096 .bf16) (w : Vec Ideal S105x4096 .bf16) (b : Vec Ideal S1x105 .f32) : Vec Ideal S128x105 .f32 :=
  fun i => (∑ k : Fin 4096, x (ix2 (i 0) k) * w (ix2 (i 1) k)) + b (ix2 (0 : Fin 1) (i 1))

/-- The body's stored value at entry (p, q) of its block, from the three loaded blocks. -/
theorem pay2_apply (X0 : Vec Ideal S128x4096 .bf16) (X1 : Vec Ideal S105x4096 .bf16) (X2 : Vec Ideal S1x105 .f32) (p : Fin 128) (q : Fin 105) :
    k2_pay1 X0 X1 X2 (ix2 p q) = (∑ k : Fin 4096, X0 (ix2 p k) * X1 (ix2 q k)) + X2 (ix2 (0 : Fin 1) q) := by
  unfold k2_pay1
  simp only [shapeCast_self]
  refine congrArg₂ (· + ·) ?_ ?_
  · exact matmul_rows_zero_apply dot_S128x4096_S105x4096_S128x105_1_1_0_0_n_n_wf none X0 X1 p q
  · exact rowBias_apply X2 broadcasts_S1x105_S128x105 p q

/-- Where the four windows' blocks sit at point `t`: the activation is taken whole; the weight's row block, the bias's
    column block and the result's column block are the `t`-th. -/
theorem idx2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

theorem lt2 (t : Fin cfg2.N) (q : Fin 105) : 105 * t.val + q.val < 105 := by
  have h1 := t.isLt; have h2 : cfg2.N = 1 := N_2; have h3 := q.isLt; omega

/-- The activation's block at any point is the whole activation. -/
theorem iblk2_0_apply (c : Dev nD) (t : Fin cfg2.N) (p : Fin 128) (k : Fin 4096) :
    (iblk2 V c 0 t : Vec Ideal S128x4096 .bf16) (ix2 p k) = (V c main_v110 : Vec Ideal S128x4096 .bf16) (ix2 p k) := by
  obtain ⟨e00, e01, -⟩ := idx2 t
  unfold iblk2
  rw [View.read_apply]
  show V c main_v110 _ = V c main_v110 _
  congr 1
  funext a
  apply Fin.ext
  match a with
  | ⟨0, _⟩ => show win2_0.index t (0 : Fin 2) * 128 + 1 * p.val = p.val; omega
  | ⟨1, _⟩ => show win2_0.index t (1 : Fin 2) * 4096 + 1 * k.val = k.val; omega

/-- The weight's block at point `t` is its rows 105·t … 105·t + 104. -/
theorem iblk2_1_apply (c : Dev nD) (t : Fin cfg2.N) (q : Fin 105) (k : Fin 4096) :
    (iblk2 V c 1 t : Vec Ideal S105x4096 .bf16) (ix2 q k) = (V c main_v114 : Vec Ideal S105x4096 .bf16) (ix2 ⟨105 * t.val + q.val, lt2 t q⟩ k) := by
  obtain ⟨-, -, e10, e11, -⟩ := idx2 t
  unfold iblk2
  rw [View.read_apply]
  show V c main_v114 _ = V c main_v114 _
  congr 1
  funext a
  apply Fin.ext
  match a with
  | ⟨0, _⟩ => show win2_1.index t (0 : Fin 2) * 105 + 1 * q.val = 105 * t.val + q.val; omega
  | ⟨1, _⟩ => show win2_1.index t (1 : Fin 2) * 4096 + 1 * k.val = k.val; omega

/-- The bias's block at point `t` is its columns 105·t … 105·t + 104. -/
theorem iblk2_2_apply (c : Dev nD) (t : Fin cfg2.N) (q : Fin 105) :
    (iblk2 V c 2 t : Vec Ideal S1x105 .f32) (ix2 (0 : Fin 1) q) = (V c main_v113 : Vec Ideal S1x105 .f32) (ix2 (0 : Fin 1) ⟨105 * t.val + q.val, lt2 t q⟩) := by
  obtain ⟨-, -, -, -, e20, e21, -⟩ := idx2 t
  unfold iblk2
  rw [View.read_apply]
  show V c main_v113 _ = V c main_v113 _
  congr 1
  funext a
  apply Fin.ext
  match a with
  | ⟨0, _⟩ => show win2_2.index t (0 : Fin 2) * 1 + 1 * 0 = 0; omega
  | ⟨1, _⟩ => show win2_2.index t (1 : Fin 2) * 105 + 1 * q.val = 105 * t.val + q.val; omega

/-- WHAT POINT `t` WRITES BACK is block `t` of `layer3` of the arrays as the kernel finds them. -/
theorem flushed2 (c : Dev nD) (t : Fin cfg2.N) :
    (dat2 V c).flushed 3 t = ((cfg2.win 3).blk t).view.read (Elt Ideal) (layer3 (V c main_v110) (V c main_v114) (V c main_v113)) := by
  show (cfg2.win 3).cut (grid2.coords t) ((dat2 V c).after 3 t) = _
  rw [after2_3]
  unfold out2_3
  rw [View.canon_unit_zero hz2]
  simp only [View.ld_unit_zero (S := S128x4096) hz2, View.ld_unit_zero (S := S105x4096) hz2, View.ld_unit_zero (S := S1x105) hz2]
  obtain ⟨-, -, -, -, -, -, e30, e31⟩ := idx2 t
  funext j
  obtain ⟨p, q, rfl⟩ : ∃ (p : Fin 128) (q : Fin 105), j = ix2 p q := ⟨j 0, j 1, eq_ix2 j⟩
  have he : ((cfg2.win 3).blk t).view.emb (ix2 p q) = (ix2 p ⟨105 * t.val + q.val, lt2 t q⟩ : S128x105.Idx) := by
    funext a; apply Fin.ext
    match a with
    | ⟨0, _⟩ => show win2_3.index t (0 : Fin 2) * 128 + 1 * p.val = p.val; omega
    | ⟨1, _⟩ => show win2_3.index t (1 : Fin 2) * 105 + 1 * q.val = 105 * t.val + q.val; omega
  show k2_pay1 (iblk2 V c 0 t) (iblk2 V c 1 t) (iblk2 V c 2 t) (ix2 p q)
    = layer3 (V c main_v110) (V c main_v114) (V c main_v113) (((cfg2.win 3).blk t).view.emb (ix2 p q))
  rw [he]
  refine (pay2_apply _ _ _ p q).trans ?_
  unfold layer3
  refine congrArg₂ (· + ·) (Finset.sum_congr rfl fun k _ => ?_) ?_
  · have h0 := iblk2_0_apply V c t p k
    have h1 := iblk2_1_apply V c t q k
    rw [h0, h1]
    try rfl
  · exact iblk2_2_apply V c t q

/-- An index of the result is in point `t`'s block iff each coordinate is in the block's range on its axis. -/
theorem mem_blk2 (t : Fin cfg2.N) (i : S128x105.Idx) :
    i ∈ ((cfg2.win 3).blk t).view.set ↔ ∀ a : Fin 2, win2_3.index t a * S128x105.size a ≤ (i a).val ∧ (i a).val < win2_3.index t a * S128x105.size a + S128x105.size a := by
  show i ∈ ((View.whole main_v115).slice (win2_3.rect t)).set ↔ _
  rw [View.set_slice_whole, Rect.mem_set_unit]
  exact Iff.rfl

/-- Every entry (p, n) of the result lies in the block point ⌊n / 105⌋ writes back. -/
theorem cover2 (i : S128x105.Idx) : ∃ t : Fin cfg2.N, (cfg2.win 3).flush t = true ∧ i ∈ ((cfg2.win 3).blk t).view.set := by
  have hi0 : (i 0).val < 128 := (i 0).isLt
  have hi1 : (i 1).val < 105 := (i 1).isLt
  have hN : cfg2.N = 1 := N_2
  have ht : (i 1).val / 105 < cfg2.N := by rw [hN]; omega
  obtain ⟨-, -, -, -, -, -, e30, e31⟩ := idx2 ⟨(i 1).val / 105, ht⟩
  refine ⟨⟨(i 1).val / 105, ht⟩, flush2_3 _, ?_⟩
  rw [mem_blk2]
  intro a
  match a with
  | ⟨0, _⟩ =>
    show win2_3.index ⟨(i 1).val / 105, ht⟩ (0 : Fin 2) * 128 ≤ (i 0).val ∧ (i 0).val < win2_3.index ⟨(i 1).val / 105, ht⟩ (0 : Fin 2) * 128 + 128
    rw [e30]; omega
  | ⟨1, _⟩ =>
    show win2_3.index ⟨(i 1).val / 105, ht⟩ (1 : Fin 2) * 105 ≤ (i 1).val ∧ (i 1).val < win2_3.index ⟨(i 1).val / 105, ht⟩ (1 : Fin 2) * 105 + 105
    rw [e31]; show (i 1).val / 105 * 105 ≤ (i 1).val ∧ (i 1).val < (i 1).val / 105 * 105 + 105; omega

/-- THE RESULT ARRAY after the kernel: `layer3` of the activation, the weight and the bias as the kernel found them. -/
theorem final2 (c : Dev nD) : (dat2 V c).arrAt 3 cfg2.N = layer3 (V c main_v110) (V c main_v114) (V c main_v113) :=
  (dat2 V c).arrAt_eq_of_cover 3 (layer3 (V c main_v110) (V c main_v114) (V c main_v113)) (fun t _ => flushed2 V c t) (cover2)

end Cert.KernelIdeal.Hand

end
-- ==== Proof.KChain.lean ====
/-
  The idealized kernel program's two results as ONE expression of the pooled features and the eight weight and bias
  arguments, by following the buffers back through the program's boundaries.

  After the pooling stage (boundary `W19`) the first kernel finds the pooled features, the first weight and the first
  bias row, each through a change of float format or a reshape, and leaves `layer1` of them; a format change of the
  second weight and a reshape of the second bias later (boundary `W21`), the second kernel leaves `layer2`; then the
  class and box weights are stacked into one [105, 4096] matrix and the two biases into one row of 105
  (boundary `W23`), the third kernel leaves `layer3`, and the results are its first 21 columns and its last 84
  columns regrouped as [128, 21, 4] (boundary `W25`). No operation and no kernel writes an argument, so each weight
  read at the boundary where it is used is the launch memory's.
-/
import proofs.«111165_j61984968016074_1_alg».proof.Proof.Region0
import proofs.«111165_j61984968016074_1_alg».proof.Proof.Region1
import proofs.«111165_j61984968016074_1_alg».proof.Proof.Region2
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The weights and biases, where they are used, are the launch memory's -/

theorem W18_main_arg2 (c : Dev nD) : W18 m ρ c (Proc.devRef .tc main_arg2) = m ((c : Thread nD τ).loc main_arg2) :=
  (calc W18 m ρ c (Proc.devRef .tc main_arg2)
    _ = W19 m ρ c (Proc.devRef .tc main_arg2) := (StableHlo.after_of_forall_not_mem _ _ (List.forall_iff_forall_mem.mp (by
      simp only [hostOps0_18, List.Forall, StableHlo.nullary_writes, StableHlo.unary_writes, StableHlo.binary_writes, StableHlo.reshape_writes, Finset.mem_singleton]
      repeat' apply And.intro
      all_goals exact StableHlo.devRef_ne_of_ne (by decide)))).symm
    _ = W20 m ρ c (Proc.devRef .tc main_arg2) := (W20_of_ne m ρ c main_arg2 (by decide)).symm
    _ = W21 m ρ c (Proc.devRef .tc main_arg2) := (StableHlo.after_of_forall_not_mem _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))).symm
    _ = W22 m ρ c (Proc.devRef .tc main_arg2) := (W22_of_ne m ρ c main_arg2 (by decide)).symm
    _ = W23 m ρ c (Proc.devRef .tc main_arg2) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg2) := (W24_of_ne m ρ c main_arg2 (by decide)).symm
    _ = W25 m ρ c (Proc.devRef .tc main_arg2) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg2) := W25_main_arg2 m ρ c)

theorem W18_main_arg3 (c : Dev nD) : W18 m ρ c (Proc.devRef .tc main_arg3) = m ((c : Thread nD τ).loc main_arg3) :=
  (calc W18 m ρ c (Proc.devRef .tc main_arg3)
    _ = W19 m ρ c (Proc.devRef .tc main_arg3) := (StableHlo.after_of_forall_not_mem _ _ (List.forall_iff_forall_mem.mp (by
      simp only [hostOps0_18, List.Forall, StableHlo.nullary_writes, StableHlo.unary_writes, StableHlo.binary_writes, StableHlo.reshape_writes, Finset.mem_singleton]
      repeat' apply And.intro
      all_goals exact StableHlo.devRef_ne_of_ne (by decide)))).symm
    _ = W20 m ρ c (Proc.devRef .tc main_arg3) := (W20_of_ne m ρ c main_arg3 (by decide)).symm
    _ = W21 m ρ c (Proc.devRef .tc main_arg3) := (StableHlo.after_of_forall_not_mem _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))).symm
    _ = W22 m ρ c (Proc.devRef .tc main_arg3) := (W22_of_ne m ρ c main_arg3 (by decide)).symm
    _ = W23 m ρ c (Proc.devRef .tc main_arg3) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg3) := (W24_of_ne m ρ c main_arg3 (by decide)).symm
    _ = W25 m ρ c (Proc.devRef .tc main_arg3) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg3) := W25_main_arg3 m ρ c)

theorem W20_main_arg4 (c : Dev nD) : W20 m ρ c (Proc.devRef .tc main_arg4) = m ((c : Thread nD τ).loc main_arg4) :=
  (calc W20 m ρ c (Proc.devRef .tc main_arg4)
    _ = W21 m ρ c (Proc.devRef .tc main_arg4) := (StableHlo.after_of_forall_not_mem _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))).symm
    _ = W22 m ρ c (Proc.devRef .tc main_arg4) := (W22_of_ne m ρ c main_arg4 (by decide)).symm
    _ = W23 m ρ c (Proc.devRef .tc main_arg4) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg4) := (W24_of_ne m ρ c main_arg4 (by decide)).symm
    _ = W25 m ρ c (Proc.devRef .tc main_arg4) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg4) := W25_main_arg4 m ρ c)

theorem W20_main_arg5 (c : Dev nD) : W20 m ρ c (Proc.devRef .tc main_arg5) = m ((c : Thread nD τ).loc main_arg5) :=
  (calc W20 m ρ c (Proc.devRef .tc main_arg5)
    _ = W21 m ρ c (Proc.devRef .tc main_arg5) := (StableHlo.after_of_forall_not_mem _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))).symm
    _ = W22 m ρ c (Proc.devRef .tc main_arg5) := (W22_of_ne m ρ c main_arg5 (by decide)).symm
    _ = W23 m ρ c (Proc.devRef .tc main_arg5) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg5) := (W24_of_ne m ρ c main_arg5 (by decide)).symm
    _ = W25 m ρ c (Proc.devRef .tc main_arg5) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg5) := W25_main_arg5 m ρ c)

theorem W22_main_arg6 (c : Dev nD) : W22 m ρ c (Proc.devRef .tc main_arg6) = m ((c : Thread nD τ).loc main_arg6) :=
  (calc W22 m ρ c (Proc.devRef .tc main_arg6)
    _ = W23 m ρ c (Proc.devRef .tc main_arg6) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg6) := (W24_of_ne m ρ c main_arg6 (by decide)).symm
    _ = W25 m ρ c (Proc.devRef .tc main_arg6) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg6) := W25_main_arg6 m ρ c)

theorem W22_main_arg7 (c : Dev nD) : W22 m ρ c (Proc.devRef .tc main_arg7) = m ((c : Thread nD τ).loc main_arg7) :=
  (calc W22 m ρ c (Proc.devRef .tc main_arg7)
    _ = W23 m ρ c (Proc.devRef .tc main_arg7) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg7) := (W24_of_ne m ρ c main_arg7 (by decide)).symm
    _ = W25 m ρ c (Proc.devRef .tc main_arg7) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg7) := W25_main_arg7 m ρ c)

theorem W22_main_arg8 (c : Dev nD) : W22 m ρ c (Proc.devRef .tc main_arg8) = m ((c : Thread nD τ).loc main_arg8) :=
  (calc W22 m ρ c (Proc.devRef .tc main_arg8)
    _ = W23 m ρ c (Proc.devRef .tc main_arg8) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg8) := (W24_of_ne m ρ c main_arg8 (by decide)).symm
    _ = W25 m ρ c (Proc.devRef .tc main_arg8) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg8) := W25_main_arg8 m ρ c)

theorem W22_main_arg9 (c : Dev nD) : W22 m ρ c (Proc.devRef .tc main_arg9) = m ((c : Thread nD τ).loc main_arg9) :=
  (calc W22 m ρ c (Proc.devRef .tc main_arg9)
    _ = W23 m ρ c (Proc.devRef .tc main_arg9) := (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).symm
    _ = W24 m ρ c (Proc.devRef .tc main_arg9) := (W24_of_ne m ρ c main_arg9 (by decide)).symm
    _ = W25 m ρ c (Proc.devRef .tc main_arg9) := (StableHlo.after_of_forall_not_mem _ _ (List.forall_iff_forall_mem.mp (by
      simp only [hostOps3, List.Forall, StableHlo.nullary_writes, StableHlo.unary_writes, StableHlo.binary_writes, StableHlo.reshape_writes, Finset.mem_singleton]
      repeat' apply And.intro
      all_goals exact StableHlo.devRef_ne_of_ne (by decide)))).symm
    _ = m ((c : Thread nD τ).loc main_arg9) := W25_main_arg9 m ρ c)

/-! ## Typed names -/

/-- The change of float format to bf16 at the exact values (the identity on every entry). -/
abbrev bf {s : Shape} (x : FVec Ideal s .f32) : FVec Ideal s .bf16 := truncf (F := Ideal) (s := s) (φ := .f32) .bf16 x bitsLt_bf16_f32

/-- The weights and biases of the launch memory, each at its shape. -/
abbrev arg2 (c : Dev nD) : FVec Ideal S4096x12544 .f32 := m ((c : Thread nD τ).loc main_arg2)
abbrev arg3 (c : Dev nD) : FVec Ideal S4096 .f32 := m ((c : Thread nD τ).loc main_arg3)
abbrev arg4 (c : Dev nD) : FVec Ideal S4096x4096 .f32 := m ((c : Thread nD τ).loc main_arg4)
abbrev arg5 (c : Dev nD) : FVec Ideal S4096 .f32 := m ((c : Thread nD τ).loc main_arg5)
abbrev arg6 (c : Dev nD) : FVec Ideal S21x4096 .f32 := m ((c : Thread nD τ).loc main_arg6)
abbrev arg7 (c : Dev nD) : FVec Ideal S21 .f32 := m ((c : Thread nD τ).loc main_arg7)
abbrev arg8 (c : Dev nD) : FVec Ideal S84x4096 .f32 := m ((c : Thread nD τ).loc main_arg8)
abbrev arg9 (c : Dev nD) : FVec Ideal S84 .f32 := m ((c : Thread nD τ).loc main_arg9)

/-! ## The pooled features -/

/-- The pooled features, [128, 12544], as the pooling stage leaves them (before the change of float format). -/
abbrev pooled (c : Dev nD) : FVec Ideal S128x12544 .f32 := W19 m ρ c (Proc.devRef .tc main_v103)

/-- What the first kernel finds: the pooled features and the first weight through a change of float format, the first
    bias as one row. -/
theorem W19_v104 (c : Dev nD) : W19 m ρ c (Proc.devRef .tc main_v104) = bf (pooled m ρ c) := by
  show StableHlo.after hostOps0_18 (W18 m ρ c) (Proc.devRef .tc main_v104) = bf (s := S128x12544) (StableHlo.after hostOps0_18 (W18 m ρ c) (Proc.devRef .tc main_v103))
  generalize W18 m ρ c = U
  dsimp only [hostOps0_18]
  after_results
  try rfl
theorem W19_v105 (c : Dev nD) : W19 m ρ c (Proc.devRef .tc main_v105) = bf (arg2 m c) := by
  show _ = bf (s := S4096x12544) (m ((c : Thread nD τ).loc main_arg2))
  rw [← W18_main_arg2 m ρ c]
  show StableHlo.after hostOps0_18 (W18 m ρ c) (Proc.devRef .tc main_v105) = _
  generalize W18 m ρ c = U
  dsimp only [hostOps0_18]
  after_results
  try rfl
theorem W19_v106 (c : Dev nD) : W19 m ρ c (Proc.devRef .tc main_v106) = shapeCast S1x4096 (arg3 m c) shapeCasts_S4096_S1x4096 := by
  show _ = shapeCast S1x4096 (m ((c : Thread nD τ).loc main_arg3) : FVec Ideal S4096 .f32) shapeCasts_S4096_S1x4096
  rw [← W18_main_arg3 m ρ c]
  show StableHlo.after hostOps0_18 (W18 m ρ c) (Proc.devRef .tc main_v106) = _
  generalize W18 m ρ c = U
  dsimp only [hostOps0_18]
  after_results
  try rfl

/-- The first hidden layer, [128, 4096]. -/
abbrev hidden1 (c : Dev nD) : Vec Ideal S128x4096 .bf16 :=
  layer1 (bf (pooled m ρ c))
    (bf (arg2 m c))
    (shapeCast S1x4096 (arg3 m c) shapeCasts_S4096_S1x4096)

theorem W20_v107 (c : Dev nD) : W20 m ρ c (Proc.devRef .tc main_v107) = hidden1 m ρ c := by
  have h := (W20_arr m ρ c 3).trans (final0 (V19 m ρ) c)
  rw [show V19 m ρ c main_v104 = W19 m ρ c (Proc.devRef .tc main_v104) from rfl, W19_v104,
    show V19 m ρ c main_v105 = W19 m ρ c (Proc.devRef .tc main_v105) from rfl, W19_v105,
    show V19 m ρ c main_v106 = W19 m ρ c (Proc.devRef .tc main_v106) from rfl, W19_v106] at h
  exact h

/-! ## The second layer -/

theorem W21_v107 (c : Dev nD) : W21 m ρ c (Proc.devRef .tc main_v107) = hidden1 m ρ c :=
  (StableHlo.after_of_forall_not_mem _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))).trans (W20_v107 m ρ c)
theorem W21_v108 (c : Dev nD) : W21 m ρ c (Proc.devRef .tc main_v108) = bf (arg4 m c) := by
  show _ = bf (s := S4096x4096) (m ((c : Thread nD τ).loc main_arg4))
  rw [← W20_main_arg4 m ρ c]
  show StableHlo.after hostOps1 (W20 m ρ c) (Proc.devRef .tc main_v108) = _
  generalize W20 m ρ c = U
  dsimp only [hostOps1]
  after_results
  try rfl
theorem W21_v109 (c : Dev nD) : W21 m ρ c (Proc.devRef .tc main_v109) = shapeCast S1x4096 (arg5 m c) shapeCasts_S4096_S1x4096 := by
  show _ = shapeCast S1x4096 (m ((c : Thread nD τ).loc main_arg5) : FVec Ideal S4096 .f32) shapeCasts_S4096_S1x4096
  rw [← W20_main_arg5 m ρ c]
  show StableHlo.after hostOps1 (W20 m ρ c) (Proc.devRef .tc main_v109) = _
  generalize W20 m ρ c = U
  dsimp only [hostOps1]
  after_results
  try rfl

/-- The second hidden layer, [128, 4096]. -/
abbrev hidden2 (c : Dev nD) : Vec Ideal S128x4096 .bf16 :=
  layer2 (hidden1 m ρ c)
    (bf (arg4 m c))
    (shapeCast S1x4096 (arg5 m c) shapeCasts_S4096_S1x4096)

theorem W22_v110 (c : Dev nD) : W22 m ρ c (Proc.devRef .tc main_v110) = hidden2 m ρ c := by
  have h := (W22_arr m ρ c 3).trans (final1 (V21 m ρ) c)
  rw [show V21 m ρ c main_v107 = W21 m ρ c (Proc.devRef .tc main_v107) from rfl, W21_v107,
    show V21 m ρ c main_v108 = W21 m ρ c (Proc.devRef .tc main_v108) from rfl, W21_v108,
    show V21 m ρ c main_v109 = W21 m ρ c (Proc.devRef .tc main_v109) from rfl, W21_v109] at h
  exact h

/-! ## The two heads as one layer -/

theorem W23_v110 (c : Dev nD) : W23 m ρ c (Proc.devRef .tc main_v110) = hidden2 m ρ c :=
  (StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))).trans (W22_v110 m ρ c)

/-- The class weight [21, 4096] stacked on the box weight [84, 4096]. -/
abbrev headsW (c : Dev nD) : Vec Ideal S105x4096 .bf16 :=
  bf (concatenate S105x4096 0 [⟨S21x4096, arg6 m c⟩, ⟨S84x4096, arg8 m c⟩] concatenates_S21x4096_S84x4096_S105x4096_d0)
/-- The class bias [21] followed by the box bias [84], as one row. -/
abbrev headsB (c : Dev nD) : Vec Ideal S1x105 .f32 :=
  shapeCast S1x105 (concatenate S105 0 [⟨S21, arg7 m c⟩, ⟨S84, arg9 m c⟩] concatenates_S21_S84_S105_d0) shapeCasts_S105_S1x105

theorem W23_v114 (c : Dev nD) : W23 m ρ c (Proc.devRef .tc main_v114) = headsW m c := by
  show _ = bf (concatenate S105x4096 0 [⟨S21x4096, (m ((c : Thread nD τ).loc main_arg6) : FVec Ideal S21x4096 .f32)⟩, ⟨S84x4096, (m ((c : Thread nD τ).loc main_arg8) : FVec Ideal S84x4096 .f32)⟩] concatenates_S21x4096_S84x4096_S105x4096_d0)
  rw [← W22_main_arg6 m ρ c, ← W22_main_arg8 m ρ c]
  show StableHlo.after hostOps2 (W22 m ρ c) (Proc.devRef .tc main_v114) = _
  generalize W22 m ρ c = U
  dsimp only [hostOps2]
  after_results
  try rfl
theorem W23_v113 (c : Dev nD) : W23 m ρ c (Proc.devRef .tc main_v113) = headsB m c := by
  show _ = shapeCast S1x105 (concatenate S105 0 [⟨S21, (m ((c : Thread nD τ).loc main_arg7) : FVec Ideal S21 .f32)⟩, ⟨S84, (m ((c : Thread nD τ).loc main_arg9) : FVec Ideal S84 .f32)⟩] concatenates_S21_S84_S105_d0) shapeCasts_S105_S1x105
  rw [← W22_main_arg7 m ρ c, ← W22_main_arg9 m ρ c]
  show StableHlo.after hostOps2 (W22 m ρ c) (Proc.devRef .tc main_v113) = _
  generalize W22 m ρ c = U
  dsimp only [hostOps2]
  after_results
  try rfl

/-- Both heads' values side by side, [128, 105]. -/
abbrev headsOut (c : Dev nD) : Vec Ideal S128x105 .f32 := layer3 (hidden2 m ρ c) (headsW m c) (headsB m c)

theorem W24_v115 (c : Dev nD) : W24 m ρ c (Proc.devRef .tc main_v115) = headsOut m ρ c := by
  have h := (W24_arr m ρ c 3).trans (final2 (V23 m ρ) c)
  rw [show V23 m ρ c main_v110 = W23 m ρ c (Proc.devRef .tc main_v110) from rfl, W23_v110,
    show V23 m ρ c main_v114 = W23 m ρ c (Proc.devRef .tc main_v114) from rfl, W23_v114,
    show V23 m ρ c main_v113 = W23 m ρ c (Proc.devRef .tc main_v113) from rfl, W23_v113] at h
  exact h

/-! ## The results -/

/-- The class scores are the first 21 columns. -/
theorem W25_v116 (c : Dev nD) : W25 m ρ c (Proc.devRef .tc main_v116)
    = extractStridedSlice S128x21 ![0, 0] (headsOut m ρ c) slices_S128x105_S128x21_0_0 := by
  rw [← W24_v115 m ρ c]
  show StableHlo.after hostOps3 (W24 m ρ c) (Proc.devRef .tc main_v116) = _
  generalize W24 m ρ c = U
  dsimp only [hostOps3]
  after_results
  try rfl
/-- The box deltas are the last 84 columns, regrouped four by four. -/
theorem W25_v118 (c : Dev nD) : W25 m ρ c (Proc.devRef .tc main_v118)
    = shapeCast S128x21x4 (extractStridedSlice S128x84 ![0, 21] (headsOut m ρ c) slices_S128x105_S128x84_0_21) shapeCasts_S128x84_S128x21x4 := by
  rw [← W24_v115 m ρ c]
  show StableHlo.after hostOps3 (W24 m ρ c) (Proc.devRef .tc main_v118) = _
  generalize W24 m ρ c = U
  dsimp only [hostOps3]
  after_results
  try rfl

end Cert.KernelIdeal.Hand

end
-- ==== Proof.HeadSpec.lean ====
/-
  The detection head as plain sums, entry by entry, over the extended reals. From the pooled features X [128, 12544]:
    h₁ (i, j) = max (∑ₖ X (i, k) · W₁ (j, k) + b₁ j) 0          (4096 hidden units)
    h₂ (i, j) = max (∑ₖ h₁ (i, k) · W₂ (j, k) + b₂ j) 0          (4096 hidden units)
    out (i, j) = ∑ₖ h₂ (i, k) · W (j, k) + b j                   (one output head with n outputs)
  Every weight is used row by row (a product with its transpose). The zero is kept as the float word it is printed
  as. This module imports no program: both programs' results are read to these functions.
-/
import Idealize.ShloMosaic.Lib.ValueIdx
import Idealize.ShloMosaic.PureOps.Ideal

noncomputable section

namespace Cert.Head

open Idealize.ShloMosaic Idealize.ShloMosaic.ValueIdx

/-- The float zero, as printed. -/
abbrev zero : EReal := Ideal.ofBits .f32 0x00000000#32

/-- First hidden layer at (i, j). -/
def h1 (X : (⟨2, ![128, 12544]⟩ : Shape).Idx → EReal) (W1 : (⟨2, ![4096, 12544]⟩ : Shape).Idx → EReal)
    (b1 : (⟨1, ![4096]⟩ : Shape).Idx → EReal) (i : Fin 128) (j : Fin 4096) : EReal :=
  max ((∑ k : Fin 12544, X (ix2 i k) * W1 (ix2 j k)) + b1 (ix1 j)) zero

/-- Second hidden layer at (i, j), from the first as a function of its two coordinates. -/
def h2 (H1 : Fin 128 → Fin 4096 → EReal) (W2 : (⟨2, ![4096, 4096]⟩ : Shape).Idx → EReal)
    (b2 : (⟨1, ![4096]⟩ : Shape).Idx → EReal) (i : Fin 128) (j : Fin 4096) : EReal :=
  max ((∑ k : Fin 4096, H1 i k * W2 (ix2 j k)) + b2 (ix1 j)) zero

/-- An output head with `n` outputs at (i, j). -/
def out {n : Nat} (H2 : Fin 128 → Fin 4096 → EReal) (W : (⟨2, ![n, 4096]⟩ : Shape).Idx → EReal)
    (b : (⟨1, ![n]⟩ : Shape).Idx → EReal) (i : Fin 128) (j : Fin n) : EReal :=
  (∑ k : Fin 4096, H2 i k * W (ix2 j k)) + b (ix1 j)

/-- The class scores [128, 21] of the whole head. -/
def label (X : (⟨2, ![128, 12544]⟩ : Shape).Idx → EReal) (W1 : (⟨2, ![4096, 12544]⟩ : Shape).Idx → EReal)
    (b1 : (⟨1, ![4096]⟩ : Shape).Idx → EReal) (W2 : (⟨2, ![4096, 4096]⟩ : Shape).Idx → EReal) (b2 : (⟨1, ![4096]⟩ : Shape).Idx → EReal)
    (Wc : (⟨2, ![21, 4096]⟩ : Shape).Idx → EReal) (bc : (⟨1, ![21]⟩ : Shape).Idx → EReal) :
    (⟨2, ![128, 21]⟩ : Shape).Idx → EReal :=
  fun i => out (h2 (h1 X W1 b1) W2 b2) Wc bc (i 0) (i 1)

/-- The box deltas [128, 21, 4] of the whole head: output 4·a + d of the 84-output head at (·, a, d). -/
def deltas (X : (⟨2, ![128, 12544]⟩ : Shape).Idx → EReal) (W1 : (⟨2, ![4096, 12544]⟩ : Shape).Idx → EReal)
    (b1 : (⟨1, ![4096]⟩ : Shape).Idx → EReal) (W2 : (⟨2, ![4096, 4096]⟩ : Shape).Idx → EReal) (b2 : (⟨1, ![4096]⟩ : Shape).Idx → EReal)
    (Wr : (⟨2, ![84, 4096]⟩ : Shape).Idx → EReal) (br : (⟨1, ![84]⟩ : Shape).Idx → EReal) :
    (⟨3, ![128, 21, 4]⟩ : Shape).Idx → EReal :=
  fun i => out (h2 (h1 X W1 b1) W2 b2) Wr br (i 0)
    ⟨4 * (i 1).val + (i 2).val, by have h1 := (i 1).isLt; have h2 := (i 2).isLt; simp at h1 h2; omega⟩

end Cert.Head

end
-- ==== Proof.KRead.lean ====
/-
  The idealized kernel program's two results, read entry by entry, are the detection head's plain sums.

  A change of float format is the identity on exact values, and a bias vector reshaped to one row reads at (0, j) as
  the vector at j; so each kernel's layer function at an entry is the head's layer at that entry. The third kernel
  computes both output heads at once over the class weight stacked on the box weight: its column j < 21 reads the
  class weight's row j and the class bias's entry j, and its column 21 + e reads the box weight's row e and the box
  bias's entry e. The class scores are columns 0 … 20; the box delta (i, a, d) is column 21 + 4·a + d, because the
  regrouping of 84 columns four by four is row-major.
-/
import proofs.«111165_j61984968016074_1_alg».proof.Proof.KChain
import proofs.«111165_j61984968016074_1_alg».proof.Proof.HeadSpec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

/-- A vector of n entries reshaped to one row, read at (0, j), is the vector at j. -/
theorem row_apply {α : Type} {n : Nat} (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The first kernel's layer at (i, j) is the head's first hidden layer. -/
theorem layer1_apply (X : FVec Ideal S128x12544 .f32) (w : FVec Ideal S4096x12544 .f32) (b : FVec Ideal S4096 .f32) (i : Fin 128) (j : Fin 4096) :
    layer1 (bf X) (bf w) (shapeCast S1x4096 b shapeCasts_S4096_S1x4096) (ix2 i j)
      = Cert.Head.h1 X w b i j := by
  unfold layer1 Cert.Head.h1
  refine congrArg₂ max (congrArg₂ (· + ·) rfl ?_) rfl
  exact row_apply b _ j

/-- The second kernel's layer at (i, j) is the head's second hidden layer of the first as a function of its coordinates. -/
theorem layer2_apply (H : Vec Ideal S128x4096 .bf16) (w : FVec Ideal S4096x4096 .f32) (b : FVec Ideal S4096 .f32) (i : Fin 128) (j : Fin 4096) :
    layer2 H (bf w) (shapeCast S1x4096 b shapeCasts_S4096_S1x4096) (ix2 i j)
      = Cert.Head.h2 (fun a k => H (ix2 a k)) w b i j := by
  unfold layer2 Cert.Head.h2
  refine congrArg₂ max (congrArg₂ (· + ·) rfl ?_) rfl
  exact row_apply b _ j

section Heads
variable (H : Vec Ideal S128x4096 .bf16) (wc : FVec Ideal S21x4096 .f32) (wr : FVec Ideal S84x4096 .f32) (bc : FVec Ideal S21 .f32) (br : FVec Ideal S84 .f32)

/-- Column j < 21 of the stacked heads is the class head's output j. -/
theorem layer3_class_apply (i : Fin 128) (j : Fin 21) :
    layer3 H (bf (concatenate S105x4096 0 [⟨S21x4096, wc⟩, ⟨S84x4096, wr⟩] concatenates_S21x4096_S84x4096_S105x4096_d0))
        (shapeCast S1x105 (concatenate S105 0 [⟨S21, bc⟩, ⟨S84, br⟩] concatenates_S21_S84_S105_d0) shapeCasts_S105_S1x105)
        (ix2 i (⟨j.val, by have := j.isLt; omega⟩ : Fin 105))
      = Cert.Head.out (fun a k => H (ix2 a k)) wc bc i j := by
  unfold layer3 Cert.Head.out
  refine congrArg₂ (· + ·) (Finset.sum_congr rfl fun k _ => congrArg (H (ix2 i k) * ·) ?_) ?_
  · exact concatenate_pair_apply_left (0 : Fin 2) wc wr concatenates_S21x4096_S84x4096_S105x4096_d0
      (ix2 (⟨j.val, by have := j.isLt; omega⟩ : Fin 105) k) rfl (ix2 j k) (fun b => match b with | ⟨0, _⟩ => rfl | ⟨1, _⟩ => rfl)
  · refine (row_apply _ _ (⟨j.val, by have := j.isLt; omega⟩ : Fin 105)).trans ?_
    exact concatenate_pair_apply_left (0 : Fin 1) bc br concatenates_S21_S84_S105_d0
      (ix1 (⟨j.val, by have := j.isLt; omega⟩ : Fin 105)) rfl (ix1 j) (fun b => match b with | ⟨0, _⟩ => rfl)

/-- Column 21 + e of the stacked heads is the box head's output e. -/
theorem layer3_box_apply (i : Fin 128) (e : Fin 84) :
    layer3 H (bf (concatenate S105x4096 0 [⟨S21x4096, wc⟩, ⟨S84x4096, wr⟩] concatenates_S21x4096_S84x4096_S105x4096_d0))
        (shapeCast S1x105 (concatenate S105 0 [⟨S21, bc⟩, ⟨S84, br⟩] concatenates_S21_S84_S105_d0) shapeCasts_S105_S1x105)
        (ix2 i (⟨21 + e.val, by have := e.isLt; omega⟩ : Fin 105))
      = Cert.Head.out (fun a k => H (ix2 a k)) wr br i e := by
  unfold layer3 Cert.Head.out
  refine congrArg₂ (· + ·) (Finset.sum_congr rfl fun k _ => congrArg (H (ix2 i k) * ·) ?_) ?_
  · exact concatenate_pair_apply_right (0 : Fin 2) wc wr concatenates_S21x4096_S84x4096_S105x4096_d0
      (ix2 (⟨21 + e.val, by have := e.isLt; omega⟩ : Fin 105) k) rfl rfl (ix2 e k)
      (fun b hb => match b, hb with | ⟨0, _⟩, hb => absurd rfl hb | ⟨1, _⟩, _ => rfl)
      (by show e.val + 21 = 21 + e.val; omega)
  · refine (row_apply _ _ (⟨21 + e.val, by have := e.isLt; omega⟩ : Fin 105)).trans ?_
    exact concatenate_pair_apply_right (0 : Fin 1) bc br concatenates_S21_S84_S105_d0
      (ix1 (⟨21 + e.val, by have := e.isLt; omega⟩ : Fin 105)) rfl rfl (ix1 e)
      (fun b hb => match b, hb with | ⟨0, _⟩, hb => absurd rfl hb)
      (by show e.val + 21 = 21 + e.val; omega)

end Heads

/-- The first 21 columns of a [128, 105] array, at (i, j). -/
theorem slice_class_apply (O : Vec Ideal S128x105 .f32) (i : Fin 128) (j : Fin 21) :
    extractStridedSlice S128x21 ![0, 0] O slices_S128x105_S128x21_0_0 (ix2 i j) = O (ix2 i (⟨j.val, by have := j.isLt; omega⟩ : Fin 105)) :=
  extractStridedSlice_apply ![0, 0] O slices_S128x105_S128x21_0_0 (ix2 i j) (ix2 i (⟨j.val, by have := j.isLt; omega⟩ : Fin 105))
    (fun a => match a with
      | ⟨0, _⟩ => by show i.val = 0 + i.val; omega
      | ⟨1, _⟩ => by show j.val = 0 + j.val; omega)

/-- The last 84 columns of a [128, 105] array regrouped four by four, at (i, a, d): column 21 + 4·a + d. -/
theorem slice_box_apply (O : Vec Ideal S128x105 .f32) (i : Fin 128) (a : Fin 21) (d : Fin 4) :
    shapeCast S128x21x4 (extractStridedSlice S128x84 ![0, 21] O slices_S128x105_S128x84_0_21) shapeCasts_S128x84_S128x21x4 (ix3 i a d)
      = O (ix2 i (⟨21 + (4 * a.val + d.val), by have := a.isLt; have := d.isLt; omega⟩ : Fin 105)) := by
  have ha := a.isLt
  have hd := d.isLt
  refine (shapeCast_apply _ shapeCasts_S128x84_S128x21x4 (ix3 i a d) (ix2 i (⟨4 * a.val + d.val, by omega⟩ : Fin 84)) (by
    rw [Shape.rowMajor_val_two, Shape.rowMajor_val_three]
    show i.val * 84 + (4 * a.val + d.val) = (i.val * 21 + a.val) * 4 + d.val
    omega)).trans ?_
  exact extractStridedSlice_apply ![0, 21] O slices_S128x105_S128x84_0_21 (ix2 i (⟨4 * a.val + d.val, by omega⟩ : Fin 84))
    (ix2 i (⟨21 + (4 * a.val + d.val), by omega⟩ : Fin 105))
    (fun ax => match ax with
      | ⟨0, _⟩ => by show i.val = 0 + i.val; omega
      | ⟨1, _⟩ => by show 21 + (4 * a.val + d.val) = 21 + (4 * a.val + d.val); rfl)

variable (m : (ℓ : Loc nD τ sig) → Buf (Elt Ideal) ℓ) (ρ : Dev nD → PrngReg)

/-- The first hidden layer the kernels compute is the head's, as a function of its two coordinates. -/
theorem hidden1_eq (c : Dev nD) : (fun a k => hidden1 m ρ c (ix2 a k))
    = Cert.Head.h1 (pooled m ρ c) (m ((c : Thread nD τ).loc main_arg2)) (m ((c : Thread nD τ).loc main_arg3)) :=
  funext fun a => funext fun k => layer1_apply _ _ _ a k

/-- The second hidden layer the kernels compute is the head's. -/
theorem hidden2_eq (c : Dev nD) : (fun a k => hidden2 m ρ c (ix2 a k))
    = Cert.Head.h2 (Cert.Head.h1 (pooled m ρ c) (m ((c : Thread nD τ).loc main_arg2)) (m ((c : Thread nD τ).loc main_arg3)))
        (m ((c : Thread nD τ).loc main_arg4)) (m ((c : Thread nD τ).loc main_arg5)) :=
  funext fun a => funext fun k => (layer2_apply _ _ _ a k).trans (by rw [hidden1_eq])

/-- THE CLASS SCORES the kernel program ends with are the head's, of the pooled features and the launch memory's weights. -/
theorem kernel_label (c : Dev nD) : W25 m ρ c (Proc.devRef .tc main_v116)
    = Cert.Head.label (pooled m ρ c) (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  rw [W25_v116]
  funext idx
  obtain ⟨i, j, rfl⟩ : ∃ (i : Fin 128) (j : Fin 21), idx = ix2 i j := ⟨idx 0, idx 1, eq_ix2 idx⟩
  refine (slice_class_apply _ i j).trans ?_
  refine (layer3_class_apply _ _ _ _ _ i j).trans ?_
  unfold Cert.Head.label
  rw [hidden2_eq]

/-- THE BOX DELTAS the kernel program ends with are the head's. -/
theorem kernel_deltas (c : Dev nD) : W25 m ρ c (Proc.devRef .tc main_v118)
    = Cert.Head.deltas (pooled m ρ c) (m ((c : Thread nD τ).loc main_arg2)) (m ((c : Thread nD τ).loc main_arg3))
        (m ((c : Thread nD τ).loc main_arg4)) (m ((c : Thread nD τ).loc main_arg5))
        (m ((c : Thread nD τ).loc main_arg8)) (m ((c : Thread nD τ).loc main_arg9)) := by
  rw [W25_v118]
  funext idx
  obtain ⟨i, a, d, rfl⟩ : ∃ (i : Fin 128) (a : Fin 21) (d : Fin 4), idx = ix3 i a d := ⟨idx 0, idx 1, idx 2, eq_ix3 idx⟩
  refine (slice_box_apply _ i a d).trans ?_
  refine (layer3_box_apply _ _ _ _ _ i (⟨4 * a.val + d.val, by have := a.isLt; have := d.isLt; omega⟩ : Fin 84)).trans ?_
  unfold Cert.Head.deltas
  rw [hidden2_eq]

end Cert.KernelIdeal.Hand

end
-- ==== Proof.RefOps.lean ====
/-
  The reference program's host operations, in program order, listed stretch by stretch: a new stretch starts at every
  call of an outlined function (its body's operations over that call's buffers form one stretch) and at every window
  boundary of the printed text. The stretches `w0_*`, `w1_*`, `w2_0 … w2_2` compute the pooled features
  (the box coordinates divided by 16 and truncated, the seven row bins and seven column bins of each box with their
  validity masks, the row gather and masked maximum, the column gather and masked maximum, and the reshape to
  [128, 12544]); `fc1`, `relu1`, `fc2`, `relu2`, `heads` are the three dense layers: a product with the transposed
  weight, the bias broadcast over the rows, a maximum with zero after the first two, and the two output heads
  (21 class scores; 84 box deltas reshaped to [128, 21, 4]).
  Each list comes with the fact that its operations touch TensorCore references only.
-/
import proofs.«111165_j61984968016074_1_alg».proof.ReferenceIdeal
import proofs.«111165_j61984968016074_1_alg».proof.Proof.Gen.ReferenceIdeal
import Idealize.ShloMosaic.Lib.StableHlo.Run
import Idealize.ShloMosaic.Lib.Pipeline.Regions

set_option maxRecDepth 1584

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

/-- 35 operations of the pooling stage, in order. -/
abbrev w0_0 : List (HloOp τ sig (Elt F)) :=
  ( StableHlo.reshape main_arg0 main_v0 rfl shapeCasts_S1x256x50x50_S256x50x50
  :: StableHlo.nullary main_cst (constant S_ .f32 0x41800000#32)
  :: StableHlo.unary main_cst main_v1 (broadcastInDim S128x4 ![] bcast_S_S128x4 : (⟨S_, .f32⟩ : BufTy).Contents (Elt F) → (⟨S128x4, .f32⟩ : BufTy).Contents (Elt F))
  :: StableHlo.binary main_arg1 main_v1 main_v2 (Host.divf : (⟨S128x4, .f32⟩ : BufTy).Contents (Elt F) → (⟨S128x4, .f32⟩ : BufTy).Contents (Elt F) → (⟨S128x4, .f32⟩ : BufTy).Contents (Elt F))
  :: StableHlo.unary main_v2 main_v3 (fptosi 32 : (⟨S128x4, .f32⟩ : BufTy).Contents (Elt F) → (⟨S128x4, .i32⟩ : BufTy).Contents (Elt F))
  :: StableHlo.unary main_v3 main_v4 ((extractStridedSlice S128x1 ![0, 0] · slices_S128x4_S128x1_0_0) : (⟨S128x4, .i32⟩ : BufTy).Contents (Elt F) → (⟨S128x1, .i32⟩ : BufTy).Contents (Elt F))
  :: StableHlo.reshape main_v4 main_v5 rfl shapeCasts_S128x1_S128
  :: StableHlo.unary main_v3 main_v6 ((extractStridedSlice S128x1 ![0, 1] · slices_S128x4_S128x1_0_1) : (⟨S128x4, .i32⟩ : BufTy).Contents (Elt F) → (⟨S128x1, .i32⟩ : BufTy).Contents (Elt F))
  :: StableHlo.reshape main_v6 main_v7 rfl shapeCasts_S128x1_S128
  :: StableHlo.unary main_v3 main_v8 ((extractStridedSlice S128x1 ![0, 2] · slices_S128x4_S128x1_0_2) : (⟨S128x4, .i32⟩ : BufTy).Contents (Elt F) → (⟨S128x1, .i32⟩ : BufTy).Contents (Elt F))
  :: StableHlo.reshape main_v8 main_v9 rfl shapeCasts_S128x1_S128
  :: StableHlo.unary main_v3 main_v10 ((extractStridedSlice S128x1 ![0, 3] · slices_S128x4_S128x1_0_3) : (⟨S128x4, .i32⟩ : BufTy).Contents (Elt F) → (⟨S128x1, .i32⟩ : BufTy).Contents (Elt F))
  :: StableHlo.reshape main_v10 main_v11 rfl shapeCasts_S128x1_S128
  :: StableHlo.binary main_v11 main_v7 main_v12 (subi : (⟨S128, .i32⟩ : BufTy).Contents (Elt F) → (⟨S128, .i32⟩ : BufTy).Contents (Elt F) → (⟨S128, .i32⟩ : BufTy).Contents (Elt F))
  :: StableHlo.nullary main_c (constantI S_ 32 1#32)
  :: StableHlo.unary main_c main_v13 (broadcastInDim S128 ![] bcast_S_S128 : (⟨S_, .i32⟩ : BufTy).Contents (Elt F) → (⟨S128, .i32⟩ : BufTy).Contents (Elt F))
  :: StableHlo.binary main_v12 main_v13 main_v14 (addi : (⟨S128, .i32⟩ : BufTy).Contents (Elt F) → (⟨S128, .i32⟩ : BufTy).Contents (Elt F) → (⟨S128, .i32⟩ : BufTy).Contents (Elt F))
  :: StableHlo.nullary main_c_0 (constantI S_ 32 1#32)
  :: StableHlo.unary main_c_0 main_v15 (broadcastInDim S128 ![] bcast_S_S128 : (⟨S_, .i32⟩ : BufTy).Contents (Elt F) → (⟨S128, .i32⟩ : BufTy).Contents (Elt F))
  :: StableHlo.binary main_v14 main_v15 main_v16 (maxsi : (⟨S128, .i32⟩ : BufTy).Contents (Elt F) → (⟨S128, .i32⟩ : BufTy).Contents (Elt F) → (⟨S128, .i32⟩ : BufTy).Contents (Elt F))
  :: StableHlo.binary main_v9 main_v5 main_v17 (subi : (⟨S128, .i32⟩ : BufTy).Contents (Elt F) → (⟨S128, .i32⟩ : BufTy).Contents (Elt F) → (⟨S128, .i32⟩ : BufTy).Contents (Elt F))
  :: StableHlo.nullary main_c_1 (constantI S_ 32 1#32)
  :: StableHlo.unary main_c_1 main_v18 (broadcastInDim S128 ![] bcast_S_S128 : (⟨S_, .i32⟩ : BufTy).Contents (Elt F) → (⟨S128, .i32⟩ : BufTy).Contents (Elt F))
  :: StableHlo.binary main_v17 main_v18 main_v19 (addi : (⟨S128, .i32⟩ : BufTy).Contents (Elt F) → (⟨S128, .i32⟩ : BufTy).Contents (Elt F) → (⟨S128, .i32⟩ : BufTy).Contents (Elt F))
  :: StableHlo.nullary main_c_2 (constantI S_ 32 1#32)
  :: StableHlo.unary main_c_2 main_v20 (broadcastInDim S128 ![] bcast_S_S128 : (⟨S_, .i32⟩ : BufTy).Contents (Elt F) → (⟨S128, .i32⟩ : BufTy).Contents (Elt F))
  :: StableHlo.binary main_v19 main_v20 main_v21 (maxsi : (⟨S128, .i32⟩ : BufTy).Contents (Elt F) → (⟨S128, .i32⟩ : BufTy).Contents (Elt F) → (⟨S128, .i32⟩ : BufTy).Contents (Elt F))
  :: StableHlo.nullary main_v22 (iotaInDim S7 32 0)
  :: StableHlo.unary main_v7 main_v23 (broadcastInDim S128x1 ![0] bcast_S128_S128x1_0 : (⟨S128, .i32⟩ : BufTy).Contents (Elt F) → (⟨S128x1, .i32⟩ : BufTy).Contents (Elt F))
  :: StableHlo.unary main_v22 main_v24 (broadcastInDim S1x7 ![1] bcast_S7_S1x7_1 : (⟨S7, .i32⟩ : BufTy).Contents (Elt F) → (⟨S1x7, .i32⟩ : BufTy).Contents (Elt F))
  :: StableHlo.unary main_v16 main_v25 (broadcastInDim S128x1 ![0] bcast_S128_S128x1_0 : (⟨S128, .i32⟩ : BufTy).Contents (Elt F) → (⟨S128x1, .i32⟩ : BufTy).Contents (Elt F))
  :: StableHlo.unary main_v24 main_v26 (broadcastInDim S128x7 ![0, 1] bcast_S1x7_S128x7_0_1 : (⟨S1x7, .i32⟩ : BufTy).Contents (Elt F) → (⟨S128x7, .i32⟩ : BufTy).Contents (Elt F))
  :: StableHlo.unary main_v25 main_v27 (broadcastInDim S128x7 ![0, 1] bcast_S128x1_S128x7_0_1 : (⟨S128x1, .i32⟩ : BufTy).Contents (Elt F) → (⟨S128x7, .i32⟩ : BufTy).Contents (Elt F))
  :: StableHlo.binary main_v26 main_v27 main_v28 (muli : (⟨S128x7, .i32⟩ : BufTy).Contents (Elt F) → (⟨S128x7, .i32⟩ : BufTy).Contents (Elt F) → (⟨S128x7, .i32⟩ : BufTy).Contents (Elt F))
  :: StableHlo.nullary main_c_3 (constantI S_ 32 7#32)
  :: [] )
theorem w0_0_sub : (w0_0 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub ..⟩

/-- 57 operations of the pooling stage, in order. -/
abbrev w0_1 : List (HloOp τ sig (Elt F)) :=
  [ StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S128x7, .i32⟩) (broadcastInDim S128x7 ![] bcast_S_S128x7),
    StableHlo.TRef.binary (.of main_v28 : StableHlo.TRef sig ⟨S128x7, .i32⟩) (.of main_call0_v1 : StableHlo.TRef sig ⟨S128x7, .i32⟩) (.of main_call0_v2 : StableHlo.TRef sig ⟨S128x7, .i32⟩) Host.divsi,
    StableHlo.TRef.unary (.of main_v28 : StableHlo.TRef sig ⟨S128x7, .i32⟩) (.of main_call0_v3 : StableHlo.TRef sig ⟨S128x7, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S128x7, .i32⟩) (broadcastInDim S128x7 ![] bcast_S_S128x7),
    StableHlo.TRef.binary (.of main_call0_v3 : StableHlo.TRef sig ⟨S128x7, .i32⟩) (.of main_call0_v5 : StableHlo.TRef sig ⟨S128x7, .i32⟩) (.of main_call0_v6 : StableHlo.TRef sig ⟨S128x7, .i1⟩) (cmpi .ne),
    StableHlo.TRef.unary (.of main_call0_v0 : StableHlo.TRef sig ⟨S_, .i32⟩) (.of main_call0_v7 : StableHlo.TRef sig ⟨S128x7, .i32⟩) (broadcastInDim S128x7 ![] bcast_S_S128x7),
    StableHlo.TRef.binary (.of main_v28 : StableHlo.TRef sig ⟨S128x7, .i32⟩) (.of main_call0_v7 : StableHlo.TRef sig ⟨S128x7, .i32⟩) (.of main_call0_v8 : StableHlo.TRef sig ⟨S128x7, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S128x7, .i32⟩) (broadcastInDim S128x7 ![] bcast_S_S128x7),
    StableHlo.TRef.binary (.of main_call0_v8 : StableHlo.TRef sig ⟨S128x7, .i32⟩) (.of main_call0_v9 : StableHlo.TRef sig ⟨S128x7, .i32⟩) (.of main_call0_v10 : StableHlo.TRef sig ⟨S128x7, .i1⟩) (cmpi .ne),
    StableHlo.TRef.binary (.of main_call0_v6 : StableHlo.TRef sig ⟨S128x7, .i1⟩) (.of main_call0_v10 : StableHlo.TRef sig ⟨S128x7, .i1⟩) (.of main_call0_v11 : StableHlo.TRef sig ⟨S128x7, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S128x7, .i32⟩) (broadcastInDim S128x7 ![] bcast_S_S128x7),
    StableHlo.TRef.binary (.of main_call0_v2 : StableHlo.TRef sig ⟨S128x7, .i32⟩) (.of main_call0_v12 : StableHlo.TRef sig ⟨S128x7, .i32⟩) (.of main_call0_v13 : StableHlo.TRef sig ⟨S128x7, .i32⟩) subi,
    StableHlo.TRef.ternary (.of main_call0_v11 : StableHlo.TRef sig ⟨S128x7, .i1⟩) (.of main_call0_v13 : StableHlo.TRef sig ⟨S128x7, .i32⟩) (.of main_call0_v2 : StableHlo.TRef sig ⟨S128x7, .i32⟩) (.of main_v29 : StableHlo.TRef sig ⟨S128x7, .i32⟩) select ]
theorem w0_1_sub : (w0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 13 operations of the pooling stage, in order. -/
abbrev w0_2 : List (HloOp τ sig (Elt F)) :=
  [ StableHlo.unary main_v23 main_v30 (broadcastInDim S128x7 ![0, 1] bcast_S128x1_S128x7_0_1 : (⟨S128x1, .i32⟩ : BufTy).Contents (Elt F) → (⟨S128x7, .i32⟩ : BufTy).Contents (Elt F)),
    StableHlo.binary main_v30 main_v29 main_v31 (addi : (⟨S128x7, .i32⟩ : BufTy).Contents (Elt F) → (⟨S128x7, .i32⟩ : BufTy).Contents (Elt F) → (⟨S128x7, .i32⟩ : BufTy).Contents (Elt F)),
    StableHlo.unary main_v7 main_v32 (broadcastInDim S128x1 ![0] bcast_S128_S128x1_0 : (⟨S128, .i32⟩ : BufTy).Contents (Elt F) → (⟨S128x1, .i32⟩ : BufTy).Contents (Elt F)),
    StableHlo.unary main_v22 main_v33 (broadcastInDim S1x7 ![1] bcast_S7_S1x7_1 : (⟨S7, .i32⟩ : BufTy).Contents (Elt F) → (⟨S1x7, .i32⟩ : BufTy).Contents (Elt F)),
    StableHlo.nullary main_c_4 (constantI S_ 32 1#32),
    StableHlo.unary main_c_4 main_v34 (broadcastInDim S1x7 ![] bcast_S_S1x7 : (⟨S_, .i32⟩ : BufTy).Contents (Elt F) → (⟨S1x7, .i32⟩ : BufTy).Contents (Elt F)),
    StableHlo.binary main_v33 main_v34 main_v35 (addi : (⟨S1x7, .i32⟩ : BufTy).Contents (Elt F) → (⟨S1x7, .i32⟩ : BufTy).Contents (Elt F) → (⟨S1x7, .i32⟩ : BufTy).Contents (Elt F)),
    StableHlo.unary main_v35 main_v36 (negi : (⟨S1x7, .i32⟩ : BufTy).Contents (Elt F) → (⟨S1x7, .i32⟩ : BufTy).Contents (Elt F)),
    StableHlo.unary main_v16 main_v37 (broadcastInDim S128x1 ![0] bcast_S128_S128x1_0 : (⟨S128, .i32⟩ : BufTy).Contents (Elt F) → (⟨S128x1, .i32⟩ : BufTy).Contents (Elt F)),
    StableHlo.unary main_v36 main_v38 (broadcastInDim S128x7 ![0, 1] bcast_S1x7_S128x7_0_1 : (⟨S1x7, .i32⟩ : BufTy).Contents (Elt F) → (⟨S128x7, .i32⟩ : BufTy).Contents (Elt F)),
    StableHlo.unary main_v37 main_v39 (broadcastInDim S128x7 ![0, 1] bcast_S128x1_S128x7_0_1 : (⟨S128x1, .i32⟩ : BufTy).Contents (Elt F) → (⟨S128x7, .i32⟩ : BufTy).Contents (Elt F)),
    StableHlo.binary main_v38 main_v39 main_v40 (muli : (⟨S128x7, .i32⟩ : BufTy).Contents (Elt F) → (⟨S128x7, .i32⟩ : BufTy).Contents (Elt F) → (⟨S128x7, .i32⟩ : BufTy).Contents (Elt F)),
    StableHlo.nullary main_c_5 (constantI S_ 32 7#32) ]
theorem w0_2_sub : (w0_2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub ..⟩

/-- 57 operations of the pooling stage, in order. -/
abbrev w0_3 : List (HloOp τ sig (Elt F)) :=
  [ StableHlo.TRef.unary (.of main_c_5 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S128x7, .i32⟩) (broadcastInDim S128x7 ![] bcast_S_S128x7),
    StableHlo.TRef.binary (.of main_v40 : StableHlo.TRef sig ⟨S128x7, .i32⟩) (.of main_call1_v1 : StableHlo.TRef sig ⟨S128x7, .i32⟩) (.of main_call1_v2 : StableHlo.TRef sig ⟨S128x7, .i32⟩) Host.divsi,
    StableHlo.TRef.unary (.of main_v40 : StableHlo.TRef sig ⟨S128x7, .i32⟩) (.of main_call1_v3 : StableHlo.TRef sig ⟨S128x7, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S128x7, .i32⟩) (broadcastInDim S128x7 ![] bcast_S_S128x7),
    StableHlo.TRef.binary (.of main_call1_v3 : StableHlo.TRef sig ⟨S128x7, .i32⟩) (.of main_call1_v5 : StableHlo.TRef sig ⟨S128x7, .i32⟩) (.of main_call1_v6 : StableHlo.TRef sig ⟨S128x7, .i1⟩) (cmpi .ne),
    StableHlo.TRef.unary (.of main_call1_v0 : StableHlo.TRef sig ⟨S_, .i32⟩) (.of main_call1_v7 : StableHlo.TRef sig ⟨S128x7, .i32⟩) (broadcastInDim S128x7 ![] bcast_S_S128x7),
    StableHlo.TRef.binary (.of main_v40 : StableHlo.TRef sig ⟨S128x7, .i32⟩) (.of main_call1_v7 : StableHlo.TRef sig ⟨S128x7, .i32⟩) (.of main_call1_v8 : StableHlo.TRef sig ⟨S128x7, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S128x7, .i32⟩) (broadcastInDim S128x7 ![] bcast_S_S128x7),
    StableHlo.TRef.binary (.of main_call1_v8 : StableHlo.TRef sig ⟨S128x7, .i32⟩) (.of main_call1_v9 : StableHlo.TRef sig ⟨S128x7, .i32⟩) (.of main_call1_v10 : StableHlo.TRef sig ⟨S128x7, .i1⟩) (cmpi .ne),
    StableHlo.TRef.binary (.of main_call1_v6 : StableHlo.TRef sig ⟨S128x7, .i1⟩) (.of main_call1_v10 : StableHlo.TRef sig ⟨S128x7, .i1⟩) (.of main_call1_v11 : StableHlo.TRef sig ⟨S128x7, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S128x7, .i32⟩) (broadcastInDim S128x7 ![] bcast_S_S128x7),
    StableHlo.TRef.binary (.of main_call1_v2 : StableHlo.TRef sig ⟨S128x7, .i32⟩) (.of main_call1_v12 : StableHlo.TRef sig ⟨S128x7, .i32⟩) (.of main_call1_v13 : StableHlo.TRef sig ⟨S128x7, .i32⟩) subi,
    StableHlo.TRef.ternary (.of main_call1_v11 : StableHlo.TRef sig ⟨S128x7, .i1⟩) (.of main_call1_v13 : StableHlo.TRef sig ⟨S128x7, .i32⟩) (.of main_call1_v2 : StableHlo.TRef sig ⟨S128x7, .i32⟩) (.of main_v41 : StableHlo.TRef sig ⟨S128x7, .i32⟩) select ]
theorem w0_3_sub : (w0_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 10 operations of the pooling stage, in order. -/
abbrev w0_4 : List (HloOp τ sig (Elt F)) :=
  [ StableHlo.unary main_v32 main_v42 (broadcastInDim S128x7 ![0, 1] bcast_S128x1_S128x7_0_1 : (⟨S128x1, .i32⟩ : BufTy).Contents (Elt F) → (⟨S128x7, .i32⟩ : BufTy).Contents (Elt F)),
    StableHlo.binary main_v42 main_v41 main_v43 (subi : (⟨S128x7, .i32⟩ : BufTy).Contents (Elt F) → (⟨S128x7, .i32⟩ : BufTy).Contents (Elt F) → (⟨S128x7, .i32⟩ : BufTy).Contents (Elt F)),
    StableHlo.nullary main_v44 (iotaInDim S9 32 0),
    StableHlo.unary main_v31 main_v45 (broadcastInDim S128x7x1 ![0, 1] bcast_S128x7_S128x7x1_0_1 : (⟨S128x7, .i32⟩ : BufTy).Contents (Elt F) → (⟨S128x7x1, .i32⟩ : BufTy).Contents (Elt F)),
    StableHlo.unary main_v44 main_v46 (broadcastInDim S1x1x9 ![2] bcast_S9_S1x1x9_2 : (⟨S9, .i32⟩ : BufTy).Contents (Elt F) → (⟨S1x1x9, .i32⟩ : BufTy).Contents (Elt F)),
    StableHlo.unary main_v45 main_v47 (broadcastInDim S128x7x9 ![0, 1, 2] bcast_S128x7x1_S128x7x9_0_1_2 : (⟨S128x7x1, .i32⟩ : BufTy).Contents (Elt F) → (⟨S128x7x9, .i32⟩ : BufTy).Contents (Elt F)),
    StableHlo.unary main_v46 main_v48 (broadcastInDim S128x7x9 ![0, 1, 2] bcast_S1x1x9_S128x7x9_0_1_2 : (⟨S1x1x9, .i32⟩ : BufTy).Contents (Elt F) → (⟨S128x7x9, .i32⟩ : BufTy).Contents (Elt F)),
    StableHlo.binary main_v47 main_v48 main_v49 (addi : (⟨S128x7x9, .i32⟩ : BufTy).Contents (Elt F) → (⟨S128x7x9, .i32⟩ : BufTy).Contents (Elt F) → (⟨S128x7x9, .i32⟩ : BufTy).Contents (Elt F)),
    StableHlo.unary main_v43 main_v50 (broadcastInDim S128x7x1 ![0, 1] bcast_S128x7_S128x7x1_0_1 : (⟨S128x7, .i32⟩ : BufTy).Contents (Elt F) → (⟨S128x7x1, .i32⟩ : BufTy).Contents (Elt F)),
    StableHlo.unary main_v50 main_v51 (broadcastInDim S128x7x9 ![0, 1, 2] bcast_S128x7x1_S128x7x9_0_1_2 : (⟨S128x7x1, .i32⟩ : BufTy).Contents (Elt F) → (⟨S128x7x9, .i32⟩ : BufTy).Contents (Elt F)) ]
theorem w0_4_sub : (w0_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub ..⟩

/-- 9 operations of the pooling stage, in order. -/
abbrev w1_0 : List (HloOp τ sig (Elt F)) :=
  [ StableHlo.binary main_v49 main_v51 main_v52 (cmpi .slt : (⟨S128x7x9, .i32⟩ : BufTy).Contents (Elt F) → (⟨S128x7x9, .i32⟩ : BufTy).Contents (Elt F) → (⟨S128x7x9, .i1⟩ : BufTy).Contents (Elt F)),
    StableHlo.nullary main_v53 (iotaInDim S7 32 0),
    StableHlo.unary main_v5 main_v54 (broadcastInDim S128x1 ![0] bcast_S128_S128x1_0 : (⟨S128, .i32⟩ : BufTy).Contents (Elt F) → (⟨S128x1, .i32⟩ : BufTy).Contents (Elt F)),
    StableHlo.unary main_v53 main_v55 (broadcastInDim S1x7 ![1] bcast_S7_S1x7_1 : (⟨S7, .i32⟩ : BufTy).Contents (Elt F) → (⟨S1x7, .i32⟩ : BufTy).Contents (Elt F)),
    StableHlo.unary main_v21 main_v56 (broadcastInDim S128x1 ![0] bcast_S128_S128x1_0 : (⟨S128, .i32⟩ : BufTy).Contents (Elt F) → (⟨S128x1, .i32⟩ : BufTy).Contents (Elt F)),
    StableHlo.unary main_v55 main_v57 (broadcastInDim S128x7 ![0, 1] bcast_S1x7_S128x7_0_1 : (⟨S1x7, .i32⟩ : BufTy).Contents (Elt F) → (⟨S128x7, .i32⟩ : BufTy).Contents (Elt F)),
    StableHlo.unary main_v56 main_v58 (broadcastInDim S128x7 ![0, 1] bcast_S128x1_S128x7_0_1 : (⟨S128x1, .i32⟩ : BufTy).Contents (Elt F) → (⟨S128x7, .i32⟩ : BufTy).Contents (Elt F)),
    StableHlo.binary main_v57 main_v58 main_v59 (muli : (⟨S128x7, .i32⟩ : BufTy).Contents (Elt F) → (⟨S128x7, .i32⟩ : BufTy).Contents (Elt F) → (⟨S128x7, .i32⟩ : BufTy).Contents (Elt F)),
    StableHlo.nullary main_c_6 (constantI S_ 32 7#32) ]
theorem w1_0_sub : (w1_0 : List (HloOp τ sig (Elt F))).Forall fun op => op.bufs ⊆ StableHlo.tcRefs τ sig :=
  ⟨StableHlo.binary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub ..⟩

/-- 57 operations of the pooling stage, in order. -/
abbrev w1_1 : List (HloOp τ sig (Elt F)) :=
  [ StableHlo.TRef.unary (.of main_c_6 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S128x7, .i32⟩) (broadcastInDim S128x7 ![] bcast_S_S128x7),
    StableHlo.TRef.binary (.of main_v59 : StableHlo.TRef sig ⟨S128x7, .i32⟩) (.of main_call2_v1 : StableHlo.TRef sig ⟨S128x7, .i32⟩) (.of main_call2_v2 : StableHlo.TRef sig ⟨S128x7, .i32⟩) Host.divsi,
    StableHlo.TRef.unary (.of main_v59 : StableHlo.TRef sig ⟨S128x7, .i32⟩) (.of main_call2_v3 : StableHlo.TRef sig ⟨S128x7, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S128x7, .i32⟩) (broadcastInDim S128x7 ![] bcast_S_S128x7),
    StableHlo.TRef.binary (.of main_call2_v3 : StableHlo.TRef sig ⟨S128x7, .i32⟩) (.of main_call2_v5 : StableHlo.TRef sig ⟨S128x7, .i32⟩) (.of main_call2_v6 : StableHlo.TRef sig ⟨S128x7, .i1⟩) (cmpi .ne),
    StableHlo.TRef.unary (.of main_call2_v0 : StableHlo.TRef sig ⟨S_, .i32⟩) (.of main_call2_v7 : StableHlo.TRef sig ⟨S128x7, .i32⟩) (broadcastInDim S128x7 ![] bcast_S_S128x7),
    StableHlo.TRef.binary (.of main_v59 : StableHlo.TRef sig ⟨S128x7, .i32⟩) (.of main_call2_v7 : StableHlo.TRef sig ⟨S128x7, .i32⟩) (.of main_call2_v8 : StableHlo.TRef sig ⟨S128x7, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S128x7, .i32⟩) (broadcastInDim S128x7 ![] bcast_S_S128x7),
    StableHlo.TRef.binary (.of main_call2_v8 : StableHlo.TRef sig ⟨S128x7, .i32⟩) (.of main_call2_v9 : StableHlo.TRef sig ⟨S128x7, .i32⟩) (.of main_call2_v10 : StableHlo.TRef sig ⟨S128x7, .i1⟩) (cmpi .ne),
    StableHlo.TRef.binary (.of main_call2_v6 : StableHlo.TRef sig ⟨S128x7, .i1⟩) (.of main_call2_v10 : StableHlo.TRef sig ⟨S128x7, .i1⟩) (.of main_call2_v11 : StableHlo.TRef sig ⟨S128x7, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S128x7, .i32⟩) (broadcastInDim S128x7 ![] bcast_S_S128x7),
    StableHlo.TRef.binary (.of main_call2_v2 : StableHlo.TRef sig ⟨S128x7, .i32⟩) (.of main_call2_v12 : StableHlo.TRef sig ⟨S128x7, .i32⟩) (.of main_call2_v13 : StableHlo.TRef sig ⟨S128x7, .i32⟩) subi,
    StableHlo.TRef.ternary (.of main_call2_v11 : StableHlo.TRef sig ⟨S128x7, .i1⟩) (.of main_call2_v13 : StableHlo.TRef sig ⟨S128x7, .i32⟩) (.of main_call2_v2 : StableHlo.TRef sig ⟨S128x7, .i32⟩) (.of main_v60 : StableHlo.TRef sig ⟨S128x7, .i32⟩) select ]
theorem w1_1_sub : (w1_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 13 operations of the pooling stage, in order. -/
abbrev w1_2 : List (HloOp τ sig (Elt F)) :=
  [ StableHlo.unary main_v54 main_v61 (broadcastInDim S128x7 ![0, 1] bcast_S128x1_S128x7_0_1 : (⟨S128x1, .i32⟩ : BufTy).Contents (Elt F) → (⟨S128x7, .i32⟩ : BufTy).Contents (Elt F)),
    StableHlo.binary main_v61 main_v60 main_v62 (addi : (⟨S128x7, .i32⟩ : BufTy).Contents (Elt F) → (⟨S128x7, .i32⟩ : BufTy).Contents (Elt F) → (⟨S128x7, .i32⟩ : BufTy).Contents (Elt F)),
    StableHlo.unary main_v5 main_v63 (broadcastInDim S128x1 ![0] bcast_S128_S128x1_0 : (⟨S128, .i32⟩ : BufTy).Contents (Elt F) → (⟨S128x1, .i32⟩ : BufTy).Contents (Elt F)),
    StableHlo.unary main_v53 main_v64 (broadcastInDim S1x7 ![1] bcast_S7_S1x7_1 : (⟨S7, .i32⟩ : BufTy).Contents (Elt F) → (⟨S1x7, .i32⟩ : BufTy).Contents (Elt F)),
    StableHlo.nullary main_c_7 (constantI S_ 32 1#32),
    StableHlo.unary main_c_7 main_v65 (broadcastInDim S1x7 ![] bcast_S_S1x7 : (⟨S_, .i32⟩ : BufTy).Contents (Elt F) → (⟨S1x7, .i32⟩ : BufTy).Contents (Elt F)),
    StableHlo.binary main_v64 main_v65 main_v66 (addi : (⟨S1x7, .i32⟩ : BufTy).Contents (Elt F) → (⟨S1x7, .i32⟩ : BufTy).Contents (Elt F) → (⟨S1x7, .i32⟩ : BufTy).Contents (Elt F)),
    StableHlo.unary main_v66 main_v67 (negi : (⟨S1x7, .i32⟩ : BufTy).Contents (Elt F) → (⟨S1x7, .i32⟩ : BufTy).Contents (Elt F)),
    StableHlo.unary main_v21 main_v68 (broadcastInDim S128x1 ![0] bcast_S128_S128x1_0 : (⟨S128, .i32⟩ : BufTy).Contents (Elt F) → (⟨S128x1, .i32⟩ : BufTy).Contents (Elt F)),
    StableHlo.unary main_v67 main_v69 (broadcastInDim S128x7 ![0, 1] bcast_S1x7_S128x7_0_1 : (⟨S1x7, .i32⟩ : BufTy).Contents (Elt F) → (⟨S128x7, .i32⟩ : BufTy).Contents (Elt F)),
    StableHlo.unary main_v68 main_v70 (broadcastInDim S128x7 ![0, 1] bcast_S128x1_S128x7_0_1 : (⟨S128x1, .i32⟩ : BufTy).Contents (Elt F) → (⟨S128x7, .i32⟩ : BufTy).Contents (Elt F)),
    StableHlo.binary main_v69 main_v70 main_v71 (muli : (⟨S128x7, .i32⟩ : BufTy).Contents (Elt F) → (⟨S128x7, .i32⟩ : BufTy).Contents (Elt F) → (⟨S128x7, .i32⟩ : BufTy).Contents (Elt F)),
    StableHlo.nullary main_c_8 (constantI S_ 32 7#32) ]
theorem w1_2_sub : (w1_2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub ..⟩

/-- 57 operations of the pooling stage, in order. -/
abbrev w1_3 : List (HloOp τ sig (Elt F)) :=
  [ StableHlo.TRef.unary (.of main_c_8 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S128x7, .i32⟩) (broadcastInDim S128x7 ![] bcast_S_S128x7),
    StableHlo.TRef.binary (.of main_v71 : StableHlo.TRef sig ⟨S128x7, .i32⟩) (.of main_call3_v1 : StableHlo.TRef sig ⟨S128x7, .i32⟩) (.of main_call3_v2 : StableHlo.TRef sig ⟨S128x7, .i32⟩) Host.divsi,
    StableHlo.TRef.unary (.of main_v71 : StableHlo.TRef sig ⟨S128x7, .i32⟩) (.of main_call3_v3 : StableHlo.TRef sig ⟨S128x7, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S128x7, .i32⟩) (broadcastInDim S128x7 ![] bcast_S_S128x7),
    StableHlo.TRef.binary (.of main_call3_v3 : StableHlo.TRef sig ⟨S128x7, .i32⟩) (.of main_call3_v5 : StableHlo.TRef sig ⟨S128x7, .i32⟩) (.of main_call3_v6 : StableHlo.TRef sig ⟨S128x7, .i1⟩) (cmpi .ne),
    StableHlo.TRef.unary (.of main_call3_v0 : StableHlo.TRef sig ⟨S_, .i32⟩) (.of main_call3_v7 : StableHlo.TRef sig ⟨S128x7, .i32⟩) (broadcastInDim S128x7 ![] bcast_S_S128x7),
    StableHlo.TRef.binary (.of main_v71 : StableHlo.TRef sig ⟨S128x7, .i32⟩) (.of main_call3_v7 : StableHlo.TRef sig ⟨S128x7, .i32⟩) (.of main_call3_v8 : StableHlo.TRef sig ⟨S128x7, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S128x7, .i32⟩) (broadcastInDim S128x7 ![] bcast_S_S128x7),
    StableHlo.TRef.binary (.of main_call3_v8 : StableHlo.TRef sig ⟨S128x7, .i32⟩) (.of main_call3_v9 : StableHlo.TRef sig ⟨S128x7, .i32⟩) (.of main_call3_v10 : StableHlo.TRef sig ⟨S128x7, .i1⟩) (cmpi .ne),
    StableHlo.TRef.binary (.of main_call3_v6 : StableHlo.TRef sig ⟨S128x7, .i1⟩) (.of main_call3_v10 : StableHlo.TRef sig ⟨S128x7, .i1⟩) (.of main_call3_v11 : StableHlo.TRef sig ⟨S128x7, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S128x7, .i32⟩) (broadcastInDim S128x7 ![] bcast_S_S128x7),
    StableHlo.TRef.binary (.of main_call3_v2 : StableHlo.TRef sig ⟨S128x7, .i32⟩) (.of main_call3_v12 : StableHlo.TRef sig ⟨S128x7, .i32⟩) (.of main_call3_v13 : StableHlo.TRef sig ⟨S128x7, .i32⟩) subi,
    StableHlo.TRef.ternary (.of main_call3_v11 : StableHlo.TRef sig ⟨S128x7, .i1⟩) (.of main_call3_v13 : StableHlo.TRef sig ⟨S128x7, .i32⟩) (.of main_call3_v2 : StableHlo.TRef sig ⟨S128x7, .i32⟩) (.of main_v72 : StableHlo.TRef sig ⟨S128x7, .i32⟩) select ]
theorem w1_3_sub : (w1_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 13 operations of the pooling stage, in order. -/
abbrev w1_4 : List (HloOp τ sig (Elt F)) :=
  [ StableHlo.unary main_v63 main_v73 (broadcastInDim S128x7 ![0, 1] bcast_S128x1_S128x7_0_1 : (⟨S128x1, .i32⟩ : BufTy).Contents (Elt F) → (⟨S128x7, .i32⟩ : BufTy).Contents (Elt F)),
    StableHlo.binary main_v73 main_v72 main_v74 (subi : (⟨S128x7, .i32⟩ : BufTy).Contents (Elt F) → (⟨S128x7, .i32⟩ : BufTy).Contents (Elt F) → (⟨S128x7, .i32⟩ : BufTy).Contents (Elt F)),
    StableHlo.nullary main_v75 (iotaInDim S9 32 0),
    StableHlo.unary main_v62 main_v76 (broadcastInDim S128x7x1 ![0, 1] bcast_S128x7_S128x7x1_0_1 : (⟨S128x7, .i32⟩ : BufTy).Contents (Elt F) → (⟨S128x7x1, .i32⟩ : BufTy).Contents (Elt F)),
    StableHlo.unary main_v75 main_v77 (broadcastInDim S1x1x9 ![2] bcast_S9_S1x1x9_2 : (⟨S9, .i32⟩ : BufTy).Contents (Elt F) → (⟨S1x1x9, .i32⟩ : BufTy).Contents (Elt F)),
    StableHlo.unary main_v76 main_v78 (broadcastInDim S128x7x9 ![0, 1, 2] bcast_S128x7x1_S128x7x9_0_1_2 : (⟨S128x7x1, .i32⟩ : BufTy).Contents (Elt F) → (⟨S128x7x9, .i32⟩ : BufTy).Contents (Elt F)),
    StableHlo.unary main_v77 main_v79 (broadcastInDim S128x7x9 ![0, 1, 2] bcast_S1x1x9_S128x7x9_0_1_2 : (⟨S1x1x9, .i32⟩ : BufTy).Contents (Elt F) → (⟨S128x7x9, .i32⟩ : BufTy).Contents (Elt F)),
    StableHlo.binary main_v78 main_v79 main_v80 (addi : (⟨S128x7x9, .i32⟩ : BufTy).Contents (Elt F) → (⟨S128x7x9, .i32⟩ : BufTy).Contents (Elt F) → (⟨S128x7x9, .i32⟩ : BufTy).Contents (Elt F)),
    StableHlo.unary main_v74 main_v81 (broadcastInDim S128x7x1 ![0, 1] bcast_S128x7_S128x7x1_0_1 : (⟨S128x7, .i32⟩ : BufTy).Contents (Elt F) → (⟨S128x7x1, .i32⟩ : BufTy).Contents (Elt F)),
    StableHlo.unary main_v81 main_v82 (broadcastInDim S128x7x9 ![0, 1, 2] bcast_S128x7x1_S128x7x9_0_1_2 : (⟨S128x7x1, .i32⟩ : BufTy).Contents (Elt F) → (⟨S128x7x9, .i32⟩ : BufTy).Contents (Elt F)),
    StableHlo.binary main_v80 main_v82 main_v83 (cmpi .slt : (⟨S128x7x9, .i32⟩ : BufTy).Contents (Elt F) → (⟨S128x7x9, .i32⟩ : BufTy).Contents (Elt F) → (⟨S128x7x9, .i1⟩ : BufTy).Contents (Elt F)),
    StableHlo.nullary main_c_9 (constantI S_ 32 0#32),
    StableHlo.nullary main_c_10 (constantI S_ 32 49#32) ]
theorem w1_4_sub : (w1_4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub ..⟩

/-- 20 operations of the pooling stage, in order. -/
abbrev w1_5 : List (HloOp τ sig (Elt F)) :=
  [ StableHlo.TRef.unary (.of main_c_9 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S128x7x9, .i32⟩) (broadcastInDim S128x7x9 ![] bcast_S_S128x7x9),
    StableHlo.TRef.binary (.of main_call4_v1 : StableHlo.TRef sig ⟨S128x7x9, .i32⟩) (.of main_v49 : StableHlo.TRef sig ⟨S128x7x9, .i32⟩) (.of main_call4_v2 : StableHlo.TRef sig ⟨S128x7x9, .i32⟩) maxsi,
    StableHlo.TRef.unary (.of main_c_10 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S128x7x9, .i32⟩) (broadcastInDim S128x7x9 ![] bcast_S_S128x7x9),
    StableHlo.TRef.binary (.of main_call4_v4 : StableHlo.TRef sig ⟨S128x7x9, .i32⟩) (.of main_call4_v2 : StableHlo.TRef sig ⟨S128x7x9, .i32⟩) (.of main_v84 : StableHlo.TRef sig ⟨S128x7x9, .i32⟩) minsi ]
theorem w1_5_sub : (w1_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- 2 operations of the pooling stage, in order. -/
abbrev w1_6 : List (HloOp τ sig (Elt F)) :=
  [ StableHlo.nullary main_c_11 (constantI S_ 32 0#32),
    StableHlo.nullary main_c_12 (constantI S_ 32 49#32) ]
theorem w1_6_sub : (w1_6 : List (HloOp τ sig (Elt F))).Forall fun op => op.bufs ⊆ StableHlo.tcRefs τ sig :=
  ⟨StableHlo.nullary_bufs_sub .., StableHlo.nullary_bufs_sub ..⟩

/-- 20 operations of the pooling stage, in order. -/
abbrev w1_7 : List (HloOp τ sig (Elt F)) :=
  [ StableHlo.TRef.unary (.of main_c_11 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S128x7x9, .i32⟩) (broadcastInDim S128x7x9 ![] bcast_S_S128x7x9),
    StableHlo.TRef.binary (.of main_call5_v1 : StableHlo.TRef sig ⟨S128x7x9, .i32⟩) (.of main_v80 : StableHlo.TRef sig ⟨S128x7x9, .i32⟩) (.of main_call5_v2 : StableHlo.TRef sig ⟨S128x7x9, .i32⟩) maxsi,
    StableHlo.TRef.unary (.of main_c_12 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S128x7x9, .i32⟩) (broadcastInDim S128x7x9 ![] bcast_S_S128x7x9),
    StableHlo.TRef.binary (.of main_call5_v4 : StableHlo.TRef sig ⟨S128x7x9, .i32⟩) (.of main_call5_v2 : StableHlo.TRef sig ⟨S128x7x9, .i32⟩) (.of main_v85 : StableHlo.TRef sig ⟨S128x7x9, .i32⟩) minsi ]
theorem w1_7_sub : (w1_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- 11 operations of the pooling stage, in order. -/
abbrev w1_8 : List (HloOp τ sig (Elt F)) :=
  [ StableHlo.nullary main_c_13 (constantI S_ 32 0#32),
    StableHlo.unary main_c_13 main_v86 (broadcastInDim S128x7x9 ![] bcast_S_S128x7x9 : (⟨S_, .i32⟩ : BufTy).Contents (Elt F) → (⟨S128x7x9, .i32⟩ : BufTy).Contents (Elt F)),
    StableHlo.binary main_v84 main_v86 main_v87 (cmpi .slt : (⟨S128x7x9, .i32⟩ : BufTy).Contents (Elt F) → (⟨S128x7x9, .i32⟩ : BufTy).Contents (Elt F) → (⟨S128x7x9, .i1⟩ : BufTy).Contents (Elt F)),
    StableHlo.nullary main_c_14 (constantI S_ 32 50#32),
    StableHlo.unary main_c_14 main_v88 (broadcastInDim S128x7x9 ![] bcast_S_S128x7x9 : (⟨S_, .i32⟩ : BufTy).Contents (Elt F) → (⟨S128x7x9, .i32⟩ : BufTy).Contents (Elt F)),
    StableHlo.binary main_v84 main_v88 main_v89 (addi : (⟨S128x7x9, .i32⟩ : BufTy).Contents (Elt F) → (⟨S128x7x9, .i32⟩ : BufTy).Contents (Elt F) → (⟨S128x7x9, .i32⟩ : BufTy).Contents (Elt F)),
    StableHlo.ternary main_v87 main_v89 main_v84 main_v90 (select : (⟨S128x7x9, .i1⟩ : BufTy).Contents (Elt F) → (⟨S128x7x9, .i32⟩ : BufTy).Contents (Elt F) → (⟨S128x7x9, .i32⟩ : BufTy).Contents (Elt F) → (⟨S128x7x9, .i32⟩ : BufTy).Contents (Elt F)),
    StableHlo.unary main_v90 main_v91 (broadcastInDim S128x7x9x1 ![0, 1, 2] bcast_S128x7x9_S128x7x9x1_0_1_2 : (⟨S128x7x9, .i32⟩ : BufTy).Contents (Elt F) → (⟨S128x7x9x1, .i32⟩ : BufTy).Contents (Elt F)),
    StableHlo.binary main_v0 main_v91 main_v92 ((fun x i => Host.gather gather_S256x50x50_S128x7x9x1_S256x128x7x9x50_04_1_n_n_1_3_256150 x i) : (⟨S256x50x50, .f32⟩ : BufTy).Contents (Elt F) → (⟨S128x7x9x1, .i32⟩ : BufTy).Contents (Elt F) → (⟨S256x128x7x9x50, .f32⟩ : BufTy).Contents (Elt F)),
    StableHlo.unary main_v52 main_v93 (broadcastInDim S1x128x7x9x1 ![1, 2, 3] bcast_S128x7x9_S1x128x7x9x1_1_2_3 : (⟨S128x7x9, .i1⟩ : BufTy).Contents (Elt F) → (⟨S1x128x7x9x1, .i1⟩ : BufTy).Contents (Elt F)),
    StableHlo.nullary main_cst_15 (constant S_ .f32 0xFF7FFFFF#32) ]
theorem w1_8_sub : (w1_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub ..⟩

/-- 11 operations of the pooling stage, in order. -/
abbrev w1_9 : List (HloOp τ sig (Elt F)) :=
  [ StableHlo.TRef.unary (.of main_v93 : StableHlo.TRef sig ⟨S1x128x7x9x1, .i1⟩) (.of main_call6_v0 : StableHlo.TRef sig ⟨S256x128x7x9x50, .i1⟩) (broadcastInDim S256x128x7x9x50 ![0, 1, 2, 3, 4] bcast_S1x128x7x9x1_S256x128x7x9x50_0_1_2_3_4),
    StableHlo.TRef.unary (.of main_cst_15 : StableHlo.TRef sig ⟨S_, .f32⟩) (.of main_call6_v1 : StableHlo.TRef sig ⟨S256x128x7x9x50, .f32⟩) (broadcastInDim S256x128x7x9x50 ![] bcast_S_S256x128x7x9x50),
    StableHlo.TRef.ternary (.of main_call6_v0 : StableHlo.TRef sig ⟨S256x128x7x9x50, .i1⟩) (.of main_v92 : StableHlo.TRef sig ⟨S256x128x7x9x50, .f32⟩) (.of main_call6_v1 : StableHlo.TRef sig ⟨S256x128x7x9x50, .f32⟩) (.of main_v94 : StableHlo.TRef sig ⟨S256x128x7x9x50, .f32⟩) select ]
theorem w1_9_sub : (w1_9 : List (HloOp τ sig (Elt F))).Forall fun op => op.bufs ⊆ StableHlo.tcRefs τ sig :=
  ⟨StableHlo.unary_bufs_sub .., StableHlo.unary_bufs_sub .., StableHlo.ternary_bufs_sub ..⟩

/-- 4 operations of the pooling stage, in order. -/
abbrev w1_10 : List (HloOp τ sig (Elt F)) :=
  [ StableHlo.nullary main_cst_16 (constant S_ .f32 0xFF800000#32),
    StableHlo.binary main_v94 main_cst_16 main_v95 ((fun x v => Host.reduce FloatOps.maximumf x v reducesTo_S256x128x7x9x50_S256x128x7x50_d3 h_S_) : (⟨S256x128x7x9x50, .f32⟩ : BufTy).Contents (Elt F) → (⟨S_, .f32⟩ : BufTy).Contents (Elt F) → (⟨S256x128x7x50, .f32⟩ : BufTy).Contents (Elt F)),
    StableHlo.unary main_v95 main_v96 ((transpose S128x256x7x50 [1, 0, 2, 3] · transposes_S256x128x7x50_S128x256x7x50_1_0_2_3) : (⟨S256x128x7x50, .f32⟩ : BufTy).Contents (Elt F) → (⟨S128x256x7x50, .f32⟩ : BufTy).Contents (Elt F)),
    StableHlo.reshape main_v85 main_v97 rfl shapeCasts_S128x7x9_S128x1x1x63 ]
theorem w1_10_sub : (w1_10 : List (HloOp τ sig (Elt F))).Forall fun op => op.bufs ⊆ StableHlo.tcRefs τ sig :=
  ⟨StableHlo.nullary_bufs_sub .., StableHlo.binary_bufs_sub .., StableHlo.unary_bufs_sub .., StableHlo.reshape_bufs_sub ..⟩

/-- 74 operations of the pooling stage, in order. -/
abbrev w1_11 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S128x1x1x63, .i32⟩) (broadcastInDim S128x1x1x63 ![] bcast_S_S128x1x1x63),
    StableHlo.TRef.binary (.of main_v97 : StableHlo.TRef sig ⟨S128x1x1x63, .i32⟩) (.of main_call7_v0 : StableHlo.TRef sig ⟨S128x1x1x63, .i32⟩) (.of main_call7_v1 : StableHlo.TRef sig ⟨S128x1x1x63, .i1⟩) (cmpi .slt),
    StableHlo.TRef.nullary (.of main_call7_c_0 : StableHlo.TRef sig ⟨S_, .i32⟩) (constantI S_ 32 50#32),
    StableHlo.TRef.unary (.of main_call7_c_0 : StableHlo.TRef sig ⟨S_, .i32⟩) (.of main_call7_v2 : StableHlo.TRef sig ⟨S128x1x1x63, .i32⟩) (broadcastInDim S128x1x1x63 ![] bcast_S_S128x1x1x63),
    StableHlo.TRef.binary (.of main_v97 : StableHlo.TRef sig ⟨S128x1x1x63, .i32⟩) (.of main_call7_v2 : StableHlo.TRef sig ⟨S128x1x1x63, .i32⟩) (.of main_call7_v3 : StableHlo.TRef sig ⟨S128x1x1x63, .i32⟩) addi,
    StableHlo.TRef.ternary (.of main_call7_v1 : StableHlo.TRef sig ⟨S128x1x1x63, .i1⟩) (.of main_call7_v3 : StableHlo.TRef sig ⟨S128x1x1x63, .i32⟩) (.of main_v97 : StableHlo.TRef sig ⟨S128x1x1x63, .i32⟩) (.of main_call7_v4 : StableHlo.TRef sig ⟨S128x1x1x63, .i32⟩) select,
    StableHlo.TRef.reshape (.of main_call7_v4 : StableHlo.TRef sig ⟨S128x1x1x63, .i32⟩) (.of main_call7_v5 : StableHlo.TRef sig ⟨S128x63x1, .i32⟩) rfl shapeCasts_S128x1x1x63_S128x63x1,
    StableHlo.TRef.nullary (.of main_call7_c_1 : StableHlo.TRef sig ⟨S1, .i32⟩) (constantI S1 32 49#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S128x63x1, .i32⟩) (broadcastInDim S128x63x1 ![] bcast_S_S128x63x1),
    StableHlo.TRef.binary (.of main_call7_v5 : StableHlo.TRef sig ⟨S128x63x1, .i32⟩) (.of main_call7_v6 : StableHlo.TRef sig ⟨S128x63x1, .i32⟩) (.of main_call7_v7 : StableHlo.TRef sig ⟨S128x63x1, .i1⟩) (cmpi .sge),
    StableHlo.TRef.unary (.of main_call7_c_1 : StableHlo.TRef sig ⟨S1, .i32⟩) (.of main_call7_v8 : StableHlo.TRef sig ⟨S1x1x1, .i32⟩) (broadcastInDim S1x1x1 ![2] bcast_S1_S1x1x1_2),
    StableHlo.TRef.unary (.of main_call7_v8 : StableHlo.TRef sig ⟨S1x1x1, .i32⟩) (.of main_call7_v9 : StableHlo.TRef sig ⟨S128x63x1, .i32⟩) (broadcastInDim S128x63x1 ![0, 1, 2] bcast_S1x1x1_S128x63x1_0_1_2),
    StableHlo.TRef.binary (.of main_call7_v5 : StableHlo.TRef sig ⟨S128x63x1, .i32⟩) (.of main_call7_v9 : StableHlo.TRef sig ⟨S128x63x1, .i32⟩) (.of main_call7_v10 : StableHlo.TRef sig ⟨S128x63x1, .i1⟩) (cmpi .sle),
    StableHlo.TRef.binary (.of main_call7_v7 : StableHlo.TRef sig ⟨S128x63x1, .i1⟩) (.of main_call7_v10 : StableHlo.TRef sig ⟨S128x63x1, .i1⟩) (.of main_call7_v11 : StableHlo.TRef sig ⟨S128x63x1, .i1⟩) andi,
    StableHlo.TRef.nullary (.of main_call7_c_3 : StableHlo.TRef sig ⟨S_, .i1⟩) (constantI S_ 1 1#1),
    StableHlo.TRef.binary (.of main_call7_v11 : StableHlo.TRef sig ⟨S128x63x1, .i1⟩) (.of main_call7_c_3 : StableHlo.TRef sig ⟨S_, .i1⟩) (.of main_call7_v12 : StableHlo.TRef sig ⟨S128x63, .i1⟩) (fun x v => Host.reduce IntOp.andi x v reducesTo_S128x63x1_S128x63_d2 h_S_),
    StableHlo.TRef.binary (.of main_v96 : StableHlo.TRef sig ⟨S128x256x7x50, .f32⟩) (.of main_call7_v5 : StableHlo.TRef sig ⟨S128x63x1, .i32⟩) (.of main_call7_v13 : StableHlo.TRef sig ⟨S128x256x7x63, .f32⟩) (fun x i => Host.gather gather_S128x256x7x50_S128x63x1_S128x256x7x63_12_3_0_0_3_2_125671 x i),
    StableHlo.TRef.unary (.of main_call7_v12 : StableHlo.TRef sig ⟨S128x63, .i1⟩) (.of main_call7_v14 : StableHlo.TRef sig ⟨S128x256x7x63, .i1⟩) (broadcastInDim S128x256x7x63 ![0, 3] bcast_S128x63_S128x256x7x63_0_3),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v15 : StableHlo.TRef sig ⟨S128x256x7x63, .f32⟩) (broadcastInDim S128x256x7x63 ![] bcast_S_S128x256x7x63),
    StableHlo.TRef.ternary (.of main_call7_v14 : StableHlo.TRef sig ⟨S128x256x7x63, .i1⟩) (.of main_call7_v13 : StableHlo.TRef sig ⟨S128x256x7x63, .f32⟩) (.of main_call7_v15 : StableHlo.TRef sig ⟨S128x256x7x63, .f32⟩) (.of main_v98 : StableHlo.TRef sig ⟨S128x256x7x63, .f32⟩) select ]
theorem w1_11_sub : (w1_11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- 2 operations of the pooling stage, in order. -/
abbrev w1_12 : List (HloOp τ sig (Elt F)) :=
  [ StableHlo.reshape main_v98 main_v99 rfl shapeCasts_S128x256x7x63_S128x256x7x7x9,
    StableHlo.unary main_v83 main_v100 (broadcastInDim S128x1x1x7x9 ![0, 3, 4] bcast_S128x7x9_S128x1x1x7x9_0_3_4 : (⟨S128x7x9, .i1⟩ : BufTy).Contents (Elt F) → (⟨S128x1x1x7x9, .i1⟩ : BufTy).Contents (Elt F)) ]
theorem w1_12_sub : (w1_12 : List (HloOp τ sig (Elt F))).Forall fun op => op.bufs ⊆ StableHlo.tcRefs τ sig :=
  ⟨StableHlo.reshape_bufs_sub .., StableHlo.unary_bufs_sub ..⟩

/-- 1 operations of the pooling stage, in order. -/
abbrev w2_0 : List (HloOp τ sig (Elt F)) :=
  [ StableHlo.nullary main_cst_17 (constant S_ .f32 0xFF7FFFFF#32) ]
theorem w2_0_sub : (w2_0 : List (HloOp τ sig (Elt F))).Forall fun op => op.bufs ⊆ StableHlo.tcRefs τ sig :=
  StableHlo.nullary_bufs_sub ..

/-- 11 operations of the pooling stage, in order. -/
abbrev w2_1 : List (HloOp τ sig (Elt F)) :=
  [ StableHlo.TRef.unary (.of main_v100 : StableHlo.TRef sig ⟨S128x1x1x7x9, .i1⟩) (.of main_call8_v0 : StableHlo.TRef sig ⟨S128x256x7x7x9, .i1⟩) (broadcastInDim S128x256x7x7x9 ![0, 1, 2, 3, 4] bcast_S128x1x1x7x9_S128x256x7x7x9_0_1_2_3_4),
    StableHlo.TRef.unary (.of main_cst_17 : StableHlo.TRef sig ⟨S_, .f32⟩) (.of main_call8_v1 : StableHlo.TRef sig ⟨S128x256x7x7x9, .f32⟩) (broadcastInDim S128x256x7x7x9 ![] bcast_S_S128x256x7x7x9),
    StableHlo.TRef.ternary (.of main_call8_v0 : StableHlo.TRef sig ⟨S128x256x7x7x9, .i1⟩) (.of main_v99 : StableHlo.TRef sig ⟨S128x256x7x7x9, .f32⟩) (.of main_call8_v1 : StableHlo.TRef sig ⟨S128x256x7x7x9, .f32⟩) (.of main_v101 : StableHlo.TRef sig ⟨S128x256x7x7x9, .f32⟩) select ]
theorem w2_1_sub : (w2_1 : List (HloOp τ sig (Elt F))).Forall fun op => op.bufs ⊆ StableHlo.tcRefs τ sig :=
  ⟨StableHlo.unary_bufs_sub .., StableHlo.unary_bufs_sub .., StableHlo.ternary_bufs_sub ..⟩

/-- The maximum over each column bin (from −∞) and the reshape of the pooled features to [128, 12544]. -/
abbrev w2_2 : List (HloOp τ sig (Elt F)) :=
  [ StableHlo.nullary main_cst_18 (constant S_ .f32 0xFF800000#32),
    StableHlo.binary main_v101 main_cst_18 main_v102 ((fun x v => Host.reduce FloatOps.maximumf x v reducesTo_S128x256x7x7x9_S128x256x7x7_d4 h_S_) : (⟨S128x256x7x7x9, .f32⟩ : BufTy).Contents (Elt F) → (⟨S_, .f32⟩ : BufTy).Contents (Elt F) → (⟨S128x256x7x7, .f32⟩ : BufTy).Contents (Elt F)),
    StableHlo.reshape main_v102 main_v103 rfl shapeCasts_S128x256x7x7_S128x12544 ]
theorem w2_2_sub : (w2_2 : List (HloOp τ sig (Elt F))).Forall fun op => op.bufs ⊆ StableHlo.tcRefs τ sig :=
  ⟨StableHlo.nullary_bufs_sub .., StableHlo.binary_bufs_sub .., StableHlo.reshape_bufs_sub ..⟩

/-- The first dense layer before its maximum with zero: the pooled features times the transposed weight, plus the bias broadcast over the rows. -/
abbrev fc1 : List (HloOp τ sig (Elt F)) :=
  [ StableHlo.unary main_arg2 main_v104 ((transpose S12544x4096 [1, 0] · transposes_S4096x12544_S12544x4096_1_0) : (⟨S4096x12544, .f32⟩ : BufTy).Contents (Elt F) → (⟨S12544x4096, .f32⟩ : BufTy).Contents (Elt F)),
    StableHlo.binary main_v103 main_v104 main_v105 ((fun l r => Host.dotGeneral dot_S128x12544_S12544x4096_S128x4096_1_0_0_1_n_n none l r) : (⟨S128x12544, .f32⟩ : BufTy).Contents (Elt F) → (⟨S12544x4096, .f32⟩ : BufTy).Contents (Elt F) → (⟨S128x4096, .f32⟩ : BufTy).Contents (Elt F)),
    StableHlo.unary main_arg3 main_v106 (broadcastInDim S1x4096 ![1] bcast_S4096_S1x4096_1 : (⟨S4096, .f32⟩ : BufTy).Contents (Elt F) → (⟨S1x4096, .f32⟩ : BufTy).Contents (Elt F)),
    StableHlo.unary main_v106 main_v107 (broadcastInDim S128x4096 ![0, 1] bcast_S1x4096_S128x4096_0_1 : (⟨S1x4096, .f32⟩ : BufTy).Contents (Elt F) → (⟨S128x4096, .f32⟩ : BufTy).Contents (Elt F)),
    StableHlo.binary main_v105 main_v107 main_v108 (addf : (⟨S128x4096, .f32⟩ : BufTy).Contents (Elt F) → (⟨S128x4096, .f32⟩ : BufTy).Contents (Elt F) → (⟨S128x4096, .f32⟩ : BufTy).Contents (Elt F)) ]
theorem fc1_sub : (fc1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩

/-- The maximum with zero after the first layer. -/
abbrev relu1 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S128x4096, .f32⟩) (broadcastInDim S128x4096 ![] bcast_S_S128x4096),
    StableHlo.TRef.binary (.of main_v108 : StableHlo.TRef sig ⟨S128x4096, .f32⟩) (.of main_call9_v0 : StableHlo.TRef sig ⟨S128x4096, .f32⟩) (.of main_v109 : StableHlo.TRef sig ⟨S128x4096, .f32⟩) maximumf ]
theorem relu1_sub : (relu1 : List (HloOp τ sig (Elt F))).Forall fun op => op.bufs ⊆ StableHlo.tcRefs τ sig :=
  ⟨StableHlo.nullary_bufs_sub .., StableHlo.unary_bufs_sub .., StableHlo.binary_bufs_sub ..⟩

/-- The second dense layer before its maximum with zero. -/
abbrev fc2 : List (HloOp τ sig (Elt F)) :=
  [ StableHlo.unary main_arg4 main_v110 ((transpose S4096x4096 [1, 0] · transposes_S4096x4096_S4096x4096_1_0) : (⟨S4096x4096, .f32⟩ : BufTy).Contents (Elt F) → (⟨S4096x4096, .f32⟩ : BufTy).Contents (Elt F)),
    StableHlo.binary main_v109 main_v110 main_v111 ((fun l r => Host.dotGeneral dot_S128x4096_S4096x4096_S128x4096_1_0_0_1_n_n none l r) : (⟨S128x4096, .f32⟩ : BufTy).Contents (Elt F) → (⟨S4096x4096, .f32⟩ : BufTy).Contents (Elt F) → (⟨S128x4096, .f32⟩ : BufTy).Contents (Elt F)),
    StableHlo.unary main_arg5 main_v112 (broadcastInDim S1x4096 ![1] bcast_S4096_S1x4096_1 : (⟨S4096, .f32⟩ : BufTy).Contents (Elt F) → (⟨S1x4096, .f32⟩ : BufTy).Contents (Elt F)),
    StableHlo.unary main_v112 main_v113 (broadcastInDim S128x4096 ![0, 1] bcast_S1x4096_S128x4096_0_1 : (⟨S1x4096, .f32⟩ : BufTy).Contents (Elt F) → (⟨S128x4096, .f32⟩ : BufTy).Contents (Elt F)),
    StableHlo.binary main_v111 main_v113 main_v114 (addf : (⟨S128x4096, .f32⟩ : BufTy).Contents (Elt F) → (⟨S128x4096, .f32⟩ : BufTy).Contents (Elt F) → (⟨S128x4096, .f32⟩ : BufTy).Contents (Elt F)) ]
theorem fc2_sub : (fc2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩

/-- The maximum with zero after the second layer. -/
abbrev relu2 : List (HloOp τ sig (Elt F)) :=
  [ StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S128x4096, .f32⟩) (broadcastInDim S128x4096 ![] bcast_S_S128x4096),
    StableHlo.TRef.binary (.of main_v114 : StableHlo.TRef sig ⟨S128x4096, .f32⟩) (.of main_call10_v0 : StableHlo.TRef sig ⟨S128x4096, .f32⟩) (.of main_v115 : StableHlo.TRef sig ⟨S128x4096, .f32⟩) maximumf ]
theorem relu2_sub : (relu2 : List (HloOp τ sig (Elt F))).Forall fun op => op.bufs ⊆ StableHlo.tcRefs τ sig :=
  ⟨StableHlo.nullary_bufs_sub .., StableHlo.unary_bufs_sub .., StableHlo.binary_bufs_sub ..⟩

/-- The two output heads: the class scores, and the box deltas reshaped to [128, 21, 4]. -/
abbrev heads : List (HloOp τ sig (Elt F)) :=
  [ StableHlo.unary main_arg6 main_v116 ((transpose S4096x21 [1, 0] · transposes_S21x4096_S4096x21_1_0) : (⟨S21x4096, .f32⟩ : BufTy).Contents (Elt F) → (⟨S4096x21, .f32⟩ : BufTy).Contents (Elt F)),
    StableHlo.binary main_v115 main_v116 main_v117 ((fun l r => Host.dotGeneral dot_S128x4096_S4096x21_S128x21_1_0_0_1_n_n none l r) : (⟨S128x4096, .f32⟩ : BufTy).Contents (Elt F) → (⟨S4096x21, .f32⟩ : BufTy).Contents (Elt F) → (⟨S128x21, .f32⟩ : BufTy).Contents (Elt F)),
    StableHlo.unary main_arg7 main_v118 (broadcastInDim S1x21 ![1] bcast_S21_S1x21_1 : (⟨S21, .f32⟩ : BufTy).Contents (Elt F) → (⟨S1x21, .f32⟩ : BufTy).Contents (Elt F)),
    StableHlo.unary main_v118 main_v119 (broadcastInDim S128x21 ![0, 1] bcast_S1x21_S128x21_0_1 : (⟨S1x21, .f32⟩ : BufTy).Contents (Elt F) → (⟨S128x21, .f32⟩ : BufTy).Contents (Elt F)),
    StableHlo.binary main_v117 main_v119 main_v120 (addf : (⟨S128x21, .f32⟩ : BufTy).Contents (Elt F) → (⟨S128x21, .f32⟩ : BufTy).Contents (Elt F) → (⟨S128x21, .f32⟩ : BufTy).Contents (Elt F)),
    StableHlo.unary main_arg8 main_v121 ((transpose S4096x84 [1, 0] · transposes_S84x4096_S4096x84_1_0) : (⟨S84x4096, .f32⟩ : BufTy).Contents (Elt F) → (⟨S4096x84, .f32⟩ : BufTy).Contents (Elt F)),
    StableHlo.binary main_v115 main_v121 main_v122 ((fun l r => Host.dotGeneral dot_S128x4096_S4096x84_S128x84_1_0_0_1_n_n none l r) : (⟨S128x4096, .f32⟩ : BufTy).Contents (Elt F) → (⟨S4096x84, .f32⟩ : BufTy).Contents (Elt F) → (⟨S128x84, .f32⟩ : BufTy).Contents (Elt F)),
    StableHlo.unary main_arg9 main_v123 (broadcastInDim S1x84 ![1] bcast_S84_S1x84_1 : (⟨S84, .f32⟩ : BufTy).Contents (Elt F) → (⟨S1x84, .f32⟩ : BufTy).Contents (Elt F)),
    StableHlo.unary main_v123 main_v124 (broadcastInDim S128x84 ![0, 1] bcast_S1x84_S128x84_0_1 : (⟨S1x84, .f32⟩ : BufTy).Contents (Elt F) → (⟨S128x84, .f32⟩ : BufTy).Contents (Elt F)),
    StableHlo.binary main_v122 main_v124 main_v125 (addf : (⟨S128x84, .f32⟩ : BufTy).Contents (Elt F) → (⟨S128x84, .f32⟩ : BufTy).Contents (Elt F) → (⟨S128x84, .f32⟩ : BufTy).Contents (Elt F)),
    StableHlo.reshape main_v125 main_v126 rfl shapeCasts_S128x84_S128x21x4 ]
theorem heads_sub : (heads : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub ..⟩

end Cert.ReferenceIdeal.Hand

end
-- ==== Proof.RefRun.lean ====
/-
  The reference program as ONE straight line of host operations, and its run.

  The stretches of operations listed in the operations module are concatenated in program order: `pre` is everything up to
  and including the reshape that writes the pooled features [128, 12544]; `tail` is the three dense layers after it;
  `ops = pre ++ tail` is the whole program. The program text is shown equal to the sequence of `ops`, every operation is
  shown to touch TensorCore references only and to allocate nothing, and the run theorem reads every buffer's final
  contents as the fold of the operations' results over the launch contents.
-/
import proofs.«111165_j61984968016074_1_alg».proof.Proof.RefOps

set_option maxRecDepth 1584

noncomputable section

namespace Cert.ReferenceIdeal.Hand

open Idealize.ShloMosaic Idealize.ShloMosaic.TcCoe
open Idealize.SL Idealize.SL.Sem
open Cert.ReferenceIdeal Cert.ReferenceIdeal.Gen

/-! ## General facts about lists of operations -/

section General

variable {nD : Nat} {τ : Topo} {sig : RefSig} {Val : EltTy → Type} {Λ : Labels}

/-- Running a list of stretches one after the other is running their concatenation. -/
theorem chain_map_seq (ls : List (List (HloOp τ sig Val))) :
    (Pipeline.chain (ls.map StableHlo.seq) : Prog (TpuEff nD τ sig Val Λ .tc) PUnit) = StableHlo.seq ls.flatten := by
  induction ls with
  | nil => rfl
  | cons l ls ih => rw [List.map_cons, Pipeline.chain_cons, ih, List.flatten_cons, StableHlo.seq_append]

/-- The contents after a concatenation are the contents after the second list, from the contents after the first. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A property of every element of every list holds of every element of the concatenation. -/
theorem forall_flatten {α : Type} {p : α → Prop} (ls : List (List α)) (h : ls.Forall fun l => l.Forall p) : ls.flatten.Forall p :=
  List.forall_iff_forall_mem.2 fun x hx => by
    obtain ⟨l, hl, hxl⟩ := List.mem_flatten.1 hx
    exact List.forall_iff_forall_mem.1 (List.forall_iff_forall_mem.1 h l hl) x hxl

theorem forall_append {α : Type} {p : α → Prop} {l₁ l₂ : List α} (h₁ : l₁.Forall p) (h₂ : l₂.Forall p) : (l₁ ++ l₂).Forall p :=
  List.forall_iff_forall_mem.2 fun x hx => (List.mem_append.1 hx).elim
    (List.forall_iff_forall_mem.1 h₁ x) (List.forall_iff_forall_mem.1 h₂ x)

end General

variable {F : FTy → Type} [FloatOps F]

/-! ## The program as one list -/

/-- The stretches of the pooling stage, in program order. -/
abbrev preParts : List (List (HloOp τ sig (Elt F))) :=
  [w0_0, w0_1, w0_2, w0_3, w0_4, w1_0, w1_1, w1_2, w1_3, w1_4, w1_5, w1_6, w1_7, w1_8, w1_9, w1_10, w1_11, w1_12, w2_0, w2_1, w2_2]

/-- The stretches of the three dense layers, in program order. -/
abbrev tailParts : List (List (HloOp τ sig (Elt F))) :=
  [fc1, relu1, fc2, relu2, heads]

/-- The pooling stage: every operation up to and including the reshape of the pooled features to [128, 12544]. -/
abbrev pre : List (HloOp τ sig (Elt F)) := List.flatten preParts

/-- The three dense layers: everything after the pooled features. -/
abbrev tail : List (HloOp τ sig (Elt F)) := List.flatten tailParts

/-- The whole reference program. -/
abbrev ops : List (HloOp τ sig (Elt F)) := pre ++ tail

theorem ops_eq : (ops : List (HloOp τ sig (Elt F))) = pre ++ tail := rfl

/-- The contents after the whole program are the contents after the dense layers, from the contents after pooling. -/
theorem after_ops (V : Valuation τ sig (Elt F)) :
    StableHlo.after ops V = StableHlo.after tail (StableHlo.after pre V) := after_append pre tail V

/-! ## The program text is the sequence of these operations -/

/-- The first window of the program text is its five stretches in order. -/
theorem main_part0_chain (c : Dev nD) : main_part0 (F := F) c = (Pipeline.chainK
  [ StableHlo.seq w0_0,
    StableHlo.seq w0_1,
    StableHlo.seq w0_2,
    StableHlo.seq w0_3 ]
  (StableHlo.seq w0_4) : Prog (TpuEff nD τ sig (Elt F) (Pipeline.Sig Λ₀ (Fin 0) fun p => (pcfgs (F := F) p).Adm) .tc) PUnit) := by
  chain_rfl

/-- The second window of the program text is its thirteen stretches in order. -/
theorem main_part1_chain (c : Dev nD) : main_part1 (F := F) c = (Pipeline.chainK
  [ StableHlo.seq w1_0,
    StableHlo.seq w1_1,
    StableHlo.seq w1_2,
    StableHlo.seq w1_3,
    StableHlo.seq w1_4,
    StableHlo.seq w1_5,
    StableHlo.seq w1_6,
    StableHlo.seq w1_7,
    StableHlo.seq w1_8,
    StableHlo.seq w1_9,
    StableHlo.seq w1_10,
    StableHlo.seq w1_11 ]
  (StableHlo.seq w1_12) : Prog (TpuEff nD τ sig (Elt F) (Pipeline.Sig Λ₀ (Fin 0) fun p => (pcfgs (F := F) p).Adm) .tc) PUnit) := by
  chain_rfl

/-- The last window of the program text is its eight stretches in order. -/
theorem main_part2_chain (c : Dev nD) : main_part2 (F := F) c = (Pipeline.chain
  [ StableHlo.seq w2_0,
    StableHlo.seq w2_1,
    StableHlo.seq w2_2,
    StableHlo.seq fc1,
    StableHlo.seq relu1,
    StableHlo.seq fc2,
    StableHlo.seq relu2,
    StableHlo.seq heads ] : Prog (TpuEff nD τ sig (Elt F) (Pipeline.Sig Λ₀ (Fin 0) fun p => (pcfgs (F := F) p).Adm) .tc) PUnit) := by
  chain_rfl

/-- The whole program text is the chain of all twenty-six stretches. -/
theorem main_chain (c : Dev nD) : main (F := F) c = (Pipeline.chain
  [ StableHlo.seq w0_0,
    StableHlo.seq w0_1,
    StableHlo.seq w0_2,
    StableHlo.seq w0_3,
    StableHlo.seq w0_4,
    StableHlo.seq w1_0,
    StableHlo.seq w1_1,
    StableHlo.seq w1_2,
    StableHlo.seq w1_3,
    StableHlo.seq w1_4,
    StableHlo.seq w1_5,
    StableHlo.seq w1_6,
    StableHlo.seq w1_7,
    StableHlo.seq w1_8,
    StableHlo.seq w1_9,
    StableHlo.seq w1_10,
    StableHlo.seq w1_11,
    StableHlo.seq w1_12,
    StableHlo.seq w2_0,
    StableHlo.seq w2_1,
    StableHlo.seq w2_2,
    StableHlo.seq fc1,
    StableHlo.seq relu1,
    StableHlo.seq fc2,
    StableHlo.seq relu2,
    StableHlo.seq heads ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The whole program text is the sequence of `ops`. -/
theorem main_eq (c : Dev nD) : main (F := F) c = StableHlo.seq ops := by
  rw [main_chain c]
  have h := chain_map_seq (nD := nD) (Λ := Pipeline.Sig Λ₀ (Fin 0) fun p => (pcfgs (F := F) p).Adm)
    ((preParts ++ tailParts : List (List (HloOp τ sig (Elt F)))))
  rw [List.flatten_append] at h
  exact h

/-! ## Every operation touches TensorCore references only, and none allocates -/

theorem pre_sub : (pre : List (HloOp τ sig (Elt F))).Forall fun op => op.bufs ⊆ StableHlo.tcRefs τ sig :=
  forall_flatten preParts ⟨w0_0_sub, w0_1_sub, w0_2_sub, w0_3_sub, w0_4_sub, w1_0_sub, w1_1_sub, w1_2_sub, w1_3_sub, w1_4_sub, w1_5_sub, w1_6_sub, w1_7_sub, w1_8_sub, w1_9_sub, w1_10_sub, w1_11_sub, w1_12_sub, w2_0_sub, w2_1_sub, w2_2_sub⟩

theorem tail_sub : (tail : List (HloOp τ sig (Elt F))).Forall fun op => op.bufs ⊆ StableHlo.tcRefs τ sig :=
  forall_flatten tailParts ⟨fc1_sub, relu1_sub, fc2_sub, relu2_sub, heads_sub⟩

theorem ops_sub : (ops : List (HloOp τ sig (Elt F))).Forall fun op => op.bufs ⊆ StableHlo.tcRefs τ sig :=
  forall_append pre_sub tail_sub

theorem w0_0_fresh : (w0_0 : List (HloOp τ sig (Elt F))).Forall fun op => op.fresh = ∅ := by
  simp only [List.Forall]; repeat' constructor
theorem w0_1_fresh : (w0_1 : List (HloOp τ sig (Elt F))).Forall fun op => op.fresh = ∅ := by
  simp only [List.Forall]; repeat' constructor
theorem w0_2_fresh : (w0_2 : List (HloOp τ sig (Elt F))).Forall fun op => op.fresh = ∅ := by
  simp only [List.Forall]; repeat' constructor
theorem w0_3_fresh : (w0_3 : List (HloOp τ sig (Elt F))).Forall fun op => op.fresh = ∅ := by
  simp only [List.Forall]; repeat' constructor
theorem w0_4_fresh : (w0_4 : List (HloOp τ sig (Elt F))).Forall fun op => op.fresh = ∅ := by
  simp only [List.Forall]; repeat' constructor
theorem w1_0_fresh : (w1_0 : List (HloOp τ sig (Elt F))).Forall fun op => op.fresh = ∅ := by
  simp only [List.Forall]; repeat' constructor
theorem w1_1_fresh : (w1_1 : List (HloOp τ sig (Elt F))).Forall fun op => op.fresh = ∅ := by
  simp only [List.Forall]; repeat' constructor
theorem w1_2_fresh : (w1_2 : List (HloOp τ sig (Elt F))).Forall fun op => op.fresh = ∅ := by
  simp only [List.Forall]; repeat' constructor
theorem w1_3_fresh : (w1_3 : List (HloOp τ sig (Elt F))).Forall fun op => op.fresh = ∅ := by
  simp only [List.Forall]; repeat' constructor
theorem w1_4_fresh : (w1_4 : List (HloOp τ sig (Elt F))).Forall fun op => op.fresh = ∅ := by
  simp only [List.Forall]; repeat' constructor
theorem w1_5_fresh : (w1_5 : List (HloOp τ sig (Elt F))).Forall fun op => op.fresh = ∅ := by
  simp only [List.Forall]; repeat' constructor
theorem w1_6_fresh : (w1_6 : List (HloOp τ sig (Elt F))).Forall fun op => op.fresh = ∅ := by
  simp only [List.Forall]; repeat' constructor
theorem w1_7_fresh : (w1_7 : List (HloOp τ sig (Elt F))).Forall fun op => op.fresh = ∅ := by
  simp only [List.Forall]; repeat' constructor
theorem w1_8_fresh : (w1_8 : List (HloOp τ sig (Elt F))).Forall fun op => op.fresh = ∅ := by
  simp only [List.Forall]; repeat' constructor
theorem w1_9_fresh : (w1_9 : List (HloOp τ sig (Elt F))).Forall fun op => op.fresh = ∅ := by
  simp only [List.Forall]; repeat' constructor
theorem w1_10_fresh : (w1_10 : List (HloOp τ sig (Elt F))).Forall fun op => op.fresh = ∅ := by
  simp only [List.Forall]; repeat' constructor
theorem w1_11_fresh : (w1_11 : List (HloOp τ sig (Elt F))).Forall fun op => op.fresh = ∅ := by
  simp only [List.Forall]; repeat' constructor
theorem w1_12_fresh : (w1_12 : List (HloOp τ sig (Elt F))).Forall fun op => op.fresh = ∅ := by
  simp only [List.Forall]; repeat' constructor
theorem w2_0_fresh : (w2_0 : List (HloOp τ sig (Elt F))).Forall fun op => op.fresh = ∅ := by
  simp only [List.Forall]; repeat' constructor
theorem w2_1_fresh : (w2_1 : List (HloOp τ sig (Elt F))).Forall fun op => op.fresh = ∅ := by
  simp only [List.Forall]; repeat' constructor
theorem w2_2_fresh : (w2_2 : List (HloOp τ sig (Elt F))).Forall fun op => op.fresh = ∅ := by
  simp only [List.Forall]; repeat' constructor
theorem fc1_fresh : (fc1 : List (HloOp τ sig (Elt F))).Forall fun op => op.fresh = ∅ := by
  simp only [List.Forall]; repeat' constructor
theorem relu1_fresh : (relu1 : List (HloOp τ sig (Elt F))).Forall fun op => op.fresh = ∅ := by
  simp only [List.Forall]; repeat' constructor
theorem fc2_fresh : (fc2 : List (HloOp τ sig (Elt F))).Forall fun op => op.fresh = ∅ := by
  simp only [List.Forall]; repeat' constructor
theorem relu2_fresh : (relu2 : List (HloOp τ sig (Elt F))).Forall fun op => op.fresh = ∅ := by
  simp only [List.Forall]; repeat' constructor
theorem heads_fresh : (heads : List (HloOp τ sig (Elt F))).Forall fun op => op.fresh = ∅ := by
  simp only [List.Forall]; repeat' constructor

theorem pre_fresh : (pre : List (HloOp τ sig (Elt F))).Forall fun op => op.fresh = ∅ :=
  forall_flatten preParts ⟨w0_0_fresh, w0_1_fresh, w0_2_fresh, w0_3_fresh, w0_4_fresh, w1_0_fresh, w1_1_fresh, w1_2_fresh, w1_3_fresh, w1_4_fresh, w1_5_fresh, w1_6_fresh, w1_7_fresh, w1_8_fresh, w1_9_fresh, w1_10_fresh, w1_11_fresh, w1_12_fresh, w2_0_fresh, w2_1_fresh, w2_2_fresh⟩

theorem tail_fresh : (tail : List (HloOp τ sig (Elt F))).Forall fun op => op.fresh = ∅ :=
  forall_flatten tailParts ⟨fc1_fresh, relu1_fresh, fc2_fresh, relu2_fresh, heads_fresh⟩

/-- No operation of the program allocates a buffer. -/
theorem ops_fresh : ∀ op ∈ (ops : List (HloOp τ sig (Elt F))), op.fresh = ∅ :=
  List.forall_iff_forall_mem.1 (forall_append pre_fresh tail_fresh)

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    program terminates, and every TensorCore buffer ends at the fold of the operations' results over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ
    (hfresh := fun _ => ops_fresh)

end Cert.ReferenceIdeal.Hand

end
-- ==== Proof.RefTail.lean ====
/-
  The reference program's arguments are never written, and its two results are pure terms of the pooled features and
  the weights.

  The dense layers are written out as functions: a layer is the product of its input with the transposed weight plus
  the bias broadcast over the rows; the first two are followed by a maximum with zero; the class scores are the third
  layer with the [21, 4096] weight, the box deltas the third layer with the [84, 4096] weight, reshaped row-major to
  [128, 21, 4]. The contents of the two result buffers after the dense layers' operations are these functions of the
  contents, before those operations, of the pooled features' buffer and the eight weight and bias arguments.
-/
import proofs.«111165_j61984968016074_1_alg».proof.Proof.RefRun

set_option maxRecDepth 1584

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

/-! ## The arguments are never written -/

/-- The program's ten argument references. -/
abbrev argRefs : List (Ref sig .tc) :=
  [main_arg0, main_arg1, main_arg2, main_arg3, main_arg4, main_arg5, main_arg6, main_arg7, main_arg8, main_arg9]

theorem w0_0_args (r : Ref sig .tc) (hr : r ∈ argRefs) :
    (w0_0 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w0_1_args (r : Ref sig .tc) (hr : r ∈ argRefs) :
    (w0_1 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w0_2_args (r : Ref sig .tc) (hr : r ∈ argRefs) :
    (w0_2 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w0_3_args (r : Ref sig .tc) (hr : r ∈ argRefs) :
    (w0_3 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w0_4_args (r : Ref sig .tc) (hr : r ∈ argRefs) :
    (w0_4 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_0_args (r : Ref sig .tc) (hr : r ∈ argRefs) :
    (w1_0 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_1_args (r : Ref sig .tc) (hr : r ∈ argRefs) :
    (w1_1 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_2_args (r : Ref sig .tc) (hr : r ∈ argRefs) :
    (w1_2 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_3_args (r : Ref sig .tc) (hr : r ∈ argRefs) :
    (w1_3 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_4_args (r : Ref sig .tc) (hr : r ∈ argRefs) :
    (w1_4 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_5_args (r : Ref sig .tc) (hr : r ∈ argRefs) :
    (w1_5 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_6_args (r : Ref sig .tc) (hr : r ∈ argRefs) :
    (w1_6 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_7_args (r : Ref sig .tc) (hr : r ∈ argRefs) :
    (w1_7 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_8_args (r : Ref sig .tc) (hr : r ∈ argRefs) :
    (w1_8 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_9_args (r : Ref sig .tc) (hr : r ∈ argRefs) :
    (w1_9 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_10_args (r : Ref sig .tc) (hr : r ∈ argRefs) :
    (w1_10 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_11_args (r : Ref sig .tc) (hr : r ∈ argRefs) :
    (w1_11 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w1_12_args (r : Ref sig .tc) (hr : r ∈ argRefs) :
    (w1_12 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w2_0_args (r : Ref sig .tc) (hr : r ∈ argRefs) :
    (w2_0 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w2_1_args (r : Ref sig .tc) (hr : r ∈ argRefs) :
    (w2_1 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem w2_2_args (r : Ref sig .tc) (hr : r ∈ argRefs) :
    (w2_2 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem fc1_args (r : Ref sig .tc) (hr : r ∈ argRefs) :
    (fc1 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem relu1_args (r : Ref sig .tc) (hr : r ∈ argRefs) :
    (relu1 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem fc2_args (r : Ref sig .tc) (hr : r ∈ argRefs) :
    (fc2 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem relu2_args (r : Ref sig .tc) (hr : r ∈ argRefs) :
    (relu2 : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)
theorem heads_args (r : Ref sig .tc) (hr : r ∈ argRefs) :
    (heads : List (HloOp τ sig (Elt F))).Forall fun op => Proc.devRef (τ := τ) .tc r ∉ op.writes := by
  simp only [argRefs, List.mem_cons, List.not_mem_nil, or_false] at hr
  rcases hr with rfl | rfl | rfl | rfl | rfl | rfl | rfl | rfl | rfl | rfl <;>
  · simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No operation of the pooling stage writes an argument. -/
theorem pre_args (r : Ref sig .tc) (hr : r ∈ argRefs) :
    (pre : List (HloOp τ sig (Elt F))).Forall fun op => Proc.devRef (τ := τ) .tc r ∉ op.writes :=
  forall_flatten preParts ⟨w0_0_args r hr, w0_1_args r hr, w0_2_args r hr, w0_3_args r hr, w0_4_args r hr, w1_0_args r hr, w1_1_args r hr, w1_2_args r hr, w1_3_args r hr, w1_4_args r hr, w1_5_args r hr, w1_6_args r hr, w1_7_args r hr, w1_8_args r hr, w1_9_args r hr, w1_10_args r hr, w1_11_args r hr, w1_12_args r hr, w2_0_args r hr, w2_1_args r hr, w2_2_args r hr⟩

/-- No operation of the dense layers writes an argument. -/
theorem tail_args (r : Ref sig .tc) (hr : r ∈ argRefs) :
    (tail : List (HloOp τ sig (Elt F))).Forall fun op => Proc.devRef (τ := τ) .tc r ∉ op.writes :=
  forall_flatten tailParts ⟨fc1_args r hr, relu1_args r hr, fc2_args r hr, relu2_args r hr, heads_args r hr⟩

/-- An argument keeps its contents through the pooling stage. -/
theorem pre_arg (r : Ref sig .tc) (hr : r ∈ argRefs) (V : Valuation τ sig (Elt F)) :
    StableHlo.after pre V (Proc.devRef .tc r) = V (Proc.devRef .tc r) :=
  StableHlo.after_of_forall_not_mem pre V (List.forall_iff_forall_mem.1 (pre_args r hr))

/-- An argument keeps its contents through the dense layers. -/
theorem tail_arg (r : Ref sig .tc) (hr : r ∈ argRefs) (V : Valuation τ sig (Elt F)) :
    StableHlo.after tail V (Proc.devRef .tc r) = V (Proc.devRef .tc r) :=
  StableHlo.after_of_forall_not_mem tail V (List.forall_iff_forall_mem.1 (tail_args r hr))

/-- An argument keeps its contents through the whole program. -/
theorem ops_arg (r : Ref sig .tc) (hr : r ∈ argRefs) (V : Valuation τ sig (Elt F)) :
    StableHlo.after ops V (Proc.devRef .tc r) = V (Proc.devRef .tc r) :=
  StableHlo.after_of_forall_not_mem ops V (List.forall_iff_forall_mem.1 (forall_append (pre_args r hr) (tail_args r hr)))

theorem pre_arg0 (V : Valuation τ sig (Elt F)) :
    StableHlo.after pre V (Proc.devRef .tc main_arg0) = V (Proc.devRef .tc main_arg0) := pre_arg main_arg0 (by decide) V
theorem tail_arg0 (V : Valuation τ sig (Elt F)) :
    StableHlo.after tail V (Proc.devRef .tc main_arg0) = V (Proc.devRef .tc main_arg0) := tail_arg main_arg0 (by decide) V
theorem ops_arg0 (V : Valuation τ sig (Elt F)) :
    StableHlo.after ops V (Proc.devRef .tc main_arg0) = V (Proc.devRef .tc main_arg0) := ops_arg main_arg0 (by decide) V
theorem pre_arg1 (V : Valuation τ sig (Elt F)) :
    StableHlo.after pre V (Proc.devRef .tc main_arg1) = V (Proc.devRef .tc main_arg1) := pre_arg main_arg1 (by decide) V
theorem tail_arg1 (V : Valuation τ sig (Elt F)) :
    StableHlo.after tail V (Proc.devRef .tc main_arg1) = V (Proc.devRef .tc main_arg1) := tail_arg main_arg1 (by decide) V
theorem ops_arg1 (V : Valuation τ sig (Elt F)) :
    StableHlo.after ops V (Proc.devRef .tc main_arg1) = V (Proc.devRef .tc main_arg1) := ops_arg main_arg1 (by decide) V
theorem pre_arg2 (V : Valuation τ sig (Elt F)) :
    StableHlo.after pre V (Proc.devRef .tc main_arg2) = V (Proc.devRef .tc main_arg2) := pre_arg main_arg2 (by decide) V
theorem tail_arg2 (V : Valuation τ sig (Elt F)) :
    StableHlo.after tail V (Proc.devRef .tc main_arg2) = V (Proc.devRef .tc main_arg2) := tail_arg main_arg2 (by decide) V
theorem ops_arg2 (V : Valuation τ sig (Elt F)) :
    StableHlo.after ops V (Proc.devRef .tc main_arg2) = V (Proc.devRef .tc main_arg2) := ops_arg main_arg2 (by decide) V
theorem pre_arg3 (V : Valuation τ sig (Elt F)) :
    StableHlo.after pre V (Proc.devRef .tc main_arg3) = V (Proc.devRef .tc main_arg3) := pre_arg main_arg3 (by decide) V
theorem tail_arg3 (V : Valuation τ sig (Elt F)) :
    StableHlo.after tail V (Proc.devRef .tc main_arg3) = V (Proc.devRef .tc main_arg3) := tail_arg main_arg3 (by decide) V
theorem ops_arg3 (V : Valuation τ sig (Elt F)) :
    StableHlo.after ops V (Proc.devRef .tc main_arg3) = V (Proc.devRef .tc main_arg3) := ops_arg main_arg3 (by decide) V
theorem pre_arg4 (V : Valuation τ sig (Elt F)) :
    StableHlo.after pre V (Proc.devRef .tc main_arg4) = V (Proc.devRef .tc main_arg4) := pre_arg main_arg4 (by decide) V
theorem tail_arg4 (V : Valuation τ sig (Elt F)) :
    StableHlo.after tail V (Proc.devRef .tc main_arg4) = V (Proc.devRef .tc main_arg4) := tail_arg main_arg4 (by decide) V
theorem ops_arg4 (V : Valuation τ sig (Elt F)) :
    StableHlo.after ops V (Proc.devRef .tc main_arg4) = V (Proc.devRef .tc main_arg4) := ops_arg main_arg4 (by decide) V
theorem pre_arg5 (V : Valuation τ sig (Elt F)) :
    StableHlo.after pre V (Proc.devRef .tc main_arg5) = V (Proc.devRef .tc main_arg5) := pre_arg main_arg5 (by decide) V
theorem tail_arg5 (V : Valuation τ sig (Elt F)) :
    StableHlo.after tail V (Proc.devRef .tc main_arg5) = V (Proc.devRef .tc main_arg5) := tail_arg main_arg5 (by decide) V
theorem ops_arg5 (V : Valuation τ sig (Elt F)) :
    StableHlo.after ops V (Proc.devRef .tc main_arg5) = V (Proc.devRef .tc main_arg5) := ops_arg main_arg5 (by decide) V
theorem pre_arg6 (V : Valuation τ sig (Elt F)) :
    StableHlo.after pre V (Proc.devRef .tc main_arg6) = V (Proc.devRef .tc main_arg6) := pre_arg main_arg6 (by decide) V
theorem tail_arg6 (V : Valuation τ sig (Elt F)) :
    StableHlo.after tail V (Proc.devRef .tc main_arg6) = V (Proc.devRef .tc main_arg6) := tail_arg main_arg6 (by decide) V
theorem ops_arg6 (V : Valuation τ sig (Elt F)) :
    StableHlo.after ops V (Proc.devRef .tc main_arg6) = V (Proc.devRef .tc main_arg6) := ops_arg main_arg6 (by decide) V
theorem pre_arg7 (V : Valuation τ sig (Elt F)) :
    StableHlo.after pre V (Proc.devRef .tc main_arg7) = V (Proc.devRef .tc main_arg7) := pre_arg main_arg7 (by decide) V
theorem tail_arg7 (V : Valuation τ sig (Elt F)) :
    StableHlo.after tail V (Proc.devRef .tc main_arg7) = V (Proc.devRef .tc main_arg7) := tail_arg main_arg7 (by decide) V
theorem ops_arg7 (V : Valuation τ sig (Elt F)) :
    StableHlo.after ops V (Proc.devRef .tc main_arg7) = V (Proc.devRef .tc main_arg7) := ops_arg main_arg7 (by decide) V
theorem pre_arg8 (V : Valuation τ sig (Elt F)) :
    StableHlo.after pre V (Proc.devRef .tc main_arg8) = V (Proc.devRef .tc main_arg8) := pre_arg main_arg8 (by decide) V
theorem tail_arg8 (V : Valuation τ sig (Elt F)) :
    StableHlo.after tail V (Proc.devRef .tc main_arg8) = V (Proc.devRef .tc main_arg8) := tail_arg main_arg8 (by decide) V
theorem ops_arg8 (V : Valuation τ sig (Elt F)) :
    StableHlo.after ops V (Proc.devRef .tc main_arg8) = V (Proc.devRef .tc main_arg8) := ops_arg main_arg8 (by decide) V
theorem pre_arg9 (V : Valuation τ sig (Elt F)) :
    StableHlo.after pre V (Proc.devRef .tc main_arg9) = V (Proc.devRef .tc main_arg9) := pre_arg main_arg9 (by decide) V
theorem tail_arg9 (V : Valuation τ sig (Elt F)) :
    StableHlo.after tail V (Proc.devRef .tc main_arg9) = V (Proc.devRef .tc main_arg9) := tail_arg main_arg9 (by decide) V
theorem ops_arg9 (V : Valuation τ sig (Elt F)) :
    StableHlo.after ops V (Proc.devRef .tc main_arg9) = V (Proc.devRef .tc main_arg9) := ops_arg main_arg9 (by decide) V

/-! ## The dense layers as functions -/

/-- The maximum with zero, entry by entry, of a [128, 4096] array. -/
def refRelu (Z : FVec F S128x4096 .f32) : FVec F S128x4096 .f32 :=
  maximumf Z (broadcastInDim S128x4096 ![] bcast_S_S128x4096 (constant (F := F) S_ .f32 0x00000000#32))

/-- The first layer before its maximum: the pooled features times the transposed [4096, 12544] weight, plus the bias
    broadcast over the 128 rows. -/
def refFc1 (X : FVec F S128x12544 .f32) (W1 : FVec F S4096x12544 .f32) (b1 : FVec F S4096 .f32) : FVec F S128x4096 .f32 :=
  addf (Host.dotGeneral dot_S128x12544_S12544x4096_S128x4096_1_0_0_1_n_n none X
      (transpose S12544x4096 [1, 0] W1 transposes_S4096x12544_S12544x4096_1_0))
    (broadcastInDim S128x4096 ![0, 1] bcast_S1x4096_S128x4096_0_1 (broadcastInDim S1x4096 ![1] bcast_S4096_S1x4096_1 b1))

/-- The second layer before its maximum: its input times the transposed [4096, 4096] weight, plus the bias. -/
def refFc2 (H : FVec F S128x4096 .f32) (W2 : FVec F S4096x4096 .f32) (b2 : FVec F S4096 .f32) : FVec F S128x4096 .f32 :=
  addf (Host.dotGeneral dot_S128x4096_S4096x4096_S128x4096_1_0_0_1_n_n none H
      (transpose S4096x4096 [1, 0] W2 transposes_S4096x4096_S4096x4096_1_0))
    (broadcastInDim S128x4096 ![0, 1] bcast_S1x4096_S128x4096_0_1 (broadcastInDim S1x4096 ![1] bcast_S4096_S1x4096_1 b2))

/-- The class-score head: its input times the transposed [21, 4096] weight, plus the bias. -/
def refCls (H : FVec F S128x4096 .f32) (Wc : FVec F S21x4096 .f32) (bc : FVec F S21 .f32) : FVec F S128x21 .f32 :=
  addf (Host.dotGeneral dot_S128x4096_S4096x21_S128x21_1_0_0_1_n_n none H
      (transpose S4096x21 [1, 0] Wc transposes_S21x4096_S4096x21_1_0))
    (broadcastInDim S128x21 ![0, 1] bcast_S1x21_S128x21_0_1 (broadcastInDim S1x21 ![1] bcast_S21_S1x21_1 bc))

/-- The box-delta head before its reshape: its input times the transposed [84, 4096] weight, plus the bias. -/
def refReg (H : FVec F S128x4096 .f32) (Wr : FVec F S84x4096 .f32) (br : FVec F S84 .f32) : FVec F S128x84 .f32 :=
  addf (Host.dotGeneral dot_S128x4096_S4096x84_S128x84_1_0_0_1_n_n none H
      (transpose S4096x84 [1, 0] Wr transposes_S84x4096_S4096x84_1_0))
    (broadcastInDim S128x84 ![0, 1] bcast_S1x84_S128x84_0_1 (broadcastInDim S1x84 ![1] bcast_S84_S1x84_1 br))

/-- The first hidden layer: the maximum with zero of the first layer. -/
def refH1 (X : FVec F S128x12544 .f32) (W1 : FVec F S4096x12544 .f32) (b1 : FVec F S4096 .f32) : FVec F S128x4096 .f32 :=
  refRelu (refFc1 X W1 b1)

/-- The second hidden layer: the maximum with zero of the second layer of the first hidden layer. -/
def refH2 (X : FVec F S128x12544 .f32) (W1 : FVec F S4096x12544 .f32) (b1 : FVec F S4096 .f32)
    (W2 : FVec F S4096x4096 .f32) (b2 : FVec F S4096 .f32) : FVec F S128x4096 .f32 :=
  refRelu (refFc2 (refH1 X W1 b1) W2 b2)

/-- The class scores [128, 21]. -/
def refLabel (X : FVec F S128x12544 .f32) (W1 : FVec F S4096x12544 .f32) (b1 : FVec F S4096 .f32)
    (W2 : FVec F S4096x4096 .f32) (b2 : FVec F S4096 .f32) (Wc : FVec F S21x4096 .f32) (bc : FVec F S21 .f32) : FVec F S128x21 .f32 :=
  refCls (refH2 X W1 b1 W2 b2) Wc bc

/-- The box deltas [128, 21, 4]: the [128, 84] head reshaped row-major. -/
def refDeltas (X : FVec F S128x12544 .f32) (W1 : FVec F S4096x12544 .f32) (b1 : FVec F S4096 .f32)
    (W2 : FVec F S4096x4096 .f32) (b2 : FVec F S4096 .f32) (Wr : FVec F S84x4096 .f32) (br : FVec F S84 .f32) : FVec F S128x21x4 .f32 :=
  shapeCast S128x21x4 (refReg (refH2 X W1 b1 W2 b2) Wr br) shapeCasts_S128x84_S128x21x4

/-! ## The two results after the dense layers -/

/-- The class scores' buffer after the dense layers, from any contents. -/
theorem tail_label (U : Valuation τ sig (Elt F)) :
    StableHlo.after tail U (Proc.devRef .tc main_v120)
      = refLabel (U (Proc.devRef .tc main_v103)) (U (Proc.devRef .tc main_arg2)) (U (Proc.devRef .tc main_arg3))
          (U (Proc.devRef .tc main_arg4)) (U (Proc.devRef .tc main_arg5)) (U (Proc.devRef .tc main_arg6))
          (U (Proc.devRef .tc main_arg7)) := by
  simp only [tail, tailParts, fc1, relu1, fc2, relu2, heads, List.flatten_cons, List.flatten_nil, List.append_nil,
    List.cons_append, List.nil_append]
  after_results_simp
  rfl

/-- The box deltas' buffer after the dense layers, from any contents. -/
theorem tail_deltas (U : Valuation τ sig (Elt F)) :
    StableHlo.after tail U (Proc.devRef .tc main_v126)
      = refDeltas (U (Proc.devRef .tc main_v103)) (U (Proc.devRef .tc main_arg2)) (U (Proc.devRef .tc main_arg3))
          (U (Proc.devRef .tc main_arg4)) (U (Proc.devRef .tc main_arg5)) (U (Proc.devRef .tc main_arg8))
          (U (Proc.devRef .tc main_arg9)) := by
  simp only [tail, tailParts, fc1, relu1, fc2, relu2, heads, List.flatten_cons, List.flatten_nil, List.append_nil,
    List.cons_append, List.nil_append]
  after_results_simp
  rfl

end Cert.ReferenceIdeal.Hand

end
-- ==== Proof.RefRead.lean ====
/-
  The reference's two results, at the ideal values (extended reals), are the detection head's plain sums.

  A dense layer — the product of its input with the transposed weight, plus the bias broadcast over the rows — read at
  entry (i, j) is the sum over the contracted coordinate k of input (i, k) times weight (j, k), plus bias j. The two
  hidden layers are the maximum of that with the float zero; the class scores are the third such sum with the
  [21, 4096] weight; the box deltas at (i, c, d) are the third such sum with the [84, 4096] weight at row 4 c + d, the
  reshape of [128, 84] to [128, 21, 4] being row-major. Hence the two result buffers after the dense layers'
  operations hold the head's class scores and box deltas of the pooled features' buffer and the weight arguments.
-/
import proofs.«111165_j61984968016074_1_alg».proof.Proof.RefTail
import proofs.«111165_j61984968016074_1_alg».proof.Proof.HeadSpec
import Idealize.ShloMosaic.Lib.StackMember
import Idealize.ShloMosaic.Lib.ValueLayout
import Idealize.ShloMosaic.Lib.IdealHost

noncomputable section

namespace Cert.ReferenceIdeal.Hand

open Idealize.ShloMosaic Idealize.ShloMosaic.ValueIdx Idealize.ShloMosaic.TcCoe
open Idealize.SL Idealize.SL.Sem
open Cert.ReferenceIdeal Cert.ReferenceIdeal.Gen
open scoped BigOperators

/-! ## One dense layer at an index -/

/-- A bias [n] broadcast to one row [1, n] and then over m rows [m, n], read at (i, j), is the bias at j. -/
theorem bias_apply {m n : Nat} (hn : n ≠ 1)
    (hb1 : (⟨1, ![n]⟩ : Shape).BroadcastsInDim ⟨2, ![1, n]⟩ ![1])
    (hb2 : (⟨2, ![1, n]⟩ : Shape).BroadcastsInDim ⟨2, ![m, n]⟩ ![0, 1])
    (b : FVec Ideal ⟨1, ![n]⟩ .f32) (i : Fin m) (j : Fin n) :
    broadcastInDim ⟨2, ![m, n]⟩ ![0, 1] hb2 (broadcastInDim ⟨2, ![1, n]⟩ ![1] hb1 b) (ix2 i j) = b (ix1 j) := by
  refine (broadcastInDim_apply ![0, 1] hb2 _ (ix2 i j) (ix2 (0 : Fin 1) j) fun a => ?_).trans
    (broadcastInDim_apply ![1] hb1 b (ix2 (0 : Fin 1) j) (ix1 j) fun a => ?_)
  · match a with
    | ⟨0, _⟩ => exact (if_pos rfl).symm
    | ⟨1, _⟩ => exact (if_neg hn).symm
  · match a with
    | ⟨0, _⟩ => exact (if_neg hn).symm

/-- A dense layer read at (i, j): the sum over the contracted coordinate of input times weight, plus the bias. -/
theorem dense_apply {m k n : Nat} (hn : n ≠ 1)
    (D : DotDims ⟨2, ![m, k]⟩ ⟨2, ![k, n]⟩ ⟨2, ![m, n]⟩) (hD : D = DotDims.plain m k n)
    (hT : (⟨2, ![n, k]⟩ : Shape).Transposes [1, 0] ⟨2, ![k, n]⟩)
    (hb1 : (⟨1, ![n]⟩ : Shape).BroadcastsInDim ⟨2, ![1, n]⟩ ![1])
    (hb2 : (⟨2, ![1, n]⟩ : Shape).BroadcastsInDim ⟨2, ![m, n]⟩ ![0, 1])
    (H : FVec Ideal ⟨2, ![m, k]⟩ .f32) (W : FVec Ideal ⟨2, ![n, k]⟩ .f32) (b : FVec Ideal ⟨1, ![n]⟩ .f32)
    (i : Fin m) (j : Fin n) :
    addf (Host.dotGeneral D none H (transpose ⟨2, ![k, n]⟩ [1, 0] W hT))
        (broadcastInDim ⟨2, ![m, n]⟩ ![0, 1] hb2 (broadcastInDim ⟨2, ![1, n]⟩ ![1] hb1 b)) (ix2 i j)
      = ∑ c : Fin k, H (ix2 i c) * W (ix2 j c) + b (ix1 j) := by
  subst hD
  rw [addf_apply, bias_apply hn hb1 hb2 b i j, StackMember.dotGeneral_plain_apply]
  congr 1
  exact Finset.sum_congr rfl fun c _ => congrArg (H (ix2 i c) * ·) (transpose_ix2_apply W hT c j)

/-- The maximum with zero read at an entry: the maximum with the float zero as printed. -/
theorem refRelu_apply (Z : FVec Ideal S128x4096 .f32) (i : Fin 128) (j : Fin 4096) :
    refRelu Z (ix2 i j) = max (Z (ix2 i j)) Cert.Head.zero := by
  unfold refRelu
  rw [maximumf_apply, broadcastInDim_scalar_apply, constant_apply]

/-! ## The layers at an index -/

/-- Entry (i, j) of the first hidden layer. -/
theorem refH1_apply (X : FVec Ideal S128x12544 .f32) (W1 : FVec Ideal S4096x12544 .f32) (b1 : FVec Ideal S4096 .f32)
    (i : Fin 128) (j : Fin 4096) : refH1 X W1 b1 (ix2 i j) = Cert.Head.h1 X W1 b1 i j := by
  unfold refH1 Cert.Head.h1
  rw [refRelu_apply]
  unfold refFc1
  exact congrArg (max · Cert.Head.zero)
    (dense_apply (m := 128) (k := 12544) (n := 4096) (by decide) _ rfl _ _ _ X W1 b1 i j)

/-- Entry (i, j) of the second hidden layer. -/
theorem refH2_apply (X : FVec Ideal S128x12544 .f32) (W1 : FVec Ideal S4096x12544 .f32) (b1 : FVec Ideal S4096 .f32)
    (W2 : FVec Ideal S4096x4096 .f32) (b2 : FVec Ideal S4096 .f32) (i : Fin 128) (j : Fin 4096) :
    refH2 X W1 b1 W2 b2 (ix2 i j) = Cert.Head.h2 (Cert.Head.h1 X W1 b1) W2 b2 i j := by
  unfold refH2 Cert.Head.h2
  rw [refRelu_apply]
  unfold refFc2
  refine congrArg (max · Cert.Head.zero)
    ((dense_apply (m := 128) (k := 4096) (n := 4096) (by decide) _ rfl _ _ _ _ W2 b2 i j).trans ?_)
  congr 1
  exact Finset.sum_congr rfl fun c _ => congrArg (· * W2 (ix2 j c)) (refH1_apply X W1 b1 i c)

/-- The class scores at (i, j): the sum over the 4096 entries of the second hidden layer, plus the bias. -/
theorem refLabel_apply (X : FVec Ideal S128x12544 .f32) (W1 : FVec Ideal S4096x12544 .f32) (b1 : FVec Ideal S4096 .f32)
    (W2 : FVec Ideal S4096x4096 .f32) (b2 : FVec Ideal S4096 .f32) (Wc : FVec Ideal S21x4096 .f32) (bc : FVec Ideal S21 .f32)
    (i : Fin 128) (j : Fin 21) :
    refLabel X W1 b1 W2 b2 Wc bc (ix2 i j)
      = Cert.Head.out (Cert.Head.h2 (Cert.Head.h1 X W1 b1) W2 b2) Wc bc i j := by
  unfold refLabel refCls Cert.Head.out
  refine (dense_apply (m := 128) (k := 4096) (n := 21) (by decide) _ rfl _ _ _ _ Wc bc i j).trans ?_
  congr 1
  exact Finset.sum_congr rfl fun c _ => congrArg (· * Wc (ix2 j c)) (refH2_apply X W1 b1 W2 b2 i c)

/-- Row 4 c + d of the [84, …] head, for class c and coordinate d. -/
def row84 (c : Fin 21) (d : Fin 4) : Fin 84 := ⟨4 * c.val + d.val, by have := c.isLt; have := d.isLt; omega⟩

/-- The box deltas at (i, c, d): the sum over the 4096 entries of the second hidden layer with row 4 c + d of the
    [84, 4096] weight, plus entry 4 c + d of the bias. -/
theorem refDeltas_apply (X : FVec Ideal S128x12544 .f32) (W1 : FVec Ideal S4096x12544 .f32) (b1 : FVec Ideal S4096 .f32)
    (W2 : FVec Ideal S4096x4096 .f32) (b2 : FVec Ideal S4096 .f32) (Wr : FVec Ideal S84x4096 .f32) (br : FVec Ideal S84 .f32)
    (i : Fin 128) (c : Fin 21) (d : Fin 4) :
    refDeltas X W1 b1 W2 b2 Wr br (ix3 i c d)
      = Cert.Head.out (Cert.Head.h2 (Cert.Head.h1 X W1 b1) W2 b2) Wr br i (row84 c d) := by
  unfold refDeltas
  refine (shapeCast_apply _ shapeCasts_S128x84_S128x21x4 (ix3 i c d) (ix2 i (row84 c d)) ?_).trans ?_
  · rw [Shape.rowMajor_val_two, Shape.rowMajor_val_three]
    show i.val * 84 + (4 * c.val + d.val) = (i.val * 21 + c.val) * 4 + d.val
    omega
  unfold refReg Cert.Head.out
  refine (dense_apply (m := 128) (k := 4096) (n := 84) (by decide) _ rfl _ _ _ _ Wr br i (row84 c d)).trans ?_
  congr 1
  exact Finset.sum_congr rfl fun k _ => congrArg (· * Wr (ix2 (row84 c d) k)) (refH2_apply X W1 b1 W2 b2 i k)

/-! ## The two results as the head's functions -/

/-- The class scores are the head's. -/
theorem refLabel_eq (X : FVec Ideal S128x12544 .f32) (W1 : FVec Ideal S4096x12544 .f32) (b1 : FVec Ideal S4096 .f32)
    (W2 : FVec Ideal S4096x4096 .f32) (b2 : FVec Ideal S4096 .f32) (Wc : FVec Ideal S21x4096 .f32) (bc : FVec Ideal S21 .f32) :
    refLabel X W1 b1 W2 b2 Wc bc = Cert.Head.label X W1 b1 W2 b2 Wc bc := by
  funext y
  obtain ⟨i, j, rfl⟩ : ∃ (i : Fin 128) (j : Fin 21), y = ix2 i j := ⟨y 0, y 1, eq_ix2 y⟩
  exact refLabel_apply X W1 b1 W2 b2 Wc bc i j

/-- The box deltas are the head's. -/
theorem refDeltas_eq (X : FVec Ideal S128x12544 .f32) (W1 : FVec Ideal S4096x12544 .f32) (b1 : FVec Ideal S4096 .f32)
    (W2 : FVec Ideal S4096x4096 .f32) (b2 : FVec Ideal S4096 .f32) (Wr : FVec Ideal S84x4096 .f32) (br : FVec Ideal S84 .f32) :
    refDeltas X W1 b1 W2 b2 Wr br = Cert.Head.deltas X W1 b1 W2 b2 Wr br := by
  funext y
  obtain ⟨i, c, d, rfl⟩ : ∃ (i : Fin 128) (c : Fin 21) (d : Fin 4), y = ix3 i c d := ⟨y 0, y 1, y 2, eq_ix3 y⟩
  exact refDeltas_apply X W1 b1 W2 b2 Wr br i c d

/-- The class scores' buffer after the dense layers, from any contents, holds the head's class scores of the pooled
    features' buffer and the weights. -/
theorem tail_label_head (U : Valuation τ sig (Elt Ideal)) :
    StableHlo.after tail U (Proc.devRef .tc main_v120)
      = Cert.Head.label (U (Proc.devRef .tc main_v103)) (U (Proc.devRef .tc main_arg2)) (U (Proc.devRef .tc main_arg3))
          (U (Proc.devRef .tc main_arg4)) (U (Proc.devRef .tc main_arg5)) (U (Proc.devRef .tc main_arg6))
          (U (Proc.devRef .tc main_arg7)) :=
  (tail_label U).trans (refLabel_eq _ _ _ _ _ _ _)

/-- The box deltas' buffer after the dense layers, from any contents, holds the head's box deltas of the pooled
    features' buffer and the weights. -/
theorem tail_deltas_head (U : Valuation τ sig (Elt Ideal)) :
    StableHlo.after tail U (Proc.devRef .tc main_v126)
      = Cert.Head.deltas (U (Proc.devRef .tc main_v103)) (U (Proc.devRef .tc main_arg2)) (U (Proc.devRef .tc main_arg3))
          (U (Proc.devRef .tc main_arg4)) (U (Proc.devRef .tc main_arg5)) (U (Proc.devRef .tc main_arg8))
          (U (Proc.devRef .tc main_arg9)) :=
  (tail_deltas U).trans (refDeltas_eq _ _ _ _ _ _ _)

end Cert.ReferenceIdeal.Hand

end
-- ==== Proof.PoolEq.lean ====
/-
  Both programs compute the pooled features by the same operations. The reference's first 228 operations and the
  kernel program's nineteen leading stretches of host operations are, one by one, the same operation on the same
  operands: the box coordinates divided by 16 and truncated to integers, the seven row bins and seven column bins of
  each box (floor and ceiling divisions by 7), their validity masks, the gather of feature rows and the masked
  maximum over each row bin, the gather of columns and the masked maximum over each column bin, and the reshape to
  [128, 12544]. Folding each list over a memory and reading the pooled buffer gives a composition of those operations
  applied to the first two arguments alone; the two compositions are the same term, so on memories that agree on
  those two arguments the pooled features are equal. Nothing is computed: the operations are never opened.
-/
import proofs.«111165_j61984968016074_1_alg».proof.Proof.RefRun
import proofs.«111165_j61984968016074_1_alg».proof.Proof.Gen.KernelIdeal.Frame
import Idealize.ShloMosaic.PureOps.Ideal

set_option maxRecDepth 16384

noncomputable section

namespace Cert.PoolEq

open Idealize.ShloMosaic Idealize.ShloMosaic.TcCoe Idealize.SL.Sem

set_option maxHeartbeats 0 in
/-- On memories agreeing on the feature map and the boxes, the reference's pooled features are the kernel program's. -/
theorem pooled_eq (m : (ℓ : Loc Cert.KernelIdeal.nD Cert.KernelIdeal.τ Cert.KernelIdeal.sig) → Buf (Elt Ideal) ℓ) (ρ : Dev Cert.KernelIdeal.nD → PrngReg)
    (V' : Valuation Cert.ReferenceIdeal.τ Cert.ReferenceIdeal.sig (Elt Ideal)) (c : Dev Cert.KernelIdeal.nD)
    (h0 : V' (Proc.devRef .tc Cert.ReferenceIdeal.main_arg0) = m ((c : Thread Cert.KernelIdeal.nD Cert.KernelIdeal.τ).loc Cert.KernelIdeal.main_arg0))
    (h1 : V' (Proc.devRef .tc Cert.ReferenceIdeal.main_arg1) = m ((c : Thread Cert.KernelIdeal.nD Cert.KernelIdeal.τ).loc Cert.KernelIdeal.main_arg1)) :
    StableHlo.after (Cert.ReferenceIdeal.Hand.pre (F := Ideal)) V' (Proc.devRef .tc Cert.ReferenceIdeal.main_v103)
      = Cert.KernelIdeal.Gen.W19 m ρ c (Proc.devRef .tc Cert.KernelIdeal.main_v103) := by
  dsimp only [Cert.KernelIdeal.Gen.W19, Cert.KernelIdeal.Gen.W18, Cert.KernelIdeal.Gen.W17, Cert.KernelIdeal.Gen.W16, Cert.KernelIdeal.Gen.W15, Cert.KernelIdeal.Gen.W14, Cert.KernelIdeal.Gen.W13, Cert.KernelIdeal.Gen.W12, Cert.KernelIdeal.Gen.W11, Cert.KernelIdeal.Gen.W10, Cert.KernelIdeal.Gen.W9, Cert.KernelIdeal.Gen.W8, Cert.KernelIdeal.Gen.W7, Cert.KernelIdeal.Gen.W6, Cert.KernelIdeal.Gen.W5, Cert.KernelIdeal.Gen.W4, Cert.KernelIdeal.Gen.W3, Cert.KernelIdeal.Gen.W2, Cert.KernelIdeal.Gen.W1]
  simp only [Cert.ReferenceIdeal.Hand.pre, Cert.ReferenceIdeal.Hand.preParts, List.flatten_cons, List.flatten_nil, List.append_nil, List.cons_append, List.nil_append,
    Cert.ReferenceIdeal.Hand.w0_0, Cert.ReferenceIdeal.Hand.w0_1, Cert.ReferenceIdeal.Hand.w0_2, Cert.ReferenceIdeal.Hand.w0_3, Cert.ReferenceIdeal.Hand.w0_4, Cert.ReferenceIdeal.Hand.w1_0, Cert.ReferenceIdeal.Hand.w1_1, Cert.ReferenceIdeal.Hand.w1_2, Cert.ReferenceIdeal.Hand.w1_3, Cert.ReferenceIdeal.Hand.w1_4, Cert.ReferenceIdeal.Hand.w1_5, Cert.ReferenceIdeal.Hand.w1_6, Cert.ReferenceIdeal.Hand.w1_7, Cert.ReferenceIdeal.Hand.w1_8, Cert.ReferenceIdeal.Hand.w1_9, Cert.ReferenceIdeal.Hand.w1_10, Cert.ReferenceIdeal.Hand.w1_11, Cert.ReferenceIdeal.Hand.w1_12, Cert.ReferenceIdeal.Hand.w2_0, Cert.ReferenceIdeal.Hand.w2_1, Cert.ReferenceIdeal.Hand.w2_2,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp
  rw [h0, h1]
  rfl

end Cert.PoolEq

end
-- ==== Proof.lean ====
/-
  The certificate of a detection head: RoI pooling of a feature map over 128 boxes, two hidden dense layers with a
  maximum against zero, and two output heads (21 class scores and 84 box deltas per box).

  The kernel program computes the pooled features on the host exactly as the reference does, then runs three
  dense-layer kernels: each tiles the output features into column blocks, and at each block takes the product of the
  activation with the transposed weight block into a zero accumulator, adds the bias row, and (in the first two)
  takes the maximum with zero. The third kernel computes both output heads at once over the class weight stacked on
  the box weight, and the results are cut out of its 105 columns afterwards. The reference multiplies by each whole
  transposed weight, broadcasts each bias over the rows, and computes the two heads separately.

  At the exact values both programs' results are the same plain sums entry by entry (`Cert.Head.label`,
  `Cert.Head.deltas`): a change of float format is the identity, a product into a zero accumulator is the sum of the
  products, tiling the output columns does not change any entry, and stacking the two heads' weights only renumbers
  the outputs (column j < 21 is class output j; column 21 + 4·a + d is box delta (a, d)). No law beyond `0 + x = x`
  is used, so finiteness of the inputs is never needed. The pooled features are one and the same composition of
  operations of the first two arguments in both programs.

  The frames of the two kernel programs are the generated ones; the reference's is its run (the fold of its
  operations over the launch memory) read at the argument buffers, which no operation writes. The idealization
  rewrote nothing, so `preserves` is trivial.
-/
import proofs.«111165_j61984968016074_1_alg».proof.Defs
import proofs.«111165_j61984968016074_1_alg».proof.Proof.Gen.Kernel
import proofs.«111165_j61984968016074_1_alg».proof.Proof.Gen.Kernel.Skeleton
import proofs.«111165_j61984968016074_1_alg».proof.Proof.Gen.Kernel.Launch
import proofs.«111165_j61984968016074_1_alg».proof.Proof.Gen.Kernel.Points
import proofs.«111165_j61984968016074_1_alg».proof.Proof.Gen.Kernel.Frame
import proofs.«111165_j61984968016074_1_alg».proof.Proof.Gen.KernelIdeal
import proofs.«111165_j61984968016074_1_alg».proof.Proof.Gen.KernelIdeal.Skeleton
import proofs.«111165_j61984968016074_1_alg».proof.Proof.Gen.KernelIdeal.Launch
import proofs.«111165_j61984968016074_1_alg».proof.Proof.Gen.KernelIdeal.Points
import proofs.«111165_j61984968016074_1_alg».proof.Proof.Gen.KernelIdeal.Frame
import proofs.«111165_j61984968016074_1_alg».proof.Proof.Gen.ReferenceIdeal
import proofs.«111165_j61984968016074_1_alg».proof.Proof.Gen.Pre_finite_inputs
import proofs.«111165_j61984968016074_1_alg».proof.Proof.KRun
import proofs.«111165_j61984968016074_1_alg».proof.Proof.KRead
import proofs.«111165_j61984968016074_1_alg».proof.Proof.RefRun
import proofs.«111165_j61984968016074_1_alg».proof.Proof.RefTail
import proofs.«111165_j61984968016074_1_alg».proof.Proof.RefRead
import proofs.«111165_j61984968016074_1_alg».proof.Proof.PoolEq
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference terminates without a fault and leaves its arguments as launched: its run, read at the ten
    argument buffers, none of which any operation writes. -/
theorem frame_ri : Cert.frame_ReferenceIdeal := fun m ρ _ =>
  (θ_run Cert.ReferenceIdeal.defs _ _).mono (fun r h c =>
    ⟨(h c _).trans (Cert.ReferenceIdeal.Hand.ops_arg0 _),
     (h c _).trans (Cert.ReferenceIdeal.Hand.ops_arg1 _),
     (h c _).trans (Cert.ReferenceIdeal.Hand.ops_arg2 _),
     (h c _).trans (Cert.ReferenceIdeal.Hand.ops_arg3 _),
     (h c _).trans (Cert.ReferenceIdeal.Hand.ops_arg4 _),
     (h c _).trans (Cert.ReferenceIdeal.Hand.ops_arg5 _),
     (h c _).trans (Cert.ReferenceIdeal.Hand.ops_arg6 _),
     (h c _).trans (Cert.ReferenceIdeal.Hand.ops_arg7 _),
     (h c _).trans (Cert.ReferenceIdeal.Hand.ops_arg8 _),
     (h c _).trans (Cert.ReferenceIdeal.Hand.ops_arg9 _)⟩)
    (Cert.ReferenceIdeal.Hand.run (F := Ideal) m ρ)

/-- The idealization rewrote no operation. -/
theorem preserves : Cert.preserves_Kernel_KernelIdeal := trivial

set_option maxHeartbeats 1000000 in
/-- From memories agreeing on the ten arguments both programs end with the head's class scores and box deltas of the
    kernel program's pooled features and weights: the kernel program by its run and the three kernels' layer
    functions read entry by entry; the reference by its run, its last 35 operations read entry by entry, and the
    equality of the two programs' pooled features. -/
theorem algebraic : Cert.algebraic_KernelIdeal_ReferenceIdeal := by
  intro m ρ m' ρ' _ hagree
  refine ⟨fun c => Cert.Head.label (Cert.KernelIdeal.Hand.pooled m ρ c) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Head.deltas (Cert.KernelIdeal.Hand.pooled m ρ c) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.Hand.kernel_label m ρ c), (h c).2.1.trans (Cert.KernelIdeal.Hand.kernel_deltas m ρ c), (h c).2.2⟩)
      (Cert.KernelIdeal.Hand.run_results m ρ)
  · refine (θ_run Cert.ReferenceIdeal.defs _ _).mono (fun r h c => ?_) (Cert.ReferenceIdeal.Hand.run (F := Ideal) m' ρ')
    obtain ⟨a0, a1, a2, a3, a4, a5, a6, a7, a8, a9⟩ := hagree c
    have hp := Cert.PoolEq.pooled_eq m ρ (StableHlo.launchContents m' c) c a0 a1
    refine ⟨(h c _).trans ?_, (h c _).trans ?_,
      (h c _).trans (Cert.ReferenceIdeal.Hand.ops_arg0 _),
      (h c _).trans (Cert.ReferenceIdeal.Hand.ops_arg1 _),
      (h c _).trans (Cert.ReferenceIdeal.Hand.ops_arg2 _),
      (h c _).trans (Cert.ReferenceIdeal.Hand.ops_arg3 _),
      (h c _).trans (Cert.ReferenceIdeal.Hand.ops_arg4 _),
      (h c _).trans (Cert.ReferenceIdeal.Hand.ops_arg5 _),
      (h c _).trans (Cert.ReferenceIdeal.Hand.ops_arg6 _),
      (h c _).trans (Cert.ReferenceIdeal.Hand.ops_arg7 _),
      (h c _).trans (Cert.ReferenceIdeal.Hand.ops_arg8 _),
      (h c _).trans (Cert.ReferenceIdeal.Hand.ops_arg9 _)⟩
    · rw [Cert.ReferenceIdeal.Hand.after_ops, Cert.ReferenceIdeal.Hand.tail_label_head, hp, Cert.ReferenceIdeal.Hand.pre_arg2, Cert.ReferenceIdeal.Hand.pre_arg3, Cert.ReferenceIdeal.Hand.pre_arg4, Cert.ReferenceIdeal.Hand.pre_arg5, Cert.ReferenceIdeal.Hand.pre_arg6, Cert.ReferenceIdeal.Hand.pre_arg7]
      show Cert.Head.label _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
      rw [a2, a3, a4, a5, a6, a7]
    · rw [Cert.ReferenceIdeal.Hand.after_ops, Cert.ReferenceIdeal.Hand.tail_deltas_head, hp, Cert.ReferenceIdeal.Hand.pre_arg2, Cert.ReferenceIdeal.Hand.pre_arg3, Cert.ReferenceIdeal.Hand.pre_arg4, Cert.ReferenceIdeal.Hand.pre_arg5, Cert.ReferenceIdeal.Hand.pre_arg8, Cert.ReferenceIdeal.Hand.pre_arg9]
      show Cert.Head.deltas _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [a2, a3, a4, a5, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
